-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v20_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v20_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x524288 : Shape := ⟨2, ![2, 524288]⟩
abbrev S524288 : Shape := ⟨1, ![524288]⟩
abbrev S128x512 : Shape := ⟨2, ![128, 512]⟩
abbrev S512 : Shape := ⟨1, ![512]⟩
abbrev S128x128 : Shape := ⟨2, ![128, 128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S524288 : S_.BroadcastsInDim S524288 (![] : Fin 0 → Fin S524288.rank)
  reducesTo_S524288_S_d0 : S524288.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S16384x128 .f32) (main_arg1 : IVec S2x524288 32) (main_arg2 : FVec F S524288 .f32) (main_arg3 : FVec F S128x512 .f32) (main_arg4 : FVec F S512 .f32) (main_arg5 : FVec F S128x128 .f32) (main_arg6 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S524288 .f32 := Host.absf main_arg2
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S128x512 .f32 := Host.absf main_arg3
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S16384x128 : Shape := ⟨2, ![16384, 128]⟩
abbrev S2x524288 : Shape := ⟨2, ![2, 524288]⟩
abbrev S524288 : Shape := ⟨1, ![524288]⟩
abbrev S128x512 : Shape := ⟨2, ![128, 512]⟩
abbrev S512 : Shape := ⟨1, ![512]⟩
abbrev S128x128 : Shape := ⟨2, ![128, 128]⟩
abbrev S128 : Shape := ⟨1, ![128]⟩
abbrev S1x524288 : Shape := ⟨2, ![1, 524288]⟩
abbrev S_ : Shape := ⟨0, ![]⟩
abbrev S16384x16384 : Shape := ⟨2, ![16384, 16384]⟩
abbrev S524288x1 : Shape := ⟨2, ![524288, 1]⟩
abbrev S524288x2 : Shape := ⟨2, ![524288, 2]⟩
abbrev S16384x512 : Shape := ⟨2, ![16384, 512]⟩
abbrev S2048x128 : Shape := ⟨2, ![2048, 128]⟩
abbrev S2048x512 : Shape := ⟨2, ![2048, 512]⟩
abbrev S1x512 : Shape := ⟨2, ![1, 512]⟩
abbrev S2048 : Shape := ⟨1, ![2048]⟩
abbrev S2048x1 : Shape := ⟨2, ![2048, 1]⟩
abbrev S1x128 : Shape := ⟨2, ![1, 128]⟩
abbrev S512x128 : Shape := ⟨2, ![512, 128]⟩
abbrev S512x2048 : Shape := ⟨2, ![512, 2048]⟩
abbrev S8x512x512 : Shape := ⟨3, ![8, 512, 512]⟩
abbrev S2048x2048 : Shape := ⟨2, ![2048, 2048]⟩
abbrev S1x512x512 : Shape := ⟨3, ![1, 512, 512]⟩
abbrev S512x512 : Shape := ⟨2, ![512, 512]⟩

abbrev nBuf : Space → Nat
  | .hbm => 41
  | .vmem => 24
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S524288, .f32⟩
  | .hbm, ⟨3, _⟩ => ⟨S128x512, .f32⟩
  | .hbm, ⟨4, _⟩ => ⟨S512, .f32⟩
  | .hbm, ⟨5, _⟩ => ⟨S128x128, .f32⟩
  | .hbm, ⟨6, _⟩ => ⟨S128, .f32⟩
  | .hbm, ⟨7, _⟩ => ⟨S1x524288, .i32⟩
  | .hbm, ⟨8, _⟩ => ⟨S524288, .i32⟩
  | .hbm, ⟨9, _⟩ => ⟨S1x524288, .i32⟩
  | .hbm, ⟨10, _⟩ => ⟨S524288, .i32⟩
  | .hbm, ⟨11, _⟩ => ⟨S524288, .bf16⟩
  | .hbm, ⟨12, _⟩ => ⟨S_, .bf16⟩
  | .hbm, ⟨13, _⟩ => ⟨S16384x16384, .bf16⟩
  | .hbm, ⟨14, _⟩ => ⟨S_, .i32⟩
  | .hbm, ⟨15, _⟩ => ⟨S524288, .i32⟩
  | .hbm, ⟨16, _⟩ => ⟨S524288, .i1⟩
  | .hbm, ⟨17, _⟩ => ⟨S_, .i32⟩
  | .hbm, ⟨18, _⟩ => ⟨S524288, .i32⟩
  | .hbm, ⟨19, _⟩ => ⟨S524288, .i32⟩
  | .hbm, ⟨20, _⟩ => ⟨S524288, .i32⟩
  | .hbm, ⟨21, _⟩ => ⟨S_, .i32⟩
  | .hbm, ⟨22, _⟩ => ⟨S524288, .i32⟩
  | .hbm, ⟨23, _⟩ => ⟨S524288, .i1⟩
  | .hbm, ⟨24, _⟩ => ⟨S_, .i32⟩
  | .hbm, ⟨25, _⟩ => ⟨S524288, .i32⟩
  | .hbm, ⟨26, _⟩ => ⟨S524288, .i32⟩
  | .hbm, ⟨27, _⟩ => ⟨S524288, .i32⟩
  | .hbm, ⟨28, _⟩ => ⟨S524288x1, .i32⟩
  | .hbm, ⟨29, _⟩ => ⟨S524288x1, .i32⟩
  | .hbm, ⟨30, _⟩ => ⟨S524288x2, .i32⟩
  | .hbm, ⟨31, _⟩ => ⟨S16384x16384, .bf16⟩
  | .hbm, ⟨32, _⟩ => ⟨S16384x512, .f32⟩
  | .hbm, ⟨33, _⟩ => ⟨S16384x512, .bf16⟩
  | .hbm, ⟨34, _⟩ => ⟨S16384x128, .f32⟩
  | .hbm, ⟨35, _⟩ => ⟨S512x128, .f32⟩
  | .hbm, ⟨36, _⟩ => ⟨S8x512x512, .f32⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S512x512, .f32⟩
  | .local _ .vmem, ⟨0, _⟩ => ⟨S2048x128, .f32⟩
  | .local _ .vmem, ⟨1, _⟩ => ⟨S2048x128, .f32⟩
  | .local _ .vmem, ⟨2, _⟩ => ⟨S128x512, .f32⟩
  | .local _ .vmem, ⟨3, _⟩ => ⟨S512, .f32⟩
  | .local _ .vmem, ⟨4, _⟩ => ⟨S128x128, .f32⟩
  | .local _ .vmem, ⟨5, _⟩ => ⟨S128, .f32⟩
  | .local _ .vmem, ⟨6, _⟩ => ⟨S2048x512, .f32⟩
  | .local _ .vmem, ⟨7, _⟩ => ⟨S2048x512, .f32⟩
  | .local _ .vmem, ⟨8, _⟩ => ⟨S2048x512, .bf16⟩
  | .local _ .vmem, ⟨9, _⟩ => ⟨S2048x512, .bf16⟩
  | .local _ .vmem, ⟨10, _⟩ => ⟨S2048x128, .f32⟩
  | .local _ .vmem, ⟨11, _⟩ => ⟨S2048x128, .f32⟩
  | .local _ .vmem, ⟨12, _⟩ => ⟨S2048x512, .f32⟩
  | .local _ .vmem, ⟨13, _⟩ => ⟨S2048x512, .f32⟩
  | .local _ .vmem, ⟨14, _⟩ => ⟨S2048x128, .f32⟩
  | .local _ .vmem, ⟨15, _⟩ => ⟨S2048x128, .f32⟩
  | .local _ .vmem, ⟨16, _⟩ => ⟨S512x128, .f32⟩
  | .local _ .vmem, ⟨17, _⟩ => ⟨S512x128, .f32⟩
  | .local _ .vmem, ⟨18, _⟩ => ⟨S16384x512, .bf16⟩
  | .local _ .vmem, ⟨19, _⟩ => ⟨S2048x2048, .bf16⟩
  | .local _ .vmem, ⟨20, _⟩ => ⟨S2048x2048, .bf16⟩
  | .local _ .vmem, ⟨21, _⟩ => ⟨S1x512x512, .f32⟩
  | .local _ .vmem, ⟨22, _⟩ => ⟨S1x512x512, .f32⟩
  | .local _ .vmem, ⟨23, _⟩ => ⟨S512x2048, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v14 : BitVec 1 := Scalar.cmpi .eq arg0 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨2, ![8, 8], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def k2_mult2 (i : grid2.Coords) : BitVec 32 :=
  let arg0 : BitVec 32 := BitVec.ofNat 32 (i 0).val
  let c2048_i32_8 : BitVec 32 := 2048#32
  let v20 : BitVec 32 := Scalar.muli arg0 c2048_i32_8
  v20
def k2_off2 (i : grid2.Coords) : Fin 2 → Nat :=
  let arg0 : BitVec 32 := BitVec.ofNat 32 (i 0).val
  let c2048_i32_8 : BitVec 32 := 2048#32
  let v20 : BitVec 32 := Scalar.muli arg0 c2048_i32_8
  let v21 : BitVec 32 := v20
  let v22 : Index := Scalar.indexCast v21
  let c0_9 : Index := 0#32
  ![v22.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S16384x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bitsLt_bf16_f32 : FTy.bits .bf16 < FTy.bits .f32
  bcast_S_S16384x16384 : S_.BroadcastsInDim S16384x16384 (![] : Fin 0 → Fin S16384x16384.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  inb_S2048x128_S2048x128_0_0 : ∀ a, (![0, 0] : Fin 2 → Nat) a + S2048x128.size a ≤ S2048x128.size a
  h_S2048x128 : 0 < S2048x128.numel
  inb_S128x512_S128x512_0_0 : ∀ a, (![0, 0] : Fin 2 → Nat) a + S128x512.size a ≤ S128x512.size a
  h_S128x512 : 0 < S128x512.numel
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S2048x512_S2048x512 : S2048x512.ShapeCasts S2048x512
  transposes_S2048x512_p1_0_S512x2048 : S2048x512.Transposes [1, 0] S512x2048
  shapeCasts_S2048x128_S2048x128 : S2048x128.ShapeCasts S2048x128
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  reducesTo_S8x512x512_S512x512_d0 : S8x512x512.ReducesTo [0] S512x512
  h_S_ : 0 < S_.numel
  transposes_S512x512_S512x512_1_0 : S512x512.Transposes [1, 0] S512x512
  scatter_S16384x16384_S524288x2_S524288_n_01_01_1_wf : ScatterDims.WF S16384x16384 S524288x2 S524288 [] [0, 1] [0, 1] 1
  dot_S2048x128_S128x512_S2048x512_1_0_0_1_n_n_wf : DotDims.WF S2048x128 S128x512 S2048x512 [1] [0] [0] [1] [] []
  dot_S2048x128_S128x128_S2048x128_1_0_0_1_n_n_wf : DotDims.WF S2048x128 S128x128 S2048x128 [1] [0] [0] [1] [] []
  dot_S512x2048_S2048x128_S512x128_1_0_0_1_n_n_wf : DotDims.WF S512x2048 S2048x128 S512x128 [1] [0] [0] [1] [] []
  dot_S512x2048_S2048x2048_S512x2048_1_0_0_1_n_n_wf : DotDims.WF S512x2048 S2048x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S16384x512.size a
  hwx0_5 : ∀ i : grid0.Coords, EltTy.bits .f32 = 32 ∨ (Rect.block (s := S16384x512) S2048x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S16384x512.size a
  hwx0_6 : ∀ i : grid0.Coords, EltTy.bits .bf16 = 32 ∨ (Rect.block (s := S16384x512) S2048x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S16384x128.size a
  hwx0_7 : ∀ i : grid0.Coords, EltTy.bits .f32 = 32 ∨ (Rect.block (s := S16384x128) S2048x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S16384x512.size a
  hwx1_0 : ∀ i : grid1.Coords, EltTy.bits .f32 = 32 ∨ (Rect.block (s := S16384x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x512.size a ≤ S16384x512.size a
  k2_mult2_dvd : ∀ i : grid2.Coords, ∀ (k2_h2 : k2_cond2 i = 1#1), 2048 ∣ (k2_mult2 i).toNat
  k2_off2_inb : ∀ i : grid2.Coords, ∀ (k2_h2 : k2_cond2 i = 1#1), ∀ a, (k2_off2 i) a + S2048x512.size a ≤ S16384x512.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S16384x512.size a ≤ S16384x512.size a
  hwx2_0 : ∀ i : grid2.Coords, EltTy.bits .bf16 = 32 ∨ (Rect.block (s := S16384x512) S16384x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S16384x16384.size a
  hwx2_1 : ∀ i : grid2.Coords, EltTy.bits .bf16 = 32 ∨ (Rect.block (s := S16384x16384) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x512.size a ≤ S8x512x512.size a
  hwx2_2 : ∀ i : grid2.Coords, EltTy.bits .f32 = 32 ∨ (Rect.block (s := S8x512x512) S1x512x512.size (cc2_transform_2 i) (hinb2_2 i)).WholeWords (EltTy.packing .f32)

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S2048x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S2048x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20_0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20_2) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S512x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v20_1) S16384x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v19) S2048x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S16384x128 : Shape := ⟨2, ![16384, 128]⟩
abbrev S2x524288 : Shape := ⟨2, ![2, 524288]⟩
abbrev S524288 : Shape := ⟨1, ![524288]⟩
abbrev S128x512 : Shape := ⟨2, ![128, 512]⟩
abbrev S512 : Shape := ⟨1, ![512]⟩
abbrev S128x128 : Shape := ⟨2, ![128, 128]⟩
abbrev S128 : Shape := ⟨1, ![128]⟩
abbrev S16384x512 : Shape := ⟨2, ![16384, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S1x128 : Shape := ⟨2, ![1, 128]⟩
abbrev S512x16384 : Shape := ⟨2, ![512, 16384]⟩
abbrev S512x128 : Shape := ⟨2, ![512, 128]⟩
abbrev S1x524288 : Shape := ⟨2, ![1, 524288]⟩
abbrev S16384x16384 : Shape := ⟨2, ![16384, 16384]⟩
abbrev S524288x1 : Shape := ⟨2, ![524288, 1]⟩
abbrev S524288x2 : Shape := ⟨2, ![524288, 2]⟩
abbrev S512x512 : Shape := ⟨2, ![512, 512]⟩

abbrev nBuf : Space → Nat
  | .hbm => 60
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S524288, .f32⟩
  | .hbm, ⟨3, _⟩ => ⟨S128x512, .f32⟩
  | .hbm, ⟨4, _⟩ => ⟨S512, .f32⟩
  | .hbm, ⟨5, _⟩ => ⟨S128x128, .f32⟩
  | .hbm, ⟨6, _⟩ => ⟨S128, .f32⟩
  | .hbm, ⟨7, _⟩ => ⟨S16384x512, .f32⟩
  | .hbm, ⟨8, _⟩ => ⟨S1x512, .f32⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S16384x1, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x512, .f32⟩
  | .hbm, ⟨24, _⟩ => ⟨S16384x512, .f32⟩
  | .hbm, ⟨25, _⟩ => ⟨S16384x128, .f32⟩
  | .hbm, ⟨26, _⟩ => ⟨S1x128, .f32⟩
  | .hbm, ⟨27, _⟩ => ⟨S16384x128, .f32⟩
  | .hbm, ⟨28, _⟩ => ⟨S16384x128, .f32⟩
  | .hbm, ⟨29, _⟩ => ⟨S512x16384, .f32⟩
  | .hbm, ⟨30, _⟩ => ⟨S512x128, .f32⟩
  | .hbm, ⟨31, _⟩ => ⟨S1x524288, .i32⟩
  | .hbm, ⟨32, _⟩ => ⟨S524288, .i32⟩
  | .hbm, ⟨33, _⟩ => ⟨S1x524288, .i32⟩
  | .hbm, ⟨34, _⟩ => ⟨S524288, .i32⟩
  | .hbm, ⟨35, _⟩ => ⟨S_, .f32⟩
  | .hbm, ⟨36, _⟩ => ⟨S16384x16384, .f32⟩
  | .hbm, ⟨37, _⟩ => ⟨S_, .i32⟩
  | .hbm, ⟨38, _⟩ => ⟨S524288, .i32⟩
  | .hbm, ⟨39, _⟩ => ⟨S524288, .i1⟩
  | .hbm, ⟨40, _⟩ => ⟨S_, .i32⟩
  | .hbm, ⟨41, _⟩ => ⟨S524288, .i32⟩
  | .hbm, ⟨42, _⟩ => ⟨S524288, .i32⟩
  | .hbm, ⟨43, _⟩ => ⟨S524288, .i32⟩
  | .hbm, ⟨44, _⟩ => ⟨S_, .i32⟩
  | .hbm, ⟨45, _⟩ => ⟨S524288, .i32⟩
  | .hbm, ⟨46, _⟩ => ⟨S524288, .i1⟩
  | .hbm, ⟨47, _⟩ => ⟨S_, .i32⟩
  | .hbm, ⟨48, _⟩ => ⟨S524288, .i32⟩
  | .hbm, ⟨49, _⟩ => ⟨S524288, .i32⟩
  | .hbm, ⟨50, _⟩ => ⟨S524288, .i32⟩
  | .hbm, ⟨51, _⟩ => ⟨S524288x1, .i32⟩
  | .hbm, ⟨52, _⟩ => ⟨S524288x1, .i32⟩
  | .hbm, ⟨53, _⟩ => ⟨S524288x2, .i32⟩
  | .hbm, ⟨54, _⟩ => ⟨S16384x16384, .f32⟩
  | .hbm, ⟨55, _⟩ => ⟨S16384x16384, .f32⟩
  | .hbm, ⟨56, _⟩ => ⟨S16384x16384, .f32⟩
  | .hbm, ⟨57, _⟩ => ⟨S512x16384, .f32⟩
  | .hbm, ⟨58, _⟩ => ⟨S512x16384, .f32⟩
  | .hbm, ⟨59, _⟩ => ⟨S512x512, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384x512_S16384_d1 : S16384x512.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S16384x512_S512x16384_1_0 : S16384x512.Transposes [1, 0] S512x16384
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S16384x16384 : S_.BroadcastsInDim S16384x16384 (![] : Fin 0 → Fin S16384x16384.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  transposes_S16384x16384_S16384x16384_1_0 : S16384x16384.Transposes [1, 0] S16384x16384
  dot_S16384x128_S128x512_S16384x512_1_0_0_1_n_n_wf : DotDims.WF S16384x128 S128x512 S16384x512 [1] [0] [0] [1] [] []
  dot_S16384x128_S128x128_S16384x128_1_0_0_1_n_n_wf : DotDims.WF S16384x128 S128x128 S16384x128 [1] [0] [0] [1] [] []
  dot_S512x16384_S16384x128_S512x128_1_0_0_1_n_n_wf : DotDims.WF S512x16384 S16384x128 S512x128 [1] [0] [0] [1] [] []
  scatter_S16384x16384_S524288x2_S524288_n_01_01_1_wf : ScatterDims.WF S16384x16384 S524288x2 S524288 [] [0, 1] [0, 1] 1
  dot_S512x16384_S16384x16384_S512x16384_1_0_0_1_n_n_wf : DotDims.WF S512x16384 S16384x16384 S512x16384 [1] [0] [0] [1] [] []
  dot_S512x16384_S16384x512_S512x512_1_0_0_1_n_n_wf : DotDims.WF S512x16384 S16384x512 S512x512 [1] [0] [0] [1] [] []

variable [Facts₀]

def dot_S16384x128_S128x512_S16384x512_1_0_0_1_n_n : DotDims S16384x128 S128x512 S16384x512 where
  lhsContracting := [1]
  rhsContracting := [0]
  lhsNonContracting := [0]
  rhsNonContracting := [1]
  lhsBatch := []
  rhsBatch := []
  wf := dot_S16384x128_S128x512_S16384x512_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S512x16384_S16384x128_S512x128_1_0_0_1_n_n : DotDims S512x16384 S16384x128 S512x128 where
  lhsContracting := [1]
  rhsContracting := [0]
  lhsNonContracting := [0]
  rhsNonContracting := [1]
  lhsBatch := []
  rhsBatch := []
  wf := dot_S512x16384_S16384x128_S512x128_1_0_0_1_n_n_wf
def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S512x16384_S16384x16384_S512x16384_1_0_0_1_n_n : DotDims S512x16384 S16384x16384 S512x16384 where
  lhsContracting := [1]
  rhsContracting := [0]
  lhsNonContracting := [0]
  rhsNonContracting := [1]
  lhsBatch := []
  rhsBatch := []
  wf := dot_S512x16384_S16384x16384_S512x16384_1_0_0_1_n_n_wf
def dot_S512x16384_S16384x512_S512x512_1_0_0_1_n_n : DotDims S512x16384 S16384x512 S512x512 where
  lhsContracting := [1]
  rhsContracting := [0]
  lhsNonContracting := [0]
  rhsNonContracting := [1]
  lhsBatch := []
  rhsBatch := []
  wf := dot_S512x16384_S16384x512_S512x512_1_0_0_1_n_n_wf

class Facts : Prop extends Facts₀ where

variable [Facts]
-- ==== Proof.K.R0.lean ====
import proofs.«105494_j56573309223698_2_alg».proof.Proof.Gen.Kernel.Launch
import proofs.«105494_j56573309223698_2_alg».proof.Proof.Gen.Kernel.Skeleton
import proofs.«105494_j56573309223698_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region: per block of 2048 rows, the softmax of the logits (in two formats) and the features

The region is stated at a parameter `V`, the buffer contents when the region is entered. Each of the five input
windows holds its block of its array at every grid point; each of the three output windows ends the body holding the
body's value of the input blocks. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: every load and store is of a whole staging buffer -/

abbrev rX : Rect S2048x128 := Rect.unit (s := S2048x128) ![0, 0] S2048x128.size inb_S2048x128_S2048x128_0_0
abbrev rWa : Rect S128x512 := Rect.unit (s := S128x512) ![0, 0] S128x512.size inb_S128x512_S128x512_0_0
abbrev rBa : Rect S512 := Rect.unit (s := S512) ![0] S512.size inb_S512_S512_0
abbrev rWf : Rect S128x128 := Rect.unit (s := S128x128) ![0, 0] S128x128.size inb_S128x128_S128x128_0_0
abbrev rBf : Rect S128 := Rect.unit (s := S128) ![0] S128.size inb_S128_S128_0
abbrev rS : Rect S2048x512 := Rect.unit (s := S2048x512) ![0, 0] S2048x512.size inb_S2048x512_S2048x512_0_0

/-- The softmax block (f32) the body leaves, from the blocks of `x`, `Wa`, `ba`. -/
def out0_5 (x0 : Vec F S2048x128 .f32) (x1 : Vec F S128x512 .f32) (x2 : Vec F S512 .f32) : Vec F S2048x512 .f32 :=
  View.canon [⟨rS, k0_pay1 (View.ld x0 rX) (View.ld x1 rWa) (View.ld x2 rBa)⟩]
/-- The same block in the narrower format. -/
def out0_6 (x0 : Vec F S2048x128 .f32) (x1 : Vec F S128x512 .f32) (x2 : Vec F S512 .f32) : Vec F S2048x512 .bf16 :=
  View.canon [⟨rS, k0_pay2 (View.ld x0 rX) (View.ld x1 rWa) (View.ld x2 rBa)⟩]
/-- The feature block, from the blocks of `x`, `Wf`, `bf`. -/
def out0_7 (x0 : Vec F S2048x128 .f32) (x3 : Vec F S128x128 .f32) (x4 : Vec F S128 .f32) : Vec F S2048x128 .f32 :=
  View.canon [⟨rX, k0_pay3 (View.ld x0 rX) (View.ld x3 rWf) (View.ld x4 rBf)⟩]

theorem cover0_5 (p0 : Vec F S2048x512 .f32) (y : S2048x512.Idx) :
    ∃ pc ∈ ([⟨rS, p0⟩] : List (View.Piece (Elt F) S2048x512 .f32)), y ∈ pc.1.set :=
  View.cover_of_tiled [⟨rS, p0⟩] S2048x512.size (by rfl) y
theorem cover0_6 (p0 : Vec F S2048x512 .bf16) (y : S2048x512.Idx) :
    ∃ pc ∈ ([⟨rS, p0⟩] : List (View.Piece (Elt F) S2048x512 .bf16)), y ∈ pc.1.set :=
  View.cover_of_tiled [⟨rS, p0⟩] S2048x512.size (by rfl) y
theorem cover0_7 (p0 : Vec F S2048x128 .f32) (y : S2048x128.Idx) :
    ∃ pc ∈ ([⟨rX, p0⟩] : List (View.Piece (Elt F) S2048x128 .f32)), y ∈ pc.1.set :=
  View.cover_of_tiled [⟨rX, p0⟩] S2048x128.size (by rfl) y

set_option maxHeartbeats 4000000 in
/-- The body on whole staging buffers: the inputs are left as they were, each output ends at its value. -/
theorem sound_kernel0 (c : Dev nD) (E : Set ℕ) (i : grid0.Coords)
    (arg1 : Memref sig .tc .vmem S2048x128 .f32) (harg1 : arg1.IsWhole) (arg2 : Memref sig .tc .vmem S128x512 .f32) (harg2 : arg2.IsWhole)
    (arg3 : Memref sig .tc .vmem S512 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S2048x512 .f32) (harg6 : arg6.IsWhole)
    (arg7 : Memref sig .tc .vmem S2048x512 .bf16) (harg7 : arg7.IsWhole) (arg8 : Memref sig .tc .vmem S2048x128 .f32) (harg8 : arg8.IsWhole)
    (x0 : Vec F S2048x128 .f32) (x1 : Vec F S128x512 .f32) (x2 : Vec F S512 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2)
            ∗ owns (c : Thread nD τ) arg8 fullShare (out0_7 x0 x3 x4)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The proof data -/

/-- The proof data of the first region on core `c`: the arrays as the region finds them; after the body at point `t`
    each input's buffer at its block and each output's at its value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t)
    | ⟨7, _⟩ => out0_7 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]
theorem after0_7 (c : Dev nD) (t : Fin cfg0.N) : (dat0 V c).after 7 t = out0_7 (iblk0 V c 0 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1Base.lean ====
/-
  Region 1 (the pooling kernel: eight grid points, a 512×128 accumulator carried between them) — what its
  per-case runs and its proof data share: the windows' blocks read off the arrays the region finds, the two
  branch conditions in closed form over the grid, where the output window is idle, the staging and scratch
  memrefs, and the region invariant with the accumulator owned as a memref.
-/
import proofs.«105494_j56573309223698_2_alg».proof.Proof.Gen.Kernel.Launch
import proofs.«105494_j56573309223698_2_alg».proof.Proof.Gen.Kernel.Skeleton
import proofs.«105494_j56573309223698_2_alg».proof.Proof.Gen.Kernel.Points
import Idealize.ShloMosaic.Lib.Pipeline.FrameBody
import Idealize.ShloMosaic.Lib.Ring
import Idealize.ShloMosaic.Lib.Tactic

-- membership in a rectangle of full-size extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block (rows `2048 t … 2048 t + 2047` of the assignment
    matrix) at every point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block (the same rows of the features) at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the accumulator is zeroed), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (the accumulator is copied to the output). -/
abbrev cond1_1 (i : grid1.Coords) : Prop := k1_cond2 i = 1#1
/-- It holds at the last point only — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the second conditional is not taken the output window is idle: nothing is stored into it, -/
theorem idleAt1_2 : ∀ t : Fin cfg1.N, ¬cond1_1 (grid1.coords t) → cfg1.idle 2 (grid1.coords t) = true := by decide +kernel
/-- and the pipeline does not write its block back there. -/
theorem noFlush1_2 : ∀ t : Fin cfg1.N, ¬cond1_1 (grid1.coords t) → (cfg1.win 2).flush t = false := by decide +kernel
/-- At the last point the output window is live. -/
theorem liveAt1_2 : ∀ t : Fin cfg1.N, cond1_1 (grid1.coords t) → cfg1.idle 2 (grid1.coords t) = false := by decide +kernel

/-! ## The staging and scratch memrefs -/

/-- The one staging buffer of the output window, through which its contents are stated. -/
abbrev VO1_2 : View sig .tc .vmem S512x128 .f32 := (Memref.whole cc1_stg2_0 : Memref sig .tc .vmem S512x128 .f32).view
/-- Each window's current staging memref at point `t`, spelled as the pipeline passes it, and its wholeness. -/
abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1_0 : Memref sig .tc .vmem S512x128 .f32 := Memref.whole cc1_scratch0
/-- The accumulator as a view: what it holds is stated through it. -/
abbrev VS1_0 : View sig .tc .vmem S512x128 .f32 := scM1_0.view

/-- The core's other scoped buffers (the staging buffers and scratch of the two neighbouring regions), each whole
    at some contents: region 1 never touches them. -/
def restO1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_scratch0), ((c : Thread nD τ).loc cc2_scratch0) ↦{fullShare} f))

/-- The class invariant hands out the accumulator as a memref owned at some contents, beside the other scoped
    buffers and the generator register, -/
theorem PhiA1_split (c : Dev nD) :
    (Pipeline.ΦA spec1 c : sProp 𝕄)
      ⊢ iprop((∃ d, owns (c : Thread nD τ) scM1_0 fullShare d) ∗ restO1 (F := F) c ∗ (∃ r, prngReg c r)) := by
  unfold Pipeline.ΦA restO1; rw [scopedRest1_eq]; simp only [scM1_0, owns_whole]
  iintro ⟨⟨H1, H2, H3, H4, H5, H6, H7, H8, H9, H10, H11, H12, HS, H14, H15, H16, H17, H18, H19⟩, Hg⟩
  isplitl [HS]; · iexact HS
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H14]; · iexact H14
  isplitl [H15]; · iexact H15
  isplitl [H16]; · iexact H16
  isplitl [H17]; · iexact H17
  isplitl [H18]; · iexact H18
  iexact H19

/-- and takes it back. -/
theorem PhiA1_join (c : Dev nD) :
    iprop((∃ d, owns (c : Thread nD τ) scM1_0 fullShare d) ∗ restO1 (F := F) c ∗ (∃ r, prngReg c r))
      ⊢ (Pipeline.ΦA spec1 c : sProp 𝕄) := by
  unfold Pipeline.ΦA restO1; rw [scopedRest1_eq]; simp only [scM1_0, owns_whole]
  iintro ⟨HS, ⟨H1, H2, H3, H4, H5, H6, H7, H8, H9, H10, H11, H12, H14, H15, H16, H17, H18, H19⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  isplitl [H14]; · iexact H14
  isplitl [H15]; · iexact H15
  isplitl [H16]; · iexact H16
  isplitl [H17]; · iexact H17
  isplitl [H18]; · iexact H18
  iexact H19

/-- The two as one equation. -/
theorem PhiA1_eq (c : Dev nD) :
    (Pipeline.ΦA spec1 c : sProp 𝕄)
      = iprop((∃ d, owns (c : Thread nD τ) scM1_0 fullShare d) ∗ restO1 (F := F) c ∗ (∃ r, prngReg c r)) :=
  BI.equiv_iff.mp ⟨PhiA1_split c, PhiA1_join c⟩

end Cert.Kernel.Fr

end
-- ==== Proof.K.R1RunA.lean ====
/-
  Region 1, the first grid point: the accumulator (at anything) is zeroed, then the product of the transposed
  block of the assignment matrix with the block of the features is added to it; the output window is not touched.
-/
import proofs.«105494_j56573309223698_2_alg».proof.Proof.K.R1Base

-- membership in a rectangle of full-size extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref (nothing) and in the accumulator, as pieces (last
    first), at the first point (first conditional taken, second not), WITH the proof that on whole memrefs — the
    two inputs' at their contents `x0`, `x1`, the output's at contents `xi2` handed back untouched, the accumulator
    at anything — the body runs to the continuation holding the inputs' as they were and the accumulator with its
    pieces written. The pieces are the witness the run finds. -/
noncomputable def kernelRun1_A (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : cond1_0 i) (hc1 : ¬cond1_1 i)
    (x0 : Vec F S2048x512 .f32) (x1 : Vec F S2048x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__pool_x_kernel i arg1 harg1 arg2 harg2 arg3 harg3 arg4 harg4) K } := by
  refine ⟨[], ?_, fun xi2 E K => ?run⟩
  case run =>
    simp only [cc1__pool_x_kernel_eq_skeleton]; unfold cc1__pool_x_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Fr

end
-- ==== Proof.K.R1RunB.lean ====
/-
  Region 1, the middle grid points 1 … 6: the product of the transposed block of the assignment matrix with the
  block of the features is added to the accumulator the point before left; the output window is not touched.
-/
import proofs.«105494_j56573309223698_2_alg».proof.Proof.K.R1RunA

-- membership in a rectangle of full-size extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same at a middle point (neither conditional taken): the accumulator enters at `xs0`, what the point
    before left. -/
noncomputable def kernelRun1_B (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : ¬cond1_1 i)
    (x0 : Vec F S2048x512 .f32) (x1 : Vec F S2048x128 .f32) (xs0 : Vec F S512x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__pool_x_kernel i arg1 harg1 arg2 harg2 arg3 harg3 arg4 harg4) K } := by
  refine ⟨[], ?_, fun xi2 E K => ?run⟩
  case run =>
    simp only [cc1__pool_x_kernel_eq_skeleton]; unfold cc1__pool_x_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Fr

end
-- ==== Proof.K.R1RunC.lean ====
/-
  Region 1, the last grid point: the product is added to the accumulator the point before left, and the
  accumulator is then copied whole into the output window's staging buffer.
-/
import proofs.«105494_j56573309223698_2_alg».proof.Proof.K.R1RunB

-- membership in a rectangle of full-size extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same at the last point (second conditional taken): the output's memref enters at anything and leaves with
    its pieces `L2` written. -/
noncomputable def kernelRun1_C (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : cond1_1 i)
    (x0 : Vec F S2048x512 .f32) (x1 : Vec F S2048x128 .f32) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__pool_x_kernel i arg1 harg1 arg2 harg2 arg3 harg3 arg4 harg4) K } := by
  refine ⟨?_, ?_, fun E K => ?run⟩
  case run =>
    simp only [cc1__pool_x_kernel_eq_skeleton]; unfold cc1__pool_x_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Fr

end
-- ==== Proof.K.R1.lean ====
/-
  Region 1 (the pooling kernel), the proof data and the body obligation at the contents `V` the region is entered
  with. After point `n` the accumulator holds what the case of that point leaves over what point `n - 1` left
  (`outsAt1`); the output window's staging buffer is stored at the last point only and idle elsewhere; the
  region invariant is the class's before the first point and afterwards carries the accumulator at `outsAt1`'s
  second component.
-/
import proofs.«105494_j56573309223698_2_alg».proof.Proof.K.R1RunC

-- membership in a rectangle of full-size extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At the first point nothing is stored into the output window (it is idle there and not written back): no pieces — a
    placeholder that nothing consults. -/
def out1_A_2 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : cond1_0 i) (hc1 : ¬cond1_1 i)
    (x0 : Vec F S2048x512 .f32) (x1 : Vec F S2048x128 .f32) : Vec F S512x128 .f32 :=
  VO1_2.read (Elt F) (VO1_2.writes (Elt F) VO1_2.junk (kernelRun1_A c i arg1 harg1 arg2 harg2 arg3 harg3 arg4 harg4 hc0 hc1 x0 x1).1)

/-- The pieces stored into the accumulator at the first point cover it (whole-buffer stores). -/
theorem scover1_A_0 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : cond1_0 i) (hc1 : ¬cond1_1 i)
    (x0 : Vec F S2048x512 .f32) (x1 : Vec F S2048x128 .f32) (y : S512x128.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S512x128.size (by sl_kernel_rfl) y

/-- What the first point leaves in the accumulator: its pieces read back. -/
def sout1_A_0 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : cond1_0 i) (hc1 : ¬cond1_1 i)
    (x0 : Vec F S2048x512 .f32) (x1 : Vec F S2048x128 .f32) : Vec F S512x128 .f32 :=
  VS1_0.read (Elt F) (VS1_0.writes (Elt F) VS1_0.junk (kernelRun1_A c i arg1 harg1 arg2 harg2 arg3 harg3 arg4 harg4 hc0 hc1 x0 x1).2.1)

/-- At a middle point nothing is stored into the output window (it is idle there and not written back): no pieces — a
    placeholder that nothing consults. -/
def out1_B_2 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : ¬cond1_1 i)
    (x0 : Vec F S2048x512 .f32) (x1 : Vec F S2048x128 .f32) (xs0 : Vec F S512x128 .f32) : Vec F S512x128 .f32 :=
  VO1_2.read (Elt F) (VO1_2.writes (Elt F) VO1_2.junk (kernelRun1_B c i arg1 harg1 arg2 harg2 arg3 harg3 arg4 harg4 hc0 hc1 x0 x1 xs0).1)

/-- The pieces stored into the accumulator at a middle point cover it (whole-buffer stores). -/
theorem scover1_B_0 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : ¬cond1_1 i)
    (x0 : Vec F S2048x512 .f32) (x1 : Vec F S2048x128 .f32) (xs0 : Vec F S512x128 .f32) (y : S512x128.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S512x128.size (by sl_kernel_rfl) y

/-- What a middle point leaves in the accumulator: its pieces read back. -/
def sout1_B_0 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : ¬cond1_1 i)
    (x0 : Vec F S2048x512 .f32) (x1 : Vec F S2048x128 .f32) (xs0 : Vec F S512x128 .f32) : Vec F S512x128 .f32 :=
  VS1_0.read (Elt F) (VS1_0.writes (Elt F) VS1_0.junk (kernelRun1_B c i arg1 harg1 arg2 harg2 arg3 harg3 arg4 harg4 hc0 hc1 x0 x1 xs0).2.1)

/-- At the last point the one store into the output window covers its block. -/
theorem cover1_C_2 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : cond1_1 i)
    (x0 : Vec F S2048x512 .f32) (x1 : Vec F S2048x128 .f32) (xs0 : Vec F S512x128 .f32) (y : S512x128.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S512x128.size (by sl_kernel_rfl) y

/-- What the last point leaves in the output window's staging buffer: its pieces read back. -/
def out1_C_2 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : cond1_1 i)
    (x0 : Vec F S2048x512 .f32) (x1 : Vec F S2048x128 .f32) (xs0 : Vec F S512x128 .f32) : Vec F S512x128 .f32 :=
  VO1_2.read (Elt F) (VO1_2.writes (Elt F) VO1_2.junk (kernelRun1_C c i arg1 harg1 arg2 harg2 arg3 harg3 arg4 harg4 hc0 hc1 x0 x1 xs0).1)

/-- The pieces stored into the accumulator at the last point cover it (whole-buffer stores). -/
theorem scover1_C_0 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : cond1_1 i)
    (x0 : Vec F S2048x512 .f32) (x1 : Vec F S2048x128 .f32) (xs0 : Vec F S512x128 .f32) (y : S512x128.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S512x128.size (by sl_kernel_rfl) y

/-- What the last point leaves in the accumulator: its pieces read back. -/
def sout1_C_0 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : cond1_1 i)
    (x0 : Vec F S2048x512 .f32) (x1 : Vec F S2048x128 .f32) (xs0 : Vec F S512x128 .f32) : Vec F S512x128 .f32 :=
  VS1_0.read (Elt F) (VS1_0.writes (Elt F) VS1_0.junk (kernelRun1_C c i arg1 harg1 arg2 harg2 arg3 harg3 arg4 harg4 hc0 hc1 x0 x1 xs0).2.1)

/-! ## What the output window's buffer and the accumulator hold after each point -/

/-- THE ACCUMULATION. After the body at position `n`: (the output window's staging buffer, the accumulator) — the
    case the closed forms select at `n`, run at the point's memrefs and input blocks, the accumulator entering at what
    position `n - 1` left. Both conditions at once is no case. -/
def outsAt1 (c : Dev nD) : (n : ℕ) → n < cfg1.N → Vec F S512x128 .f32 × Vec F S512x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at the first point. -/
theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle point: over what the point before left. -/
theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point: over what the point before left. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers at anything, the
    generator register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ restO1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ restO1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ restO1 (F := F) c ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases h0 : t.val % 8 = 0
  · by_cases h1 : t.val % 8 = 7
    · exfalso; omega
    · -- the first point
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [Dat.leavesExact_idle (dat1 V c) 2 t (idleAt1_2 t (fun h => h1 ((hcond1_1 t).mp h))) (noFlush1_2 t (fun h => h1 ((hcond1_1 t).mp h)))]
        rw [outsAt1_A V c t h0 h1]
        unfold sout1_A_0; (try dsimp only)
        have hz : t.val = 0 := by omega
        rw [PhiS1_castSucc V c t, PhiS1_zero V c _ _ hz, PhiA1_eq]
        iintro ⟨⟨HS0, HR, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0]
          · unfold owns; iexists _; isplitr
            swap; · iexact HS0
            ipureintro; exact View.read_writes_of_cover _ _ _ _ _ (scover1_A_0 c _ _ _ _ _ _ _ _ _ _ _ _ _)
          isplitl [HR]; · iexact HR
          iexact Hg
        isplitl [Ho]; · iexact Ho
        isplitl [H0]; · iexact H0
        isplitl [H1]; · iexact H1
        iexists _; iexact H2
  · by_cases h1 : t.val % 8 = 7
    · -- the last point
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t ((hcond1_1 t).mpr h1)], after1_2]
        rw [outsAt1_C V c t h0 h1]
        unfold out1_C_2 sout1_C_0; (try dsimp only)
        have hz : t.val ≠ 0 := by omega
        rw [PhiS1_castSucc V c t, PhiS1_pos V c _ _ hz]
        iintro ⟨⟨HS0, HR, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0]
          · unfold owns; iexists _; isplitr
            swap; · iexact HS0
            ipureintro; exact View.read_writes_of_cover _ _ _ _ _ (scover1_C_0 c _ _ _ _ _ _ _ _ _ _ _ _ _ _)
          isplitl [HR]; · iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · -- a middle point
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [Dat.leavesExact_idle (dat1 V c) 2 t (idleAt1_2 t (fun h => h1 ((hcond1_1 t).mp h))) (noFlush1_2 t (fun h => h1 ((hcond1_1 t).mp h)))]
        rw [outsAt1_B V c t h0 h1]
        unfold sout1_B_0; (try dsimp only)
        have hz : t.val ≠ 0 := by omega
        rw [PhiS1_castSucc V c t, PhiS1_pos V c _ _ hz]
        iintro ⟨⟨HS0, HR, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0]
          · unfold owns; iexists _; isplitr
            swap; · iexact HS0
            ipureintro; exact View.read_writes_of_cover _ _ _ _ _ (scover1_B_0 c _ _ _ _ _ _ _ _ _ _ _ _ _ _)
          isplitl [HR]; · iexact HR
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, HR, Hg⟩
  isplitl [HS0]; · iexists _; iexact HS0
  isplitl [HR]; · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Cert.Kernel.Fr

end
-- ==== Proof.K.R2Base.lean ====
/-
  Region 2 (the second-stage pooling call, an 8 × 8 grid): what its three case runs share.

  The grid point t has inner coordinate i = t % 8 (grid coordinate 1) and outer coordinate j = t / 8 (grid
  coordinate 0).  Window 0 is the whole assignment matrix (fetched once), window 1 a 2048 × 2048 block of the
  dense adjacency (block index (i, j)), window 2 one 512 × 512 slab of the result (block index j), written back
  at the points with i = 7.  The body keeps a 512 × 2048 accumulator in a scratch buffer that is carried from
  point to point: it is zeroed where i = 0, added to at every point, and multiplied into the slab where i = 7.
  Everything is stated at a parameter V, the buffer contents when the region is entered.
-/
import proofs.«105494_j56573309223698_2_alg».proof.Proof.Gen.Kernel.Launch
import proofs.«105494_j56573309223698_2_alg».proof.Proof.Gen.Kernel.Skeleton
import proofs.«105494_j56573309223698_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point: it is fetched at the first point only, and
    afterwards its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point (it is fetched at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, in closed form over the grid -/

/-- The first conditional: the inner coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional: the inner coordinate is 7. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Where the inner coordinate is not 7 the slab is neither stored into nor written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where it is 7 the slab is stored. -/
theorem liveAt2_2 : ∀ t : Fin cfg2.N, cond2_1 (grid2.coords t) → cfg2.idle 2 (grid2.coords t) = false := by decide +kernel

/-! ## The memrefs the body is called with -/

/-- One staging buffer of the output window, through which its contents are stated. -/
abbrev VO2_2 : View sig .tc .vmem S1x512x512 .f32 := (Memref.whole cc2_stg2_0 : Memref sig .tc .vmem S1x512x512 .f32).view
abbrev ms2_0 (t : Fin cfg2.N) : Memref sig .tc .vmem S16384x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x512 .f32 := win2_2.stage (cfg2.slots t 2)
abbrev hs2_2 (t : Fin cfg2.N) : (ms2_2 t).IsWhole := hstage2_2 ((cfg2.slots t 2).cast nbuf2_2)
/-- The accumulator: a whole scoped buffer of the call's own. -/
abbrev scM2_0 : Memref sig .tc .vmem S512x2048 .f32 := Memref.whole cc2_scratch0
abbrev VS2_0 : View sig .tc .vmem S512x2048 .f32 := scM2_0.view

/-! ## The region invariant, with the accumulator singled out -/

/-- The scoped buffers of the other two calls, each whole at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_scratch0), ((c : Thread nD τ).loc cc1_scratch0) ↦{fullShare} f))

/-- The class's invariant is: the other calls' scoped buffers, the accumulator at some contents, the generator
    register at some state. -/
theorem PhiA2_eq (c : Dev nD) :
    (Pipeline.ΦA spec2 c : sProp 𝕄)
      = iprop(iprop(rest2 (F := F) c ∗ (∃ d, owns (c : Thread nD τ) scM2_0 fullShare d)) ∗ (∃ r, prngReg c r)) := by
  unfold Pipeline.ΦA; rw [scopedRest2_eq]; unfold rest2; simp only [scM2_0, owns_whole]
  refine BI.equiv_iff.mp ⟨?_, ?_⟩
  · show (_ : sProp 𝕄) ⊢ (_ : sProp 𝕄)
    iintro ⟨⟨R0, R1, R2, R3, R4, R5, R6, R7, R8, R9, R10, R11, R12, R13, R14, R15, R16, R17, HS⟩, Hg⟩
    isplitr [Hg]
    · isplitr [HS]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        isplitl [R16]; · iexact R16
        iexact R17
      · iexact HS
    · iexact Hg
  · show (_ : sProp 𝕄) ⊢ (_ : sProp 𝕄)
    iintro ⟨⟨⟨R0, R1, R2, R3, R4, R5, R6, R7, R8, R9, R10, R11, R12, R13, R14, R15, R16, R17⟩, HS⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      isplitl [R17]; · iexact R17
      iexact HS
    · iexact Hg

end Cert.Kernel.Fr

end
-- ==== Proof.K.R2RunA.lean ====
/-
  Region 2, the body's run at a point whose inner coordinate is 0: the accumulator is zeroed, then the product
  of the transposed rows of the assignment matrix with the adjacency block is added; the slab is not touched.
  The pieces the accumulator ends with are the witness the run finds.
-/
import proofs.«105494_j56573309223698_2_alg».proof.Proof.K.R2Base

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Inner coordinate 0: the inputs at their contents, the slab's buffer at contents handed back untouched, the
    accumulator at anything; the body ends with the accumulator's pieces written. -/
noncomputable def kernelRun2_A (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : cond2_0 i) (hc1 : ¬cond2_1 i)
    (x0 : Vec F S16384x512 .bf16) (x1 : Vec F S2048x2048 .bf16) :
    Σ' (L2 : List (View.Piece (Elt F) S1x512x512 .f32)), { LS0 : List (View.Piece (Elt F) S512x2048 .f32) //
      ∀ (xi2 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__stage2_kernel i arg2 harg2 arg3 harg3 arg4 harg4 arg5 harg5) K } := by
  refine ⟨[], ?_, fun xi2 E K => ?run⟩
  case run =>
    simp only [cc2__stage2_kernel_eq_skeleton]; unfold cc2__stage2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.R2RunB.lean ====
/-
  Region 2, the body's run at a point whose inner coordinate is 1 … 6: the product of the transposed rows of
  the assignment matrix with the adjacency block is added to what the accumulator held; the slab is not touched.
-/
import proofs.«105494_j56573309223698_2_alg».proof.Proof.K.R2RunA

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Inner coordinate 1 … 6: the inputs at their contents, the slab's buffer at contents handed back untouched,
    the accumulator at what the point before left; the body ends with the accumulator's pieces written. -/
noncomputable def kernelRun2_B (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : ¬cond2_1 i)
    (x0 : Vec F S16384x512 .bf16) (x1 : Vec F S2048x2048 .bf16) (xs0 : Vec F S512x2048 .f32) :
    Σ' (L2 : List (View.Piece (Elt F) S1x512x512 .f32)), { LS0 : List (View.Piece (Elt F) S512x2048 .f32) //
      ∀ (xi2 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__stage2_kernel i arg2 harg2 arg3 harg3 arg4 harg4 arg5 harg5) K } := by
  refine ⟨[], ?_, fun xi2 E K => ?run⟩
  case run =>
    simp only [cc2__stage2_kernel_eq_skeleton]; unfold cc2__stage2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.R2RunC.lean ====
/-
  Region 2, the body's run at a point whose inner coordinate is 7: the last product is added to the accumulator,
  and the accumulator times the rows of the assignment matrix of this column block is stored into the slab.
-/
import proofs.«105494_j56573309223698_2_alg».proof.Proof.K.R2RunB

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Inner coordinate 7: the inputs at their contents, the slab's buffer at anything, the accumulator at what the
    point before left; the body ends with the slab's and the accumulator's pieces written. -/
noncomputable def kernelRun2_C (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : cond2_1 i)
    (x0 : Vec F S16384x512 .bf16) (x1 : Vec F S2048x2048 .bf16) (xs0 : Vec F S512x2048 .f32) :
    Σ' (L2 : List (View.Piece (Elt F) S1x512x512 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__stage2_kernel i arg2 harg2 arg3 harg3 arg4 harg4 arg5 harg5) K } := by
  refine ⟨?_, ?_, fun E K => ?run⟩
  case run =>
    simp only [cc2__stage2_kernel_eq_skeleton]; unfold cc2__stage2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.R2.lean ====
/-
  Region 2: what the slab's staging buffer and the carried accumulator hold after each grid point, the proof
  data of the pipeline, and the body obligation.

  At a point with inner coordinate 0 the accumulator is rebuilt from zero; at the other points it is what the
  point before left plus this point's product; where the inner coordinate is 7 the slab's buffer receives the
  accumulator times the rows of the assignment matrix of this column block.  The slab's window is idle (neither
  stored nor written back) at the other points.
-/
import proofs.«105494_j56573309223698_2_alg».proof.Proof.K.R2RunC

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Inner coordinate 0 stores nothing into the slab: a placeholder nothing consults. -/
def out2_A_2 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : cond2_0 i) (hc1 : ¬cond2_1 i)
    (x0 : Vec F S16384x512 .bf16) (x1 : Vec F S2048x2048 .bf16) : Vec F S1x512x512 .f32 :=
  VO2_2.read (Elt F) (VO2_2.writes (Elt F) VO2_2.junk (kernelRun2_A c i arg2 harg2 arg3 harg3 arg4 harg4 arg5 harg5 hc0 hc1 x0 x1).1)

/-- The accumulator's pieces cover it. -/
theorem scover2_A_0 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : cond2_0 i) (hc1 : ¬cond2_1 i)
    (x0 : Vec F S16384x512 .bf16) (x1 : Vec F S2048x2048 .bf16) (y : S512x2048.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S512x2048.size (by sl_kernel_rfl) y

/-- What inner coordinate 0 leaves in the accumulator. -/
def sout2_A_0 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : cond2_0 i) (hc1 : ¬cond2_1 i)
    (x0 : Vec F S16384x512 .bf16) (x1 : Vec F S2048x2048 .bf16) : Vec F S512x2048 .f32 :=
  VS2_0.read (Elt F) (VS2_0.writes (Elt F) VS2_0.junk (kernelRun2_A c i arg2 harg2 arg3 harg3 arg4 harg4 arg5 harg5 hc0 hc1 x0 x1).2.1)

/-- Inner coordinate 1 … 6 stores nothing into the slab: a placeholder nothing consults. -/
def out2_B_2 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : ¬cond2_1 i)
    (x0 : Vec F S16384x512 .bf16) (x1 : Vec F S2048x2048 .bf16) (xs0 : Vec F S512x2048 .f32) : Vec F S1x512x512 .f32 :=
  VO2_2.read (Elt F) (VO2_2.writes (Elt F) VO2_2.junk (kernelRun2_B c i arg2 harg2 arg3 harg3 arg4 harg4 arg5 harg5 hc0 hc1 x0 x1 xs0).1)

theorem scover2_B_0 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : ¬cond2_1 i)
    (x0 : Vec F S16384x512 .bf16) (x1 : Vec F S2048x2048 .bf16) (xs0 : Vec F S512x2048 .f32) (y : S512x2048.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S512x2048.size (by sl_kernel_rfl) y

/-- What inner coordinate 1 … 6 leaves in the accumulator. -/
def sout2_B_0 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : ¬cond2_1 i)
    (x0 : Vec F S16384x512 .bf16) (x1 : Vec F S2048x2048 .bf16) (xs0 : Vec F S512x2048 .f32) : Vec F S512x2048 .f32 :=
  VS2_0.read (Elt F) (VS2_0.writes (Elt F) VS2_0.junk (kernelRun2_B c i arg2 harg2 arg3 harg3 arg4 harg4 arg5 harg5 hc0 hc1 x0 x1 xs0).2.1)

/-- Inner coordinate 7: the slab's pieces cover its block. -/
theorem cover2_C_2 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : cond2_1 i)
    (x0 : Vec F S16384x512 .bf16) (x1 : Vec F S2048x2048 .bf16) (xs0 : Vec F S512x2048 .f32) (y : S1x512x512.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1x512x512.size (by sl_kernel_rfl) y

/-- What inner coordinate 7 leaves in the slab's staging buffer. -/
def out2_C_2 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : cond2_1 i)
    (x0 : Vec F S16384x512 .bf16) (x1 : Vec F S2048x2048 .bf16) (xs0 : Vec F S512x2048 .f32) : Vec F S1x512x512 .f32 :=
  VO2_2.read (Elt F) (VO2_2.writes (Elt F) VO2_2.junk (kernelRun2_C c i arg2 harg2 arg3 harg3 arg4 harg4 arg5 harg5 hc0 hc1 x0 x1 xs0).1)

theorem scover2_C_0 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : cond2_1 i)
    (x0 : Vec F S16384x512 .bf16) (x1 : Vec F S2048x2048 .bf16) (xs0 : Vec F S512x2048 .f32) (y : S512x2048.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S512x2048.size (by sl_kernel_rfl) y

/-- What inner coordinate 7 leaves in the accumulator. -/
def sout2_C_0 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : cond2_1 i)
    (x0 : Vec F S16384x512 .bf16) (x1 : Vec F S2048x2048 .bf16) (xs0 : Vec F S512x2048 .f32) : Vec F S512x2048 .f32 :=
  VS2_0.read (Elt F) (VS2_0.writes (Elt F) VS2_0.junk (kernelRun2_C c i arg2 harg2 arg3 harg3 arg4 harg4 arg5 harg5 hc0 hc1 x0 x1 xs0).2.1)

/-! ## What the slab's buffer and the accumulator hold after each point -/

/-- After the body at position `n`: (the slab's staging buffer, the accumulator).  The case is chosen by `n % 8`;
    the cases that read the accumulator take what position `n - 1` left in it. -/
def outsAt2 (c : Dev nD) : (n : ℕ) → n < cfg2.N → Vec F S1x512x512 .f32 × Vec F S512x2048 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      if h1 : (n + 1) % 8 = 7 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 8 = 7 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- Before the first point the class's invariant (the accumulator at anything); afterwards the other calls' scoped
    buffers, the accumulator at what the point before left, the generator register at some state. -/
def PhiS2 (c : Dev nD) : (n : ℕ) → n ≤ cfg2.N → sProp 𝕄
  | 0, _ => Pipeline.ΦA spec2 c
  | n + 1, hn => iprop(iprop(rest2 (F := F) c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(rest2 (F := F) c ∗ owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(iprop(rest2 (F := F) c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of pipeline 2 on core `c`: the arrays as the region finds them; after the body each input's
    buffer at its block and the slab's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; `t % 8` says which case the point is in; the
    invariant hands the body the accumulator (at anything before the first point, else at what the point before
    left) and takes it back at this point's contents; the slab's buffer is handed back untouched except where the
    inner coordinate is 7. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 8 = 0
  · have h1 : ¬t.val % 8 = 7 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨HR, HS0⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitr [Hg]
        · isplitl [HR]; · iexact HR
          unfold owns; iexists _; isplitr
          swap; · iexact HS0
          ipureintro; exact View.read_writes_of_cover _ _ _ _ _ (scover2_A_0 c _ _ _ _ _ _ _ _ _ _ _ _ _)
        · iexact Hg
      isplitl [Ho]; · iexact Ho
      isplitl [H0]; · iexact H0
      isplitl [H1]; · iexact H1
      iexists _; iexact H2
    · rw [PhiS2_castSucc V c t, PhiS2_pos V c _ _ hz]
      iintro ⟨⟨⟨HR, HS0⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HR HS0 Hg]
      · isplitr [Hg]
        · isplitl [HR]; · iexact HR
          unfold owns; iexists _; isplitr
          swap; · iexact HS0
          ipureintro; exact View.read_writes_of_cover _ _ _ _ _ (scover2_A_0 c _ _ _ _ _ _ _ _ _ _ _ _ _)
        · iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C_0; (try dsimp only)
      rw [PhiS2_castSucc V c t, PhiS2_pos V c _ _ hz]
      iintro ⟨⟨⟨HR, HS0⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR HS0 Hg]
      · isplitr [Hg]
        · isplitl [HR]; · iexact HR
          unfold owns; iexists _; isplitr
          swap; · iexact HS0
          ipureintro; exact View.read_writes_of_cover _ _ _ _ _ (scover2_C_0 c _ _ _ _ _ _ _ _ _ _ _ _ _ _)
        · iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B_0; (try dsimp only)
      rw [PhiS2_castSucc V c t, PhiS2_pos V c _ _ hz]
      iintro ⟨⟨⟨HR, HS0⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitr [Hg]
        · isplitl [HR]; · iexact HR
          unfold owns; iexists _; isplitr
          swap; · iexact HS0
          ipureintro; exact View.read_writes_of_cover _ _ _ _ _ (scover2_B_0 c _ _ _ _ _ _ _ _ _ _ _ _ _ _)
        · iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0⟩, Hg⟩
  isplitr [Hg]
  · isplitl [HR]; · iexact HR
    iexists _; iexact HS0
  · iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.Kernel.Fr

end
-- ==== Proof.K.R12.lean ====
import proofs.«105494_j56573309223698_2_alg».proof.Proof.K.R0
import proofs.«105494_j56573309223698_2_alg».proof.Proof.K.R1
import proofs.«105494_j56573309223698_2_alg».proof.Proof.K.R2

/-! The three kernel regions' proof data, gathered for the run. -/
-- ==== Proof.K.Run.lean ====
import proofs.«105494_j56573309223698_2_alg».proof.Proof.K.R12

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the program as five segments — the host operations before the kernels, the three kernel regions, the
host operations after them — with the buffer contents at each boundary named -/

variable (m : (ℓ : Loc nD τ sig) → Buf (Elt F) ℓ) (ρ : Dev nD → PrngReg)

/-- Core `c`'s buffers at launch. -/
abbrev W0 : Dev nD → Valuation τ sig (Elt F) := fun c b => m (c, b)
/-- After the host operations before the kernels (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the host operations that follow the kernels. -/
abbrev W5 : Dev nD → Valuation τ sig (Elt F) := fun c => StableHlo.after hostOps3 (W4 m c)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c

theorem pdats_A0 (c : Dev nD) (w) : (pdats m 0 c).A w = V1 m c (Pipeline.arrRef spec0 w) := A_eq0 (V1 m) c w
theorem pdats_A1 (c : Dev nD) (w) : (pdats m 1 c).A w = V2 m c (Pipeline.arrRef spec1 w) := A_eq1 (V2 m) c w
theorem pdats_A2 (c : Dev nD) (w) : (pdats m 2 c).A w = V3 m c (Pipeline.arrRef spec2 w) := A_eq2 (V3 m) c w
theorem pdats_share0 (c : Dev nD) (w) : (pdats m 0 c).q w = fullShare := rfl
theorem pdats_share1 (c : Dev nD) (w) : (pdats m 1 c).q w = fullShare := rfl
theorem pdats_share2 (c : Dev nD) (w) : (pdats m 2 c).q w = fullShare := rfl
theorem pdats_owed0 (c : Dev nD) (t) : (pdats m 0 c).owed t = 0 := rfl
theorem pdats_owed1 (c : Dev nD) (t) : (pdats m 1 c).owed t = 0 := rfl
theorem pdats_owed2 (c : Dev nD) (t) : (pdats m 2 c).owed t = 0 := rfl
theorem pdats_hin0 (c : Dev nD) : Pipeline.ΦA spec0 c ⊢ (pdats m 0 c).Φ 0 := BI.Entails.refl _
theorem pdats_hin1 (c : Dev nD) : Pipeline.ΦA spec1 c ⊢ (pdats m 1 c).Φ 0 := hin1 (V2 m) c
theorem pdats_hin2 (c : Dev nD) : Pipeline.ΦA spec2 c ⊢ (pdats m 2 c).Φ 0 := hin2 (V3 m) c
theorem pdats_hout0 (c : Dev nD) : (pdats m 0 c).Φ (Fin.last _) ⊢ Pipeline.ΦA spec0 c := BI.Entails.refl _
theorem pdats_hout1 (c : Dev nD) : (pdats m 1 c).Φ (Fin.last _) ⊢ Pipeline.ΦA spec1 c := hout1 (V2 m) c
theorem pdats_hout2 (c : Dev nD) : (pdats m 2 c).Φ (Fin.last _) ⊢ Pipeline.ΦA spec2 c := hout2 (V3 m) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => pdats_owed0 m c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => pdats_share0 m c w) (V1 m c) fun w => pdats_A0 m c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact h.trans (pdats_hin0 m c)
  hout c := by
    rw [Pipeline.ownSems0_none]
    have h : (Pipeline.ΦA spec0 c : sProp 𝕄) ⊢ iprop((∃ r, prngReg c r) ∗ emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (pdats_hout0 m c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => pdats_share0 m c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun c t => pdats_owed1 m c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun w => pdats_share1 m c w) (V2 m c) fun w => pdats_A1 m c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (pdats_hin1 m c)
  hout c := by
    rw [Pipeline.ownSems0_none]
    have h : (Pipeline.ΦA spec1 c : sProp 𝕄) ⊢ iprop((∃ r, prngReg c r) ∗ emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (pdats_hout1 m c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => pdats_share1 m c w)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun c t => pdats_owed2 m c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun w => pdats_share2 m c w) (V3 m c) fun w => pdats_A2 m c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1
        ∗ Pipeline.scopedRest (Pipeline.pin (pcfgs (F := F)) adm 2).spec c) : sProp 𝕄) ⊢ Pipeline.ΦA spec2 c := by
      unfold Pipeline.ΦA
      iintro ⟨Hp, -, Hr⟩
      isplitl [Hr]; · iexact Hr
      iexact Hp
    exact h.trans (pdats_hin2 m c)
  hout c := by
    rw [Pipeline.ownSems0_none]
    have h : (Pipeline.ΦA spec2 c : sProp 𝕄) ⊢ iprop((∃ r, prngReg c r) ∗ emp ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (pdats_hout2 m c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => pdats_share2 m c w)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)) ]

theorem main_run (c : Dev nD) : main (F := F) c = Pipeline.Seg.run (segs m) := (main_chain c).trans (by chain_rfl)

set_option backward.isDefEq.respectTransparency.types false in
/-- Every weakly fair execution of the program terminates, nothing faulting, and every final state holds every
    unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Fr

end
-- ==== Proof.K.Args.lean ====
import proofs.«105494_j56573309223698_2_alg».proof.Proof.K.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The argument arrays end as launched: no host operation writes one, and a kernel region only reads them -/

variable (m : (ℓ : Loc nD τ sig) → Buf (Elt F) ℓ) (ρ : Dev nD → PrngReg)

theorem W1_main_arg0 (c : Dev nD) : W1 m c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_main_arg1 (c : Dev nD) : W1 m c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_main_arg2 (c : Dev nD) : W1 m c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_main_arg3 (c : Dev nD) : W1 m c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_main_arg4 (c : Dev nD) : W1 m c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_main_arg5 (c : Dev nD) : W1 m c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_main_arg6 (c : Dev nD) : W1 m c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_main_arg0 m c

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_main_arg1 m c

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_main_arg2 m c

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := W3_of_ne m c main_arg3 (by decide)
    _ = W1 m c (Proc.devRef .tc main_arg3) := (W2_arr m c 1).trans (((dat0 (V1 m) c).arrAt_in 1 rfl _).trans (A_eq0 (V1 m) c 1))
    _ = m ((c : Thread nD τ).loc main_arg3) := W1_main_arg3 m c

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := W3_of_ne m c main_arg4 (by decide)
    _ = W1 m c (Proc.devRef .tc main_arg4) := (W2_arr m c 2).trans (((dat0 (V1 m) c).arrAt_in 2 rfl _).trans (A_eq0 (V1 m) c 2))
    _ = m ((c : Thread nD τ).loc main_arg4) := W1_main_arg4 m c

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg5) := W4_of_ne m c main_arg5 (by decide)
    _ = W2 m c (Proc.devRef .tc main_arg5) := W3_of_ne m c main_arg5 (by decide)
    _ = W1 m c (Proc.devRef .tc main_arg5) := (W2_arr m c 3).trans (((dat0 (V1 m) c).arrAt_in 3 rfl _).trans (A_eq0 (V1 m) c 3))
    _ = m ((c : Thread nD τ).loc main_arg5) := W1_main_arg5 m c

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg6) := W4_of_ne m c main_arg6 (by decide)
    _ = W2 m c (Proc.devRef .tc main_arg6) := W3_of_ne m c main_arg6 (by decide)
    _ = W1 m c (Proc.devRef .tc main_arg6) := (W2_arr m c 4).trans (((dat0 (V1 m) c).arrAt_in 4 rfl _).trans (A_eq0 (V1 m) c 4))
    _ = m ((c : Thread nD τ).loc main_arg6) := W1_main_arg6 m c

/-- The frame: every weakly fair execution terminates, nothing faulting, with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_all m ρ)

end Cert.Kernel.Fr

end
-- ==== Proof.KI.R0.lean ====
import proofs.«105494_j56573309223698_2_alg».proof.Proof.Gen.KernelIdeal.Launch
import proofs.«105494_j56573309223698_2_alg».proof.Proof.Gen.KernelIdeal.Skeleton
import proofs.«105494_j56573309223698_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region: per block of 2048 rows, the softmax of the logits (in two formats) and the features

The region is stated at a parameter `V`, the buffer contents when the region is entered. Each of the five input
windows holds its block of its array at every grid point; each of the three output windows ends the body holding the
body's value of the input blocks. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: every load and store is of a whole staging buffer -/

abbrev rX : Rect S2048x128 := Rect.unit (s := S2048x128) ![0, 0] S2048x128.size inb_S2048x128_S2048x128_0_0
abbrev rWa : Rect S128x512 := Rect.unit (s := S128x512) ![0, 0] S128x512.size inb_S128x512_S128x512_0_0
abbrev rBa : Rect S512 := Rect.unit (s := S512) ![0] S512.size inb_S512_S512_0
abbrev rWf : Rect S128x128 := Rect.unit (s := S128x128) ![0, 0] S128x128.size inb_S128x128_S128x128_0_0
abbrev rBf : Rect S128 := Rect.unit (s := S128) ![0] S128.size inb_S128_S128_0
abbrev rS : Rect S2048x512 := Rect.unit (s := S2048x512) ![0, 0] S2048x512.size inb_S2048x512_S2048x512_0_0

/-- The softmax block (f32) the body leaves, from the blocks of `x`, `Wa`, `ba`. -/
def out0_5 (x0 : Vec F S2048x128 .f32) (x1 : Vec F S128x512 .f32) (x2 : Vec F S512 .f32) : Vec F S2048x512 .f32 :=
  View.canon [⟨rS, k0_pay1 (View.ld x0 rX) (View.ld x1 rWa) (View.ld x2 rBa)⟩]
/-- The same block in the narrower format. -/
def out0_6 (x0 : Vec F S2048x128 .f32) (x1 : Vec F S128x512 .f32) (x2 : Vec F S512 .f32) : Vec F S2048x512 .bf16 :=
  View.canon [⟨rS, k0_pay2 (View.ld x0 rX) (View.ld x1 rWa) (View.ld x2 rBa)⟩]
/-- The feature block, from the blocks of `x`, `Wf`, `bf`. -/
def out0_7 (x0 : Vec F S2048x128 .f32) (x3 : Vec F S128x128 .f32) (x4 : Vec F S128 .f32) : Vec F S2048x128 .f32 :=
  View.canon [⟨rX, k0_pay3 (View.ld x0 rX) (View.ld x3 rWf) (View.ld x4 rBf)⟩]

theorem cover0_5 (p0 : Vec F S2048x512 .f32) (y : S2048x512.Idx) :
    ∃ pc ∈ ([⟨rS, p0⟩] : List (View.Piece (Elt F) S2048x512 .f32)), y ∈ pc.1.set :=
  View.cover_of_tiled [⟨rS, p0⟩] S2048x512.size (by rfl) y
theorem cover0_6 (p0 : Vec F S2048x512 .bf16) (y : S2048x512.Idx) :
    ∃ pc ∈ ([⟨rS, p0⟩] : List (View.Piece (Elt F) S2048x512 .bf16)), y ∈ pc.1.set :=
  View.cover_of_tiled [⟨rS, p0⟩] S2048x512.size (by rfl) y
theorem cover0_7 (p0 : Vec F S2048x128 .f32) (y : S2048x128.Idx) :
    ∃ pc ∈ ([⟨rX, p0⟩] : List (View.Piece (Elt F) S2048x128 .f32)), y ∈ pc.1.set :=
  View.cover_of_tiled [⟨rX, p0⟩] S2048x128.size (by rfl) y

set_option maxHeartbeats 4000000 in
/-- The body on whole staging buffers: the inputs are left as they were, each output ends at its value. -/
theorem sound_kernel0 (c : Dev nD) (E : Set ℕ) (i : grid0.Coords)
    (arg1 : Memref sig .tc .vmem S2048x128 .f32) (harg1 : arg1.IsWhole) (arg2 : Memref sig .tc .vmem S128x512 .f32) (harg2 : arg2.IsWhole)
    (arg3 : Memref sig .tc .vmem S512 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S2048x512 .f32) (harg6 : arg6.IsWhole)
    (arg7 : Memref sig .tc .vmem S2048x512 .bf16) (harg7 : arg7.IsWhole) (arg8 : Memref sig .tc .vmem S2048x128 .f32) (harg8 : arg8.IsWhole)
    (x0 : Vec F S2048x128 .f32) (x1 : Vec F S128x512 .f32) (x2 : Vec F S512 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2)
            ∗ owns (c : Thread nD τ) arg8 fullShare (out0_7 x0 x3 x4)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The proof data -/

/-- The proof data of the first region on core `c`: the arrays as the region finds them; after the body at point `t`
    each input's buffer at its block and each output's at its value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t)
    | ⟨7, _⟩ => out0_7 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]
theorem after0_7 (c : Dev nD) (t : Fin cfg0.N) : (dat0 V c).after 7 t = out0_7 (iblk0 V c 0 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1Base.lean ====
/-
  Region 1 (the pooling kernel: eight grid points, a 512×128 accumulator carried between them) — what its
  per-case runs and its proof data share: the windows' blocks read off the arrays the region finds, the two
  branch conditions in closed form over the grid, where the output window is idle, the staging and scratch
  memrefs, and the region invariant with the accumulator owned as a memref.
-/
import proofs.«105494_j56573309223698_2_alg».proof.Proof.Gen.KernelIdeal.Launch
import proofs.«105494_j56573309223698_2_alg».proof.Proof.Gen.KernelIdeal.Skeleton
import proofs.«105494_j56573309223698_2_alg».proof.Proof.Gen.KernelIdeal.Points
import Idealize.ShloMosaic.Lib.Pipeline.FrameBody
import Idealize.ShloMosaic.Lib.Ring
import Idealize.ShloMosaic.Lib.Tactic

-- membership in a rectangle of full-size extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block (rows `2048 t … 2048 t + 2047` of the assignment
    matrix) at every point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block (the same rows of the features) at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the accumulator is zeroed), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (the accumulator is copied to the output). -/
abbrev cond1_1 (i : grid1.Coords) : Prop := k1_cond2 i = 1#1
/-- It holds at the last point only — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the second conditional is not taken the output window is idle: nothing is stored into it, -/
theorem idleAt1_2 : ∀ t : Fin cfg1.N, ¬cond1_1 (grid1.coords t) → cfg1.idle 2 (grid1.coords t) = true := by decide +kernel
/-- and the pipeline does not write its block back there. -/
theorem noFlush1_2 : ∀ t : Fin cfg1.N, ¬cond1_1 (grid1.coords t) → (cfg1.win 2).flush t = false := by decide +kernel
/-- At the last point the output window is live. -/
theorem liveAt1_2 : ∀ t : Fin cfg1.N, cond1_1 (grid1.coords t) → cfg1.idle 2 (grid1.coords t) = false := by decide +kernel

/-! ## The staging and scratch memrefs -/

/-- The one staging buffer of the output window, through which its contents are stated. -/
abbrev VO1_2 : View sig .tc .vmem S512x128 .f32 := (Memref.whole cc1_stg2_0 : Memref sig .tc .vmem S512x128 .f32).view
/-- Each window's current staging memref at point `t`, spelled as the pipeline passes it, and its wholeness. -/
abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1_0 : Memref sig .tc .vmem S512x128 .f32 := Memref.whole cc1_scratch0
/-- The accumulator as a view: what it holds is stated through it. -/
abbrev VS1_0 : View sig .tc .vmem S512x128 .f32 := scM1_0.view

/-- The core's other scoped buffers (the staging buffers and scratch of the two neighbouring regions), each whole
    at some contents: region 1 never touches them. -/
def restO1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_scratch0), ((c : Thread nD τ).loc cc2_scratch0) ↦{fullShare} f))

/-- The class invariant hands out the accumulator as a memref owned at some contents, beside the other scoped
    buffers and the generator register, -/
theorem PhiA1_split (c : Dev nD) :
    (Pipeline.ΦA spec1 c : sProp 𝕄)
      ⊢ iprop((∃ d, owns (c : Thread nD τ) scM1_0 fullShare d) ∗ restO1 (F := F) c ∗ (∃ r, prngReg c r)) := by
  unfold Pipeline.ΦA restO1; rw [scopedRest1_eq]; simp only [scM1_0, owns_whole]
  iintro ⟨⟨H1, H2, H3, H4, H5, H6, H7, H8, H9, H10, H11, H12, HS, H14, H15, H16, H17, H18, H19⟩, Hg⟩
  isplitl [HS]; · iexact HS
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H14]; · iexact H14
  isplitl [H15]; · iexact H15
  isplitl [H16]; · iexact H16
  isplitl [H17]; · iexact H17
  isplitl [H18]; · iexact H18
  iexact H19

/-- and takes it back. -/
theorem PhiA1_join (c : Dev nD) :
    iprop((∃ d, owns (c : Thread nD τ) scM1_0 fullShare d) ∗ restO1 (F := F) c ∗ (∃ r, prngReg c r))
      ⊢ (Pipeline.ΦA spec1 c : sProp 𝕄) := by
  unfold Pipeline.ΦA restO1; rw [scopedRest1_eq]; simp only [scM1_0, owns_whole]
  iintro ⟨HS, ⟨H1, H2, H3, H4, H5, H6, H7, H8, H9, H10, H11, H12, H14, H15, H16, H17, H18, H19⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  isplitl [H14]; · iexact H14
  isplitl [H15]; · iexact H15
  isplitl [H16]; · iexact H16
  isplitl [H17]; · iexact H17
  isplitl [H18]; · iexact H18
  iexact H19

/-- The two as one equation. -/
theorem PhiA1_eq (c : Dev nD) :
    (Pipeline.ΦA spec1 c : sProp 𝕄)
      = iprop((∃ d, owns (c : Thread nD τ) scM1_0 fullShare d) ∗ restO1 (F := F) c ∗ (∃ r, prngReg c r)) :=
  BI.equiv_iff.mp ⟨PhiA1_split c, PhiA1_join c⟩

end Cert.KernelIdeal.Fr

end
-- ==== Proof.KI.R1RunA.lean ====
/-
  Region 1, the first grid point: the accumulator (at anything) is zeroed, then the product of the transposed
  block of the assignment matrix with the block of the features is added to it; the output window is not touched.
-/
import proofs.«105494_j56573309223698_2_alg».proof.Proof.KI.R1Base

-- membership in a rectangle of full-size extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref (nothing) and in the accumulator, as pieces (last
    first), at the first point (first conditional taken, second not), WITH the proof that on whole memrefs — the
    two inputs' at their contents `x0`, `x1`, the output's at contents `xi2` handed back untouched, the accumulator
    at anything — the body runs to the continuation holding the inputs' as they were and the accumulator with its
    pieces written. The pieces are the witness the run finds. -/
noncomputable def kernelRun1_A (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : cond1_0 i) (hc1 : ¬cond1_1 i)
    (x0 : Vec F S2048x512 .f32) (x1 : Vec F S2048x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__pool_x_kernel i arg1 harg1 arg2 harg2 arg3 harg3 arg4 harg4) K } := by
  refine ⟨[], ?_, fun xi2 E K => ?run⟩
  case run =>
    simp only [cc1__pool_x_kernel_eq_skeleton]; unfold cc1__pool_x_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Fr

end
-- ==== Proof.KI.R1RunB.lean ====
/-
  Region 1, the middle grid points 1 … 6: the product of the transposed block of the assignment matrix with the
  block of the features is added to the accumulator the point before left; the output window is not touched.
-/
import proofs.«105494_j56573309223698_2_alg».proof.Proof.KI.R1RunA

-- membership in a rectangle of full-size extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same at a middle point (neither conditional taken): the accumulator enters at `xs0`, what the point
    before left. -/
noncomputable def kernelRun1_B (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : ¬cond1_1 i)
    (x0 : Vec F S2048x512 .f32) (x1 : Vec F S2048x128 .f32) (xs0 : Vec F S512x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__pool_x_kernel i arg1 harg1 arg2 harg2 arg3 harg3 arg4 harg4) K } := by
  refine ⟨[], ?_, fun xi2 E K => ?run⟩
  case run =>
    simp only [cc1__pool_x_kernel_eq_skeleton]; unfold cc1__pool_x_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Fr

end
-- ==== Proof.KI.R1RunC.lean ====
/-
  Region 1, the last grid point: the product is added to the accumulator the point before left, and the
  accumulator is then copied whole into the output window's staging buffer.
-/
import proofs.«105494_j56573309223698_2_alg».proof.Proof.KI.R1RunB

-- membership in a rectangle of full-size extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same at the last point (second conditional taken): the output's memref enters at anything and leaves with
    its pieces `L2` written. -/
noncomputable def kernelRun1_C (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : cond1_1 i)
    (x0 : Vec F S2048x512 .f32) (x1 : Vec F S2048x128 .f32) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__pool_x_kernel i arg1 harg1 arg2 harg2 arg3 harg3 arg4 harg4) K } := by
  refine ⟨?_, ?_, fun E K => ?run⟩
  case run =>
    simp only [cc1__pool_x_kernel_eq_skeleton]; unfold cc1__pool_x_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Fr

end
-- ==== Proof.KI.R1.lean ====
/-
  Region 1 (the pooling kernel), the proof data and the body obligation at the contents `V` the region is entered
  with. After point `n` the accumulator holds what the case of that point leaves over what point `n - 1` left
  (`outsAt1`); the output window's staging buffer is stored at the last point only and idle elsewhere; the
  region invariant is the class's before the first point and afterwards carries the accumulator at `outsAt1`'s
  second component.
-/
import proofs.«105494_j56573309223698_2_alg».proof.Proof.KI.R1RunC

-- membership in a rectangle of full-size extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At the first point nothing is stored into the output window (it is idle there and not written back): no pieces — a
    placeholder that nothing consults. -/
def out1_A_2 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : cond1_0 i) (hc1 : ¬cond1_1 i)
    (x0 : Vec F S2048x512 .f32) (x1 : Vec F S2048x128 .f32) : Vec F S512x128 .f32 :=
  VO1_2.read (Elt F) (VO1_2.writes (Elt F) VO1_2.junk (kernelRun1_A c i arg1 harg1 arg2 harg2 arg3 harg3 arg4 harg4 hc0 hc1 x0 x1).1)

/-- The pieces stored into the accumulator at the first point cover it (whole-buffer stores). -/
theorem scover1_A_0 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : cond1_0 i) (hc1 : ¬cond1_1 i)
    (x0 : Vec F S2048x512 .f32) (x1 : Vec F S2048x128 .f32) (y : S512x128.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S512x128.size (by sl_kernel_rfl) y

/-- What the first point leaves in the accumulator: its pieces read back. -/
def sout1_A_0 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : cond1_0 i) (hc1 : ¬cond1_1 i)
    (x0 : Vec F S2048x512 .f32) (x1 : Vec F S2048x128 .f32) : Vec F S512x128 .f32 :=
  VS1_0.read (Elt F) (VS1_0.writes (Elt F) VS1_0.junk (kernelRun1_A c i arg1 harg1 arg2 harg2 arg3 harg3 arg4 harg4 hc0 hc1 x0 x1).2.1)

/-- At a middle point nothing is stored into the output window (it is idle there and not written back): no pieces — a
    placeholder that nothing consults. -/
def out1_B_2 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : ¬cond1_1 i)
    (x0 : Vec F S2048x512 .f32) (x1 : Vec F S2048x128 .f32) (xs0 : Vec F S512x128 .f32) : Vec F S512x128 .f32 :=
  VO1_2.read (Elt F) (VO1_2.writes (Elt F) VO1_2.junk (kernelRun1_B c i arg1 harg1 arg2 harg2 arg3 harg3 arg4 harg4 hc0 hc1 x0 x1 xs0).1)

/-- The pieces stored into the accumulator at a middle point cover it (whole-buffer stores). -/
theorem scover1_B_0 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : ¬cond1_1 i)
    (x0 : Vec F S2048x512 .f32) (x1 : Vec F S2048x128 .f32) (xs0 : Vec F S512x128 .f32) (y : S512x128.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S512x128.size (by sl_kernel_rfl) y

/-- What a middle point leaves in the accumulator: its pieces read back. -/
def sout1_B_0 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : ¬cond1_1 i)
    (x0 : Vec F S2048x512 .f32) (x1 : Vec F S2048x128 .f32) (xs0 : Vec F S512x128 .f32) : Vec F S512x128 .f32 :=
  VS1_0.read (Elt F) (VS1_0.writes (Elt F) VS1_0.junk (kernelRun1_B c i arg1 harg1 arg2 harg2 arg3 harg3 arg4 harg4 hc0 hc1 x0 x1 xs0).2.1)

/-- At the last point the one store into the output window covers its block. -/
theorem cover1_C_2 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : cond1_1 i)
    (x0 : Vec F S2048x512 .f32) (x1 : Vec F S2048x128 .f32) (xs0 : Vec F S512x128 .f32) (y : S512x128.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S512x128.size (by sl_kernel_rfl) y

/-- What the last point leaves in the output window's staging buffer: its pieces read back. -/
def out1_C_2 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : cond1_1 i)
    (x0 : Vec F S2048x512 .f32) (x1 : Vec F S2048x128 .f32) (xs0 : Vec F S512x128 .f32) : Vec F S512x128 .f32 :=
  VO1_2.read (Elt F) (VO1_2.writes (Elt F) VO1_2.junk (kernelRun1_C c i arg1 harg1 arg2 harg2 arg3 harg3 arg4 harg4 hc0 hc1 x0 x1 xs0).1)

/-- The pieces stored into the accumulator at the last point cover it (whole-buffer stores). -/
theorem scover1_C_0 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : cond1_1 i)
    (x0 : Vec F S2048x512 .f32) (x1 : Vec F S2048x128 .f32) (xs0 : Vec F S512x128 .f32) (y : S512x128.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S512x128.size (by sl_kernel_rfl) y

/-- What the last point leaves in the accumulator: its pieces read back. -/
def sout1_C_0 (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : cond1_1 i)
    (x0 : Vec F S2048x512 .f32) (x1 : Vec F S2048x128 .f32) (xs0 : Vec F S512x128 .f32) : Vec F S512x128 .f32 :=
  VS1_0.read (Elt F) (VS1_0.writes (Elt F) VS1_0.junk (kernelRun1_C c i arg1 harg1 arg2 harg2 arg3 harg3 arg4 harg4 hc0 hc1 x0 x1 xs0).2.1)

/-! ## What the output window's buffer and the accumulator hold after each point -/

/-- THE ACCUMULATION. After the body at position `n`: (the output window's staging buffer, the accumulator) — the
    case the closed forms select at `n`, run at the point's memrefs and input blocks, the accumulator entering at what
    position `n - 1` left. Both conditions at once is no case. -/
def outsAt1 (c : Dev nD) : (n : ℕ) → n < cfg1.N → Vec F S512x128 .f32 × Vec F S512x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at the first point. -/
theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle point: over what the point before left. -/
theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point: over what the point before left. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers at anything, the
    generator register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ restO1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ restO1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ restO1 (F := F) c ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases h0 : t.val % 8 = 0
  · by_cases h1 : t.val % 8 = 7
    · exfalso; omega
    · -- the first point
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [Dat.leavesExact_idle (dat1 V c) 2 t (idleAt1_2 t (fun h => h1 ((hcond1_1 t).mp h))) (noFlush1_2 t (fun h => h1 ((hcond1_1 t).mp h)))]
        rw [outsAt1_A V c t h0 h1]
        unfold sout1_A_0; (try dsimp only)
        have hz : t.val = 0 := by omega
        rw [PhiS1_castSucc V c t, PhiS1_zero V c _ _ hz, PhiA1_eq]
        iintro ⟨⟨HS0, HR, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0]
          · unfold owns; iexists _; isplitr
            swap; · iexact HS0
            ipureintro; exact View.read_writes_of_cover _ _ _ _ _ (scover1_A_0 c _ _ _ _ _ _ _ _ _ _ _ _ _)
          isplitl [HR]; · iexact HR
          iexact Hg
        isplitl [Ho]; · iexact Ho
        isplitl [H0]; · iexact H0
        isplitl [H1]; · iexact H1
        iexists _; iexact H2
  · by_cases h1 : t.val % 8 = 7
    · -- the last point
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t ((hcond1_1 t).mpr h1)], after1_2]
        rw [outsAt1_C V c t h0 h1]
        unfold out1_C_2 sout1_C_0; (try dsimp only)
        have hz : t.val ≠ 0 := by omega
        rw [PhiS1_castSucc V c t, PhiS1_pos V c _ _ hz]
        iintro ⟨⟨HS0, HR, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0]
          · unfold owns; iexists _; isplitr
            swap; · iexact HS0
            ipureintro; exact View.read_writes_of_cover _ _ _ _ _ (scover1_C_0 c _ _ _ _ _ _ _ _ _ _ _ _ _ _)
          isplitl [HR]; · iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · -- a middle point
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [Dat.leavesExact_idle (dat1 V c) 2 t (idleAt1_2 t (fun h => h1 ((hcond1_1 t).mp h))) (noFlush1_2 t (fun h => h1 ((hcond1_1 t).mp h)))]
        rw [outsAt1_B V c t h0 h1]
        unfold sout1_B_0; (try dsimp only)
        have hz : t.val ≠ 0 := by omega
        rw [PhiS1_castSucc V c t, PhiS1_pos V c _ _ hz]
        iintro ⟨⟨HS0, HR, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0]
          · unfold owns; iexists _; isplitr
            swap; · iexact HS0
            ipureintro; exact View.read_writes_of_cover _ _ _ _ _ (scover1_B_0 c _ _ _ _ _ _ _ _ _ _ _ _ _ _)
          isplitl [HR]; · iexact HR
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, HR, Hg⟩
  isplitl [HS0]; · iexists _; iexact HS0
  isplitl [HR]; · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Cert.KernelIdeal.Fr

end
-- ==== Proof.KI.R2Base.lean ====
/-
  Region 2 (the second-stage pooling call, an 8 × 8 grid): what its three case runs share.

  The grid point t has inner coordinate i = t % 8 (grid coordinate 1) and outer coordinate j = t / 8 (grid
  coordinate 0).  Window 0 is the whole assignment matrix (fetched once), window 1 a 2048 × 2048 block of the
  dense adjacency (block index (i, j)), window 2 one 512 × 512 slab of the result (block index j), written back
  at the points with i = 7.  The body keeps a 512 × 2048 accumulator in a scratch buffer that is carried from
  point to point: it is zeroed where i = 0, added to at every point, and multiplied into the slab where i = 7.
  Everything is stated at a parameter V, the buffer contents when the region is entered.
-/
import proofs.«105494_j56573309223698_2_alg».proof.Proof.Gen.KernelIdeal.Launch
import proofs.«105494_j56573309223698_2_alg».proof.Proof.Gen.KernelIdeal.Skeleton
import proofs.«105494_j56573309223698_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point: it is fetched at the first point only, and
    afterwards its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point (it is fetched at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, in closed form over the grid -/

/-- The first conditional: the inner coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional: the inner coordinate is 7. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Where the inner coordinate is not 7 the slab is neither stored into nor written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where it is 7 the slab is stored. -/
theorem liveAt2_2 : ∀ t : Fin cfg2.N, cond2_1 (grid2.coords t) → cfg2.idle 2 (grid2.coords t) = false := by decide +kernel

/-! ## The memrefs the body is called with -/

/-- One staging buffer of the output window, through which its contents are stated. -/
abbrev VO2_2 : View sig .tc .vmem S1x512x512 .f32 := (Memref.whole cc2_stg2_0 : Memref sig .tc .vmem S1x512x512 .f32).view
abbrev ms2_0 (t : Fin cfg2.N) : Memref sig .tc .vmem S16384x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x512 .f32 := win2_2.stage (cfg2.slots t 2)
abbrev hs2_2 (t : Fin cfg2.N) : (ms2_2 t).IsWhole := hstage2_2 ((cfg2.slots t 2).cast nbuf2_2)
/-- The accumulator: a whole scoped buffer of the call's own. -/
abbrev scM2_0 : Memref sig .tc .vmem S512x2048 .f32 := Memref.whole cc2_scratch0
abbrev VS2_0 : View sig .tc .vmem S512x2048 .f32 := scM2_0.view

/-! ## The region invariant, with the accumulator singled out -/

/-- The scoped buffers of the other two calls, each whole at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_scratch0), ((c : Thread nD τ).loc cc1_scratch0) ↦{fullShare} f))

/-- The class's invariant is: the other calls' scoped buffers, the accumulator at some contents, the generator
    register at some state. -/
theorem PhiA2_eq (c : Dev nD) :
    (Pipeline.ΦA spec2 c : sProp 𝕄)
      = iprop(iprop(rest2 (F := F) c ∗ (∃ d, owns (c : Thread nD τ) scM2_0 fullShare d)) ∗ (∃ r, prngReg c r)) := by
  unfold Pipeline.ΦA; rw [scopedRest2_eq]; unfold rest2; simp only [scM2_0, owns_whole]
  refine BI.equiv_iff.mp ⟨?_, ?_⟩
  · show (_ : sProp 𝕄) ⊢ (_ : sProp 𝕄)
    iintro ⟨⟨R0, R1, R2, R3, R4, R5, R6, R7, R8, R9, R10, R11, R12, R13, R14, R15, R16, R17, HS⟩, Hg⟩
    isplitr [Hg]
    · isplitr [HS]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        isplitl [R16]; · iexact R16
        iexact R17
      · iexact HS
    · iexact Hg
  · show (_ : sProp 𝕄) ⊢ (_ : sProp 𝕄)
    iintro ⟨⟨⟨R0, R1, R2, R3, R4, R5, R6, R7, R8, R9, R10, R11, R12, R13, R14, R15, R16, R17⟩, HS⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      isplitl [R17]; · iexact R17
      iexact HS
    · iexact Hg

end Cert.KernelIdeal.Fr

end
-- ==== Proof.KI.R2RunA.lean ====
/-
  Region 2, the body's run at a point whose inner coordinate is 0: the accumulator is zeroed, then the product
  of the transposed rows of the assignment matrix with the adjacency block is added; the slab is not touched.
  The pieces the accumulator ends with are the witness the run finds.
-/
import proofs.«105494_j56573309223698_2_alg».proof.Proof.KI.R2Base

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Inner coordinate 0: the inputs at their contents, the slab's buffer at contents handed back untouched, the
    accumulator at anything; the body ends with the accumulator's pieces written. -/
noncomputable def kernelRun2_A (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : cond2_0 i) (hc1 : ¬cond2_1 i)
    (x0 : Vec F S16384x512 .bf16) (x1 : Vec F S2048x2048 .bf16) :
    Σ' (L2 : List (View.Piece (Elt F) S1x512x512 .f32)), { LS0 : List (View.Piece (Elt F) S512x2048 .f32) //
      ∀ (xi2 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__stage2_kernel i arg2 harg2 arg3 harg3 arg4 harg4 arg5 harg5) K } := by
  refine ⟨[], ?_, fun xi2 E K => ?run⟩
  case run =>
    simp only [cc2__stage2_kernel_eq_skeleton]; unfold cc2__stage2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.R2RunB.lean ====
/-
  Region 2, the body's run at a point whose inner coordinate is 1 … 6: the product of the transposed rows of
  the assignment matrix with the adjacency block is added to what the accumulator held; the slab is not touched.
-/
import proofs.«105494_j56573309223698_2_alg».proof.Proof.KI.R2RunA

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Inner coordinate 1 … 6: the inputs at their contents, the slab's buffer at contents handed back untouched,
    the accumulator at what the point before left; the body ends with the accumulator's pieces written. -/
noncomputable def kernelRun2_B (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : ¬cond2_1 i)
    (x0 : Vec F S16384x512 .bf16) (x1 : Vec F S2048x2048 .bf16) (xs0 : Vec F S512x2048 .f32) :
    Σ' (L2 : List (View.Piece (Elt F) S1x512x512 .f32)), { LS0 : List (View.Piece (Elt F) S512x2048 .f32) //
      ∀ (xi2 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__stage2_kernel i arg2 harg2 arg3 harg3 arg4 harg4 arg5 harg5) K } := by
  refine ⟨[], ?_, fun xi2 E K => ?run⟩
  case run =>
    simp only [cc2__stage2_kernel_eq_skeleton]; unfold cc2__stage2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.R2RunC.lean ====
/-
  Region 2, the body's run at a point whose inner coordinate is 7: the last product is added to the accumulator,
  and the accumulator times the rows of the assignment matrix of this column block is stored into the slab.
-/
import proofs.«105494_j56573309223698_2_alg».proof.Proof.KI.R2RunB

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Inner coordinate 7: the inputs at their contents, the slab's buffer at anything, the accumulator at what the
    point before left; the body ends with the slab's and the accumulator's pieces written. -/
noncomputable def kernelRun2_C (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : cond2_1 i)
    (x0 : Vec F S16384x512 .bf16) (x1 : Vec F S2048x2048 .bf16) (xs0 : Vec F S512x2048 .f32) :
    Σ' (L2 : List (View.Piece (Elt F) S1x512x512 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__stage2_kernel i arg2 harg2 arg3 harg3 arg4 harg4 arg5 harg5) K } := by
  refine ⟨?_, ?_, fun E K => ?run⟩
  case run =>
    simp only [cc2__stage2_kernel_eq_skeleton]; unfold cc2__stage2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.R2.lean ====
/-
  Region 2: what the slab's staging buffer and the carried accumulator hold after each grid point, the proof
  data of the pipeline, and the body obligation.

  At a point with inner coordinate 0 the accumulator is rebuilt from zero; at the other points it is what the
  point before left plus this point's product; where the inner coordinate is 7 the slab's buffer receives the
  accumulator times the rows of the assignment matrix of this column block.  The slab's window is idle (neither
  stored nor written back) at the other points.
-/
import proofs.«105494_j56573309223698_2_alg».proof.Proof.KI.R2RunC

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Inner coordinate 0 stores nothing into the slab: a placeholder nothing consults. -/
def out2_A_2 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : cond2_0 i) (hc1 : ¬cond2_1 i)
    (x0 : Vec F S16384x512 .bf16) (x1 : Vec F S2048x2048 .bf16) : Vec F S1x512x512 .f32 :=
  VO2_2.read (Elt F) (VO2_2.writes (Elt F) VO2_2.junk (kernelRun2_A c i arg2 harg2 arg3 harg3 arg4 harg4 arg5 harg5 hc0 hc1 x0 x1).1)

/-- The accumulator's pieces cover it. -/
theorem scover2_A_0 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : cond2_0 i) (hc1 : ¬cond2_1 i)
    (x0 : Vec F S16384x512 .bf16) (x1 : Vec F S2048x2048 .bf16) (y : S512x2048.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S512x2048.size (by sl_kernel_rfl) y

/-- What inner coordinate 0 leaves in the accumulator. -/
def sout2_A_0 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : cond2_0 i) (hc1 : ¬cond2_1 i)
    (x0 : Vec F S16384x512 .bf16) (x1 : Vec F S2048x2048 .bf16) : Vec F S512x2048 .f32 :=
  VS2_0.read (Elt F) (VS2_0.writes (Elt F) VS2_0.junk (kernelRun2_A c i arg2 harg2 arg3 harg3 arg4 harg4 arg5 harg5 hc0 hc1 x0 x1).2.1)

/-- Inner coordinate 1 … 6 stores nothing into the slab: a placeholder nothing consults. -/
def out2_B_2 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : ¬cond2_1 i)
    (x0 : Vec F S16384x512 .bf16) (x1 : Vec F S2048x2048 .bf16) (xs0 : Vec F S512x2048 .f32) : Vec F S1x512x512 .f32 :=
  VO2_2.read (Elt F) (VO2_2.writes (Elt F) VO2_2.junk (kernelRun2_B c i arg2 harg2 arg3 harg3 arg4 harg4 arg5 harg5 hc0 hc1 x0 x1 xs0).1)

theorem scover2_B_0 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : ¬cond2_1 i)
    (x0 : Vec F S16384x512 .bf16) (x1 : Vec F S2048x2048 .bf16) (xs0 : Vec F S512x2048 .f32) (y : S512x2048.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S512x2048.size (by sl_kernel_rfl) y

/-- What inner coordinate 1 … 6 leaves in the accumulator. -/
def sout2_B_0 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : ¬cond2_1 i)
    (x0 : Vec F S16384x512 .bf16) (x1 : Vec F S2048x2048 .bf16) (xs0 : Vec F S512x2048 .f32) : Vec F S512x2048 .f32 :=
  VS2_0.read (Elt F) (VS2_0.writes (Elt F) VS2_0.junk (kernelRun2_B c i arg2 harg2 arg3 harg3 arg4 harg4 arg5 harg5 hc0 hc1 x0 x1 xs0).2.1)

/-- Inner coordinate 7: the slab's pieces cover its block. -/
theorem cover2_C_2 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : cond2_1 i)
    (x0 : Vec F S16384x512 .bf16) (x1 : Vec F S2048x2048 .bf16) (xs0 : Vec F S512x2048 .f32) (y : S1x512x512.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1x512x512.size (by sl_kernel_rfl) y

/-- What inner coordinate 7 leaves in the slab's staging buffer. -/
def out2_C_2 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : cond2_1 i)
    (x0 : Vec F S16384x512 .bf16) (x1 : Vec F S2048x2048 .bf16) (xs0 : Vec F S512x2048 .f32) : Vec F S1x512x512 .f32 :=
  VO2_2.read (Elt F) (VO2_2.writes (Elt F) VO2_2.junk (kernelRun2_C c i arg2 harg2 arg3 harg3 arg4 harg4 arg5 harg5 hc0 hc1 x0 x1 xs0).1)

theorem scover2_C_0 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : cond2_1 i)
    (x0 : Vec F S16384x512 .bf16) (x1 : Vec F S2048x2048 .bf16) (xs0 : Vec F S512x2048 .f32) (y : S512x2048.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S512x2048.size (by sl_kernel_rfl) y

/-- What inner coordinate 7 leaves in the accumulator. -/
def sout2_C_0 (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : cond2_1 i)
    (x0 : Vec F S16384x512 .bf16) (x1 : Vec F S2048x2048 .bf16) (xs0 : Vec F S512x2048 .f32) : Vec F S512x2048 .f32 :=
  VS2_0.read (Elt F) (VS2_0.writes (Elt F) VS2_0.junk (kernelRun2_C c i arg2 harg2 arg3 harg3 arg4 harg4 arg5 harg5 hc0 hc1 x0 x1 xs0).2.1)

/-! ## What the slab's buffer and the accumulator hold after each point -/

/-- After the body at position `n`: (the slab's staging buffer, the accumulator).  The case is chosen by `n % 8`;
    the cases that read the accumulator take what position `n - 1` left in it. -/
def outsAt2 (c : Dev nD) : (n : ℕ) → n < cfg2.N → Vec F S1x512x512 .f32 × Vec F S512x2048 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      if h1 : (n + 1) % 8 = 7 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 8 = 7 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- Before the first point the class's invariant (the accumulator at anything); afterwards the other calls' scoped
    buffers, the accumulator at what the point before left, the generator register at some state. -/
def PhiS2 (c : Dev nD) : (n : ℕ) → n ≤ cfg2.N → sProp 𝕄
  | 0, _ => Pipeline.ΦA spec2 c
  | n + 1, hn => iprop(iprop(rest2 (F := F) c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(rest2 (F := F) c ∗ owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(iprop(rest2 (F := F) c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of pipeline 2 on core `c`: the arrays as the region finds them; after the body each input's
    buffer at its block and the slab's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; `t % 8` says which case the point is in; the
    invariant hands the body the accumulator (at anything before the first point, else at what the point before
    left) and takes it back at this point's contents; the slab's buffer is handed back untouched except where the
    inner coordinate is 7. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 8 = 0
  · have h1 : ¬t.val % 8 = 7 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨HR, HS0⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitr [Hg]
        · isplitl [HR]; · iexact HR
          unfold owns; iexists _; isplitr
          swap; · iexact HS0
          ipureintro; exact View.read_writes_of_cover _ _ _ _ _ (scover2_A_0 c _ _ _ _ _ _ _ _ _ _ _ _ _)
        · iexact Hg
      isplitl [Ho]; · iexact Ho
      isplitl [H0]; · iexact H0
      isplitl [H1]; · iexact H1
      iexists _; iexact H2
    · rw [PhiS2_castSucc V c t, PhiS2_pos V c _ _ hz]
      iintro ⟨⟨⟨HR, HS0⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HR HS0 Hg]
      · isplitr [Hg]
        · isplitl [HR]; · iexact HR
          unfold owns; iexists _; isplitr
          swap; · iexact HS0
          ipureintro; exact View.read_writes_of_cover _ _ _ _ _ (scover2_A_0 c _ _ _ _ _ _ _ _ _ _ _ _ _)
        · iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C_0; (try dsimp only)
      rw [PhiS2_castSucc V c t, PhiS2_pos V c _ _ hz]
      iintro ⟨⟨⟨HR, HS0⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR HS0 Hg]
      · isplitr [Hg]
        · isplitl [HR]; · iexact HR
          unfold owns; iexists _; isplitr
          swap; · iexact HS0
          ipureintro; exact View.read_writes_of_cover _ _ _ _ _ (scover2_C_0 c _ _ _ _ _ _ _ _ _ _ _ _ _ _)
        · iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B_0; (try dsimp only)
      rw [PhiS2_castSucc V c t, PhiS2_pos V c _ _ hz]
      iintro ⟨⟨⟨HR, HS0⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitr [Hg]
        · isplitl [HR]; · iexact HR
          unfold owns; iexists _; isplitr
          swap; · iexact HS0
          ipureintro; exact View.read_writes_of_cover _ _ _ _ _ (scover2_B_0 c _ _ _ _ _ _ _ _ _ _ _ _ _ _)
        · iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0⟩, Hg⟩
  isplitr [Hg]
  · isplitl [HR]; · iexact HR
    iexists _; iexact HS0
  · iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Fr

end
-- ==== Proof.KI.R12.lean ====
import proofs.«105494_j56573309223698_2_alg».proof.Proof.KI.R0
import proofs.«105494_j56573309223698_2_alg».proof.Proof.KI.R1
import proofs.«105494_j56573309223698_2_alg».proof.Proof.KI.R2

/-! The three kernel regions' proof data, gathered for the run. -/
-- ==== Proof.KI.Run.lean ====
import proofs.«105494_j56573309223698_2_alg».proof.Proof.KI.R12

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the program as five segments — the host operations before the kernels, the three kernel regions, the
host operations after them — with the buffer contents at each boundary named -/

variable (m : (ℓ : Loc nD τ sig) → Buf (Elt F) ℓ) (ρ : Dev nD → PrngReg)

/-- Core `c`'s buffers at launch. -/
abbrev W0 : Dev nD → Valuation τ sig (Elt F) := fun c b => m (c, b)
/-- After the host operations before the kernels (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the host operations that follow the kernels. -/
abbrev W5 : Dev nD → Valuation τ sig (Elt F) := fun c => StableHlo.after hostOps3 (W4 m c)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c

theorem pdats_A0 (c : Dev nD) (w) : (pdats m 0 c).A w = V1 m c (Pipeline.arrRef spec0 w) := A_eq0 (V1 m) c w
theorem pdats_A1 (c : Dev nD) (w) : (pdats m 1 c).A w = V2 m c (Pipeline.arrRef spec1 w) := A_eq1 (V2 m) c w
theorem pdats_A2 (c : Dev nD) (w) : (pdats m 2 c).A w = V3 m c (Pipeline.arrRef spec2 w) := A_eq2 (V3 m) c w
theorem pdats_share0 (c : Dev nD) (w) : (pdats m 0 c).q w = fullShare := rfl
theorem pdats_share1 (c : Dev nD) (w) : (pdats m 1 c).q w = fullShare := rfl
theorem pdats_share2 (c : Dev nD) (w) : (pdats m 2 c).q w = fullShare := rfl
theorem pdats_owed0 (c : Dev nD) (t) : (pdats m 0 c).owed t = 0 := rfl
theorem pdats_owed1 (c : Dev nD) (t) : (pdats m 1 c).owed t = 0 := rfl
theorem pdats_owed2 (c : Dev nD) (t) : (pdats m 2 c).owed t = 0 := rfl
theorem pdats_hin0 (c : Dev nD) : Pipeline.ΦA spec0 c ⊢ (pdats m 0 c).Φ 0 := BI.Entails.refl _
theorem pdats_hin1 (c : Dev nD) : Pipeline.ΦA spec1 c ⊢ (pdats m 1 c).Φ 0 := hin1 (V2 m) c
theorem pdats_hin2 (c : Dev nD) : Pipeline.ΦA spec2 c ⊢ (pdats m 2 c).Φ 0 := hin2 (V3 m) c
theorem pdats_hout0 (c : Dev nD) : (pdats m 0 c).Φ (Fin.last _) ⊢ Pipeline.ΦA spec0 c := BI.Entails.refl _
theorem pdats_hout1 (c : Dev nD) : (pdats m 1 c).Φ (Fin.last _) ⊢ Pipeline.ΦA spec1 c := hout1 (V2 m) c
theorem pdats_hout2 (c : Dev nD) : (pdats m 2 c).Φ (Fin.last _) ⊢ Pipeline.ΦA spec2 c := hout2 (V3 m) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => pdats_owed0 m c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => pdats_share0 m c w) (V1 m c) fun w => pdats_A0 m c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact h.trans (pdats_hin0 m c)
  hout c := by
    rw [Pipeline.ownSems0_none]
    have h : (Pipeline.ΦA spec0 c : sProp 𝕄) ⊢ iprop((∃ r, prngReg c r) ∗ emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (pdats_hout0 m c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => pdats_share0 m c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun c t => pdats_owed1 m c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun w => pdats_share1 m c w) (V2 m c) fun w => pdats_A1 m c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (pdats_hin1 m c)
  hout c := by
    rw [Pipeline.ownSems0_none]
    have h : (Pipeline.ΦA spec1 c : sProp 𝕄) ⊢ iprop((∃ r, prngReg c r) ∗ emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (pdats_hout1 m c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => pdats_share1 m c w)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun c t => pdats_owed2 m c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun w => pdats_share2 m c w) (V3 m c) fun w => pdats_A2 m c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1
        ∗ Pipeline.scopedRest (Pipeline.pin (pcfgs (F := F)) adm 2).spec c) : sProp 𝕄) ⊢ Pipeline.ΦA spec2 c := by
      unfold Pipeline.ΦA
      iintro ⟨Hp, -, Hr⟩
      isplitl [Hr]; · iexact Hr
      iexact Hp
    exact h.trans (pdats_hin2 m c)
  hout c := by
    rw [Pipeline.ownSems0_none]
    have h : (Pipeline.ΦA spec2 c : sProp 𝕄) ⊢ iprop((∃ r, prngReg c r) ∗ emp ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (pdats_hout2 m c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => pdats_share2 m c w)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)) ]

theorem main_run (c : Dev nD) : main (F := F) c = Pipeline.Seg.run (segs m) := (main_chain c).trans (by chain_rfl)

set_option backward.isDefEq.respectTransparency.types false in
/-- Every weakly fair execution of the program terminates, nothing faulting, and every final state holds every
    unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Fr

end
-- ==== Proof.KI.Args.lean ====
import proofs.«105494_j56573309223698_2_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The argument arrays end as launched: no host operation writes one, and a kernel region only reads them -/

variable (m : (ℓ : Loc nD τ sig) → Buf (Elt F) ℓ) (ρ : Dev nD → PrngReg)

theorem W1_main_arg0 (c : Dev nD) : W1 m c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_main_arg1 (c : Dev nD) : W1 m c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_main_arg2 (c : Dev nD) : W1 m c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_main_arg3 (c : Dev nD) : W1 m c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_main_arg4 (c : Dev nD) : W1 m c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_main_arg5 (c : Dev nD) : W1 m c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_main_arg6 (c : Dev nD) : W1 m c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_main_arg0 m c

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_main_arg1 m c

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_main_arg2 m c

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := W3_of_ne m c main_arg3 (by decide)
    _ = W1 m c (Proc.devRef .tc main_arg3) := (W2_arr m c 1).trans (((dat0 (V1 m) c).arrAt_in 1 rfl _).trans (A_eq0 (V1 m) c 1))
    _ = m ((c : Thread nD τ).loc main_arg3) := W1_main_arg3 m c

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := W3_of_ne m c main_arg4 (by decide)
    _ = W1 m c (Proc.devRef .tc main_arg4) := (W2_arr m c 2).trans (((dat0 (V1 m) c).arrAt_in 2 rfl _).trans (A_eq0 (V1 m) c 2))
    _ = m ((c : Thread nD τ).loc main_arg4) := W1_main_arg4 m c

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg5) := W4_of_ne m c main_arg5 (by decide)
    _ = W2 m c (Proc.devRef .tc main_arg5) := W3_of_ne m c main_arg5 (by decide)
    _ = W1 m c (Proc.devRef .tc main_arg5) := (W2_arr m c 3).trans (((dat0 (V1 m) c).arrAt_in 3 rfl _).trans (A_eq0 (V1 m) c 3))
    _ = m ((c : Thread nD τ).loc main_arg5) := W1_main_arg5 m c

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg6) := W4_of_ne m c main_arg6 (by decide)
    _ = W2 m c (Proc.devRef .tc main_arg6) := W3_of_ne m c main_arg6 (by decide)
    _ = W1 m c (Proc.devRef .tc main_arg6) := (W2_arr m c 4).trans (((dat0 (V1 m) c).arrAt_in 4 rfl _).trans (A_eq0 (V1 m) c 4))
    _ = m ((c : Thread nD τ).loc main_arg6) := W1_main_arg6 m c

/-- The frame: every weakly fair execution terminates, nothing faulting, with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_all m ρ)

end Cert.KernelIdeal.Fr

end
-- ==== Proof.Spec.lean ====
/-
  The mathematics both programs compute, as plain functions of the argument arrays over the extended reals.

  * `soft x Wa ba` — the assignment matrix: row `r` of `x · Wa + ba` (the logits), shifted by the row's maximum,
    exponentiated and divided by the row's sum of exponentials.
  * `feat x Wf bf` — the transformed features `x · Wf + bf`.
  * `pooledX S h` — `Sᵀ · h`: entry (k, ch) is the sum over all 16384 nodes `r` of `S r k * h r ch`.
  * `partialM S B` — slab `j` of `Sᵀ · B · S` restricted to the 2048 columns `2048 j … 2048 j + 2047` of the dense
    adjacency `B`: entry (j, k, l) is the sum over those columns `c` of `(∑ r, S r k * B r c) * S c l`.
  * `pooledAdj S B` — the slabs summed (from zero) and symmetrised: `M + Mᵀ` with `M = ∑ j, partialM S B j`.
-/
import Idealize.ShloMosaic.PureOps.Ideal
import Idealize.ShloMosaic.Lib.ValueIdx

noncomputable section

namespace Cert.Spec

open Idealize.ShloMosaic Idealize.ShloMosaic.ValueIdx
open scoped BigOperators

abbrev Arr1 (a : Nat) : Type := (⟨1, ![a]⟩ : Shape).Idx → EReal
abbrev Arr2 (a b : Nat) : Type := (⟨2, ![a, b]⟩ : Shape).Idx → EReal
abbrev Arr3 (a b c : Nat) : Type := (⟨3, ![a, b, c]⟩ : Shape).Idx → EReal

/-- The logit of node `r` for cluster `k`: row `r` of `x` against column `k` of `Wa`, plus the bias. -/
def logit (x : Arr2 16384 128) (Wa : Arr2 128 512) (ba : Arr1 512) (r : Fin 16384) (k : Fin 512) : EReal :=
  (∑ q : Fin 128, x (ix2 r q) * Wa (ix2 q k)) + ba (ix1 k)

/-- The maximum of row `r`'s logits (from `⊥`, the neutral element of `max`). -/
def rowMax (x : Arr2 16384 128) (Wa : Arr2 128 512) (ba : Arr1 512) (r : Fin 16384) : EReal :=
  max ⊥ ((Finset.univ : Finset (Fin 512)).fold max ⊥ (fun k => logit x Wa ba r k))

/-- The shifted exponential `exp (logit − rowMax)`. -/
def expo (x : Arr2 16384 128) (Wa : Arr2 128 512) (ba : Arr1 512) (r : Fin 16384) (k : Fin 512) : EReal :=
  Ideal.exp (logit x Wa ba r k - rowMax x Wa ba r)

/-- The sum of row `r`'s shifted exponentials. -/
def rowSum (x : Arr2 16384 128) (Wa : Arr2 128 512) (ba : Arr1 512) (r : Fin 16384) : EReal :=
  ∑ k : Fin 512, expo x Wa ba r k

/-- The softmax entry (r, k). -/
def softAt (x : Arr2 16384 128) (Wa : Arr2 128 512) (ba : Arr1 512) (r : Fin 16384) (k : Fin 512) : EReal :=
  Ideal.div (expo x Wa ba r k) (rowSum x Wa ba r)

/-- The assignment matrix, softmax of the logits along the clusters. -/
def soft (x : Arr2 16384 128) (Wa : Arr2 128 512) (ba : Arr1 512) : Arr2 16384 512 :=
  fun i => softAt x Wa ba (i 0) (i 1)

theorem soft_ix2 (x : Arr2 16384 128) (Wa : Arr2 128 512) (ba : Arr1 512) (r : Fin 16384) (k : Fin 512) :
    soft x Wa ba (ix2 r k) = softAt x Wa ba r k := rfl

/-- The transformed feature entry (r, ch). -/
def featAt (x : Arr2 16384 128) (Wf : Arr2 128 128) (bf : Arr1 128) (r : Fin 16384) (ch : Fin 128) : EReal :=
  (∑ q : Fin 128, x (ix2 r q) * Wf (ix2 q ch)) + bf (ix1 ch)

/-- The transformed features `x · Wf + bf`. -/
def feat (x : Arr2 16384 128) (Wf : Arr2 128 128) (bf : Arr1 128) : Arr2 16384 128 :=
  fun i => featAt x Wf bf (i 0) (i 1)

theorem feat_ix2 (x : Arr2 16384 128) (Wf : Arr2 128 128) (bf : Arr1 128) (r : Fin 16384) (ch : Fin 128) :
    feat x Wf bf (ix2 r ch) = featAt x Wf bf r ch := rfl

/-- Entry (k, ch) of `Sᵀ · h`. -/
def pooledXAt (S : Arr2 16384 512) (h : Arr2 16384 128) (k : Fin 512) (ch : Fin 128) : EReal :=
  ∑ r : Fin 16384, S (ix2 r k) * h (ix2 r ch)

/-- `Sᵀ · h`. -/
def pooledX (S : Arr2 16384 512) (h : Arr2 16384 128) : Arr2 512 128 :=
  fun i => pooledXAt S h (i 0) (i 1)

theorem pooledX_ix2 (S : Arr2 16384 512) (h : Arr2 16384 128) (k : Fin 512) (ch : Fin 128) :
    pooledX S h (ix2 k ch) = pooledXAt S h k ch := rfl

/-- Column `cc` of column block `j`: the node `2048 j + cc`. -/
def col (j : Fin 8) (cc : Fin 2048) : Fin 16384 := ⟨2048 * j.val + cc.val, by omega⟩

theorem col_val (j : Fin 8) (cc : Fin 2048) : (col j cc).val = 2048 * j.val + cc.val := rfl

/-- Entry (k, c) of `Sᵀ · B`. -/
def stB (S : Arr2 16384 512) (B : Arr2 16384 16384) (k : Fin 512) (c : Fin 16384) : EReal :=
  ∑ r : Fin 16384, S (ix2 r k) * B (ix2 r c)

/-- Entry (j, k, l) of the slabs of `Sᵀ · B · S`: the columns of block `j` only. -/
def partialMAt (S : Arr2 16384 512) (B : Arr2 16384 16384) (j : Fin 8) (k l : Fin 512) : EReal :=
  ∑ cc : Fin 2048, stB S B k (col j cc) * S (ix2 (col j cc) l)

/-- The eight slabs. -/
def partialM (S : Arr2 16384 512) (B : Arr2 16384 16384) : Arr3 8 512 512 :=
  fun i => partialMAt S B (i 0) (i 1) (i 2)

theorem partialM_ix3 (S : Arr2 16384 512) (B : Arr2 16384 16384) (j : Fin 8) (k l : Fin 512) :
    partialM S B (ix3 j k l) = partialMAt S B j k l := rfl

/-- The slabs summed from zero: entry (k, l) of `Sᵀ · B · S`. -/
def sumM (Mp : Arr3 8 512 512) (k l : Fin 512) : EReal := 0 + ∑ j : Fin 8, Mp (ix3 j k l)

/-- `M + Mᵀ`. -/
def pooledAdj (Mp : Arr3 8 512 512) : Arr2 512 512 :=
  fun i => sumM Mp (i 0) (i 1) + sumM Mp (i 1) (i 0)

theorem pooledAdj_ix2 (Mp : Arr3 8 512 512) (k l : Fin 512) :
    pooledAdj Mp (ix2 k l) = sumM Mp k l + sumM Mp l k := rfl

end Cert.Spec

end
-- ==== Proof.KI.R0Pay.lean ====
import proofs.«105494_j56573309223698_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«105494_j56573309223698_2_alg».proof.Proof.Spec

set_option pp.maxSteps 5000
set_option pp.deepTerms false

noncomputable section

namespace Cert.KernelIdeal.Val

open Cert.KernelIdeal Cert.KernelIdeal.Gen Idealize.ShloMosaic Idealize.ShloMosaic.ValueIdx
open scoped BigOperators

/-! # The first kernel's arithmetic read at an index, over the extended reals -/

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

local notation "D1" => dot_S2048x128_S128x512_S2048x512_1_0_0_1_n_n
local notation "D2" => dot_S2048x128_S128x128_S2048x128_1_0_0_1_n_n

theorem mm1_lhs0 (i : S2048x512.Idx) (q : dot_S2048x128_S128x512_S2048x512_1_0_0_1_n_n.contr.Idx) : (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem mm1_rhs1 (i : S2048x512.Idx) (q : dot_S2048x128_S128x512_S2048x512_1_0_0_1_n_n.contr.Idx) : (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl
theorem mm1_apply (x0 : FVec Ideal S2048x128 .f32) (x1 : FVec Ideal S128x512 .f32) (p : Fin 2048) (q : Fin 512) :
    matmul (F := Ideal) (φ₁ := .f32) (φ₂ := .f32) dot_S2048x128_S128x512_S2048x512_1_0_0_1_n_n none x0 x1 (constant S2048x512 .f32 0x00000000#32) (ix2 p q)
      = ∑ a : Fin 128, x0 (ix2 p a) * x1 (ix2 a q) := by
  simp only [matmul]
  rw [Ideal.matmul_constant_zero_apply, ← Equiv.sum_comp (contrEquiv1 dot_S2048x128_S128x512_S2048x512_1_0_0_1_n_n 128 rfl rfl).symm]
  refine Finset.sum_congr rfl fun k _ => ?_
  have hk := contrEquiv1_symm_val dot_S2048x128_S128x512_S2048x512_1_0_0_1_n_n 128 rfl rfl k
  have el : dot_S2048x128_S128x512_S2048x512_1_0_0_1_n_n.lhsIdx (ix2 p q) ((contrEquiv1 dot_S2048x128_S128x512_S2048x512_1_0_0_1_n_n 128 rfl rfl).symm k) = ix2 p k := funext fun a => Fin.ext (by
    match a with
    | ⟨0, _⟩ => exact mm1_lhs0 _ _
    | ⟨1, _⟩ => exact (dot_S2048x128_S128x512_S2048x512_1_0_0_1_n_n.lhsIdx_val_of_single rfl _ _).trans hk)
  have er : dot_S2048x128_S128x512_S2048x512_1_0_0_1_n_n.rhsIdx (ix2 p q) ((contrEquiv1 dot_S2048x128_S128x512_S2048x512_1_0_0_1_n_n 128 rfl rfl).symm k) = ix2 k q := funext fun a => Fin.ext (by
    match a with
    | ⟨0, _⟩ => exact (dot_S2048x128_S128x512_S2048x512_1_0_0_1_n_n.rhsIdx_val_of_single rfl _ _).trans hk
    | ⟨1, _⟩ => exact mm1_rhs1 _ _)
  rw [el, er]

theorem mm2_lhs0 (i : S2048x128.Idx) (q : dot_S2048x128_S128x128_S2048x128_1_0_0_1_n_n.contr.Idx) : (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem mm2_rhs1 (i : S2048x128.Idx) (q : dot_S2048x128_S128x128_S2048x128_1_0_0_1_n_n.contr.Idx) : (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl
theorem mm2_apply (x0 : FVec Ideal S2048x128 .f32) (x1 : FVec Ideal S128x128 .f32) (p : Fin 2048) (q : Fin 128) :
    matmul (F := Ideal) (φ₁ := .f32) (φ₂ := .f32) dot_S2048x128_S128x128_S2048x128_1_0_0_1_n_n none x0 x1 (constant S2048x128 .f32 0x00000000#32) (ix2 p q)
      = ∑ a : Fin 128, x0 (ix2 p a) * x1 (ix2 a q) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k := funext fun a => Fin.ext (by
    match a with
    | ⟨0, _⟩ => exact mm2_lhs0 _ _
    | ⟨1, _⟩ => exact (dot_S2048x128_S128x128_S2048x128_1_0_0_1_n_n.lhsIdx_val_of_single rfl _ _).trans hk)
  have er : dot_S2048x128_S128x128_S2048x128_1_0_0_1_n_n.rhsIdx (ix2 p q) ((contrEquiv1 dot_S2048x128_S128x128_S2048x128_1_0_0_1_n_n 128 rfl rfl).symm k) = ix2 k q := funext fun a => Fin.ext (by
    match a with
    | ⟨0, _⟩ => exact (dot_S2048x128_S128x128_S2048x128_1_0_0_1_n_n.rhsIdx_val_of_single rfl _ _).trans hk
    | ⟨1, _⟩ => exact mm2_rhs1 _ _)
  rw [el, er]

/-- The bias row `[n]` cast to `[1, n]` and broadcast over the block's rows reads, at (p, q), the bias at q. -/
theorem biasRow512_apply (x3 : FVec Ideal S512 .f32) (p : Fin 2048) (q : Fin 512) :
    broadcastTo S2048x512 (shapeCast S1x512 x3 shapeCasts_S512_S1x512) broadcasts_S1x512_S2048x512 (ix2 p q) = x3 (ix1 q) := by
  rw [broadcastTo_1b_ab_apply, shapeCast_a_1a_apply]
theorem biasRow128_apply (x3 : FVec Ideal S128 .f32) (p : Fin 2048) (q : Fin 128) :
    broadcastTo S2048x128 (shapeCast S1x128 x3 shapeCasts_S128_S1x128) broadcasts_S1x128_S2048x128 (ix2 p q) = x3 (ix1 q) := by
  rw [broadcastTo_1b_ab_apply, shapeCast_a_1a_apply]

/-- A per-row value `[2048]` cast to a column and broadcast over the 512 clusters reads, at (p, q), the value of row p. -/
theorem rowCol_apply (v : FVec Ideal S2048 .f32) (p : Fin 2048) (q : Fin 512) :
    broadcastTo S2048x512 (shapeCast S2048x1 v shapeCasts_S2048_S2048x1) broadcasts_S2048x1_S2048x512 (ix2 p q) = v (ix1 p) := by
  rw [broadcastTo_a1_ab_apply, shapeCast_a_a1_apply]

/-- The feature payload at (p, q). -/
theorem pay3_at (x0 : Vec Ideal S2048x128 .f32) (x21 : Vec Ideal S128x128 .f32) (x23 : Vec Ideal S128 .f32) (p : Fin 2048) (q : Fin 128) :
    k0_pay3 (F := Ideal) x0 x21 x23 (ix2 p q) = (∑ a : Fin 128, x0 (ix2 p a) * x21 (ix2 a q)) + x23 (ix1 q) := by
  unfold k0_pay3
  show (matmul (F := Ideal) (φ₁ := .f32) (φ₂ := .f32) dot_S2048x128_S128x128_S2048x128_1_0_0_1_n_n none x0 x21 (constant S2048x128 .f32 0x00000000#32) (ix2 p q))
      + (broadcastTo S2048x128 (shapeCast S1x128 x23 shapeCasts_S128_S1x128) broadcasts_S1x128_S2048x128 (ix2 p q)) = _
  rw [mm2_apply, biasRow128_apply]

/-! ## The softmax payload -/

theorem ofBits_negInf : Ideal.ofBits .f32 0xFF800000#32 = (⊥ : EReal) := by simp [Ideal.ofBits, Ideal.ieee]

/-- The logit of the block's row p for cluster q. -/
def lg (x0 : FVec Ideal S2048x128 .f32) (x1 : FVec Ideal S128x512 .f32) (x3 : FVec Ideal S512 .f32) (p : Fin 2048) (q : Fin 512) : EReal :=
  (∑ a : Fin 128, x0 (ix2 p a) * x1 (ix2 a q)) + x3 (ix1 q)
/-- The row's maximum logit. -/
def mx (x0 : FVec Ideal S2048x128 .f32) (x1 : FVec Ideal S128x512 .f32) (x3 : FVec Ideal S512 .f32) (p : Fin 2048) : EReal :=
  max ⊥ ((Finset.univ : Finset (Fin 512)).fold max ⊥ (fun k => lg x0 x1 x3 p k))

/-- The block of logits. -/
def V6 (x0 : FVec Ideal S2048x128 .f32) (x1 : FVec Ideal S128x512 .f32) (x3 : FVec Ideal S512 .f32) : FVec Ideal S2048x512 .f32 :=
  addf (matmul (F := Ideal) (φ₁ := .f32) (φ₂ := .f32) dot_S2048x128_S128x512_S2048x512_1_0_0_1_n_n none x0 x1 (constant S2048x512 .f32 0x00000000#32))
    (broadcastTo S2048x512 (shapeCast S1x512 x3 shapeCasts_S512_S1x512) broadcasts_S1x512_S2048x512)

theorem V6_at (x0 : FVec Ideal S2048x128 .f32) (x1 : FVec Ideal S128x512 .f32) (x3 : FVec Ideal S512 .f32) (p : Fin 2048) (q : Fin 512) :
    V6 x0 x1 x3 (ix2 p q) = lg x0 x1 x3 p q := by
  unfold V6 lg
  show (matmul (F := Ideal) (φ₁ := .f32) (φ₂ := .f32) dot_S2048x128_S128x512_S2048x512_1_0_0_1_n_n none x0 x1 (constant S2048x512 .f32 0x00000000#32) (ix2 p q))
      + (broadcastTo S2048x512 (shapeCast S1x512 x3 shapeCasts_S512_S1x512) broadcasts_S1x512_S2048x512 (ix2 p q)) = _
  rw [mm1_apply, biasRow512_apply]

/-- The reduced index (p) with the cluster coordinate k inserted is (p, k). -/
theorem lift_row (p : Fin 2048) (k : Fin 512) : reduces_S2048x512_S2048.lift (ix1 p) k = ix2 p k :=
  funext fun a => Fin.ext (by
    match a with
    | ⟨0, _⟩ => rfl
    | ⟨1, _⟩ => rfl)

/-- The row maxima: the fold of max over the 512 clusters from ⊥. -/
theorem rowmax_at (v6 : FVec Ideal S2048x512 .f32) (p : Fin 2048) :
    multiReduction (F := Ideal) .maximumf [1] S2048 v6 0xFF800000#32 reduces_S2048x512_S2048 (.inl rfl) rfl (ix1 p)
      = (Finset.univ : Finset (Fin 512)).fold max ⊥ (fun k => v6 (ix2 p k)) := by
  refine (Ideal.multiReduction_maximumf_single v6 0xFF800000#32 reduces_S2048x512_S2048 (.inl rfl) rfl (ix1 p)).trans ?_
  show (Finset.univ : Finset (Fin 512)).fold max (Ideal.ofBits .f32 0xFF800000#32) (fun k => v6 (reduces_S2048x512_S2048.lift (ix1 p) k)) = _
  rw [ofBits_negInf]
  exact congrArg (fun f => (Finset.univ : Finset (Fin 512)).fold max ⊥ f) (funext fun k => congrArg v6 (lift_row p k))

/-- The row sums. -/
theorem rowsum_at (v13 : FVec Ideal S2048x512 .f32) (p : Fin 2048) :
    multiReduction (F := Ideal) .add [1] S2048 v13 0x00000000#32 reduces_S2048x512_S2048 (.inl rfl) rfl (ix1 p)
      = ∑ k : Fin 512, v13 (ix2 p k) := by
  refine (Ideal.multiReduction_add_single v13 0x00000000#32 reduces_S2048x512_S2048 (.inl rfl) rfl (ix1 p)).trans ?_
  show ∑ k : Fin 512, v13 (reduces_S2048x512_S2048.lift (ix1 p) k) = _
  exact Finset.sum_congr rfl fun k _ => congrArg v13 (lift_row p k)

/-- The block of shifted exponentials. -/
def E13 (x0 : FVec Ideal S2048x128 .f32) (x1 : FVec Ideal S128x512 .f32) (x3 : FVec Ideal S512 .f32) : FVec Ideal S2048x512 .f32 :=
  exp (subf (V6 x0 x1 x3)
    (broadcastTo S2048x512 (shapeCast S2048x1 (maximumf (broadcast S2048 (Scalar.ofBits (F := Ideal) .f32 0xFF800000#32))
      (multiReduction (F := Ideal) .maximumf [1] S2048 (V6 x0 x1 x3) 0xFF800000#32 reduces_S2048x512_S2048 (.inl rfl) rfl)) shapeCasts_S2048_S2048x1) broadcasts_S2048x1_S2048x512))

/-- The softmax block. -/
def P1 (x0 : FVec Ideal S2048x128 .f32) (x1 : FVec Ideal S128x512 .f32) (x3 : FVec Ideal S512 .f32) : FVec Ideal S2048x512 .f32 :=
  divf (E13 x0 x1 x3)
    (broadcastTo S2048x512 (shapeCast S2048x1 (multiReduction (F := Ideal) .add [1] S2048 (E13 x0 x1 x3) 0x00000000#32 reduces_S2048x512_S2048 (.inl rfl) rfl) shapeCasts_S2048_S2048x1) broadcasts_S2048x1_S2048x512)

theorem pay1_eq (x0 : FVec Ideal S2048x128 .f32) (x1 : FVec Ideal S128x512 .f32) (x3 : FVec Ideal S512 .f32) :
    k0_pay1 (F := Ideal) x0 x1 x3 = P1 x0 x1 x3 := rfl

theorem negInf_scalar : (Scalar.ofBits (F := Ideal) .f32 0xFF800000#32 : Ideal .f32) = (⊥ : EReal) := ofBits_negInf

theorem max_at (x0 : FVec Ideal S2048x128 .f32) (x1 : FVec Ideal S128x512 .f32) (x3 : FVec Ideal S512 .f32) (p : Fin 2048) :
    (maximumf (broadcast S2048 (Scalar.ofBits (F := Ideal) .f32 0xFF800000#32))
      (multiReduction (F := Ideal) .maximumf [1] S2048 (V6 x0 x1 x3) 0xFF800000#32 reduces_S2048x512_S2048 (.inl rfl) rfl) : FVec Ideal S2048 .f32) (ix1 p)
      = mx x0 x1 x3 p := by
  rw [maximumf_apply, broadcast_apply, rowmax_at, negInf_scalar]
  unfold mx
  exact congrArg (fun f => max ⊥ ((Finset.univ : Finset (Fin 512)).fold max ⊥ f)) (funext fun k => V6_at x0 x1 x3 p k)

theorem E13_at (x0 : FVec Ideal S2048x128 .f32) (x1 : FVec Ideal S128x512 .f32) (x3 : FVec Ideal S512 .f32) (p : Fin 2048) (k : Fin 512) :
    E13 x0 x1 x3 (ix2 p k) = Ideal.exp (lg x0 x1 x3 p k - mx x0 x1 x3 p) := by
  unfold E13
  show Ideal.exp (V6 x0 x1 x3 (ix2 p k) - broadcastTo S2048x512 (shapeCast S2048x1 _ shapeCasts_S2048_S2048x1) broadcasts_S2048x1_S2048x512 (ix2 p k)) = _
  rw [rowCol_apply, max_at, V6_at]

/-- The softmax payload at (p, q): exp (logit − row maximum) over the row's sum of such exponentials. -/
theorem pay1_at (x0 : FVec Ideal S2048x128 .f32) (x1 : FVec Ideal S128x512 .f32) (x3 : FVec Ideal S512 .f32) (p : Fin 2048) (q : Fin 512) :
    k0_pay1 (F := Ideal) x0 x1 x3 (ix2 p q)
      = Ideal.div (Ideal.exp (lg x0 x1 x3 p q - mx x0 x1 x3 p)) (∑ k : Fin 512, Ideal.exp (lg x0 x1 x3 p k - mx x0 x1 x3 p)) := by
  rw [pay1_eq]
  unfold P1
  show Ideal.div (E13 x0 x1 x3 (ix2 p q)) (broadcastTo S2048x512 (shapeCast S2048x1 _ shapeCasts_S2048_S2048x1) broadcasts_S2048x1_S2048x512 (ix2 p q)) = _
  rw [rowCol_apply, rowsum_at, E13_at]
  exact congrArg (Ideal.div _) (Finset.sum_congr rfl fun k _ => E13_at x0 x1 x3 p k)

/-- When the block's row p is row r of `X`, and the other two blocks are `Wa` and `ba` whole, the payload is the
    softmax entry of row r. -/
theorem soft_of_reads (x0 : FVec Ideal S2048x128 .f32) (x1 : FVec Ideal S128x512 .f32) (x3 : FVec Ideal S512 .f32)
    (X : Cert.Spec.Arr2 16384 128) (Wa : Cert.Spec.Arr2 128 512) (ba : Cert.Spec.Arr1 512) (r : Fin 16384) (p : Fin 2048)
    (h0 : ∀ a : Fin 128, x0 (ix2 p a) = X (ix2 r a)) (h1 : ∀ (a : Fin 128) (q : Fin 512), x1 (ix2 a q) = Wa (ix2 a q))
    (h3 : ∀ q : Fin 512, x3 (ix1 q) = ba (ix1 q)) (q : Fin 512) :
    Ideal.div (Ideal.exp (lg x0 x1 x3 p q - mx x0 x1 x3 p)) (∑ k : Fin 512, Ideal.exp (lg x0 x1 x3 p k - mx x0 x1 x3 p))
      = Cert.Spec.softAt X Wa ba r q := by
  have hlg : ∀ k : Fin 512, lg x0 x1 x3 p k = Cert.Spec.logit X Wa ba r k := fun k => by
    unfold lg Cert.Spec.logit
    rw [h3]
    exact congrArg (· + ba (ix1 k)) (Finset.sum_congr rfl fun a _ => by rw [h0, h1])
  have hmx : mx x0 x1 x3 p = Cert.Spec.rowMax X Wa ba r := by
    unfold mx Cert.Spec.rowMax
    exact congrArg (fun f => max ⊥ ((Finset.univ : Finset (Fin 512)).fold max ⊥ f)) (funext hlg)
  unfold Cert.Spec.softAt Cert.Spec.rowSum Cert.Spec.expo
  rw [hmx, hlg]
  exact congrArg (Ideal.div _) (Finset.sum_congr rfl fun k _ => by rw [hlg])

/-- The same for the features. -/
theorem feat_of_reads (x0 : FVec Ideal S2048x128 .f32) (x21 : FVec Ideal S128x128 .f32) (x23 : FVec Ideal S128 .f32)
    (X : Cert.Spec.Arr2 16384 128) (Wf : Cert.Spec.Arr2 128 128) (bf : Cert.Spec.Arr1 128) (r : Fin 16384) (p : Fin 2048)
    (h0 : ∀ a : Fin 128, x0 (ix2 p a) = X (ix2 r a)) (h1 : ∀ (a : Fin 128) (q : Fin 128), x21 (ix2 a q) = Wf (ix2 a q))
    (h3 : ∀ q : Fin 128, x23 (ix1 q) = bf (ix1 q)) (q : Fin 128) :
    (∑ a : Fin 128, x0 (ix2 p a) * x21 (ix2 a q)) + x23 (ix1 q) = Cert.Spec.featAt X Wf bf r q := by
  unfold Cert.Spec.featAt
  rw [h3]
  exact congrArg (· + bf (ix1 q)) (Finset.sum_congr rfl fun a _ => by rw [h0, h1])

end Cert.KernelIdeal.Val

end
-- ==== Proof.KI.R0Value.lean ====
import proofs.«105494_j56573309223698_2_alg».proof.Proof.KI.R0
import proofs.«105494_j56573309223698_2_alg».proof.Proof.KI.R0Pay
import proofs.«105494_j56573309223698_2_alg».proof.Proof.Spec
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Val

/-! # What the first region leaves in its three output arrays, at the extended reals

Grid point `t` handles rows `2048 t … 2048 t + 2047`: its blocks of `x` and of the three outputs are those rows, its
blocks of `Wa`, `ba`, `Wf`, `bf` the whole arrays. So what point `t` writes back is rows `2048 t …` of one function of
the argument arrays, and the eight points' blocks cover each output array. -/

variable (V : (c : Dev nD) → (b : Ref sig .tc) → Buf (Elt Ideal) ((c : Thread nD τ).loc b))

theorem r0_hz2 : (![0, 0] : Fin 2 → Nat) = fun _ => 0 := funext fun a => by fin_cases a <;> rfl
theorem r0_hz1 : (![0] : Fin 1 → Nat) = fun _ => 0 := funext fun a => by fin_cases a; rfl

/-- The printed block-index maps over the grid: the row-blocked windows move with the point, the others stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of point `t`'s block is row `2048 t + p` of the array. -/
def rowOf0 (t : Fin cfg0.N) (p : Fin 2048) : Fin 16384 :=
  ⟨2048 * t.val + p.val, by have := t.isLt; have hN : cfg0.N = 8 := N_0; omega⟩

theorem read0_0 (c : Dev nD) (t : Fin cfg0.N) (p : Fin 2048) (a : Fin 128) :
    iblk0 V c 0 t (ix2 p a) = V c main_arg0 (ix2 (rowOf0 t p) a) := by
  obtain ⟨e0, e1, -⟩ := idx_facts0 t
  show V c main_arg0 (((cfg0.win 0).blk t).view.emb (ix2 p a)) = V c main_arg0 (ix2 (rowOf0 t p) a)
  refine congrArg (V c main_arg0) (funext fun ax => Fin.ext ?_)
  match ax with
  | ⟨0, _⟩ => show win0_0.index t (0 : Fin 2) * 2048 + 1 * p.val = 2048 * t.val + p.val; omega
  | ⟨1, _⟩ => show win0_0.index t (1 : Fin 2) * 128 + 1 * a.val = a.val; omega

theorem read0_1 (c : Dev nD) (t : Fin cfg0.N) (a : Fin 128) (q : Fin 512) :
    iblk0 V c 1 t (ix2 a q) = V c main_arg3 (ix2 a q) := by
  obtain ⟨-, -, e0, e1, -⟩ := idx_facts0 t
  show V c main_arg3 (((cfg0.win 1).blk t).view.emb (ix2 a q)) = V c main_arg3 (ix2 a q)
  refine congrArg (V c main_arg3) (funext fun ax => Fin.ext ?_)
  match ax with
  | ⟨0, _⟩ => show win0_1.index t (0 : Fin 2) * 128 + 1 * a.val = a.val; omega
  | ⟨1, _⟩ => show win0_1.index t (1 : Fin 2) * 512 + 1 * q.val = q.val; omega

theorem read0_2 (c : Dev nD) (t : Fin cfg0.N) (q : Fin 512) :
    iblk0 V c 2 t (ix1 q) = V c main_arg4 (ix1 q) := by
  obtain ⟨-, -, -, -, e0, -⟩ := idx_facts0 t
  show V c main_arg4 (((cfg0.win 2).blk t).view.emb (ix1 q)) = V c main_arg4 (ix1 q)
  refine congrArg (V c main_arg4) (funext fun ax => Fin.ext ?_)
  match ax with
  | ⟨0, _⟩ => show win0_2.index t (0 : Fin 1) * 512 + 1 * q.val = q.val; omega

theorem read0_3 (c : Dev nD) (t : Fin cfg0.N) (a : Fin 128) (q : Fin 128) :
    iblk0 V c 3 t (ix2 a q) = V c main_arg5 (ix2 a q) := by
  obtain ⟨-, -, -, -, -, e0, e1, -⟩ := idx_facts0 t
  show V c main_arg5 (((cfg0.win 3).blk t).view.emb (ix2 a q)) = V c main_arg5 (ix2 a q)
  refine congrArg (V c main_arg5) (funext fun ax => Fin.ext ?_)
  match ax with
  | ⟨0, _⟩ => show win0_3.index t (0 : Fin 2) * 128 + 1 * a.val = a.val; omega
  | ⟨1, _⟩ => show win0_3.index t (1 : Fin 2) * 128 + 1 * q.val = q.val; omega

theorem read0_4 (c : Dev nD) (t : Fin cfg0.N) (q : Fin 128) :
    iblk0 V c 4 t (ix1 q) = V c main_arg6 (ix1 q) := by
  obtain ⟨-, -, -, -, -, -, -, e0, -⟩ := idx_facts0 t
  show V c main_arg6 (((cfg0.win 4).blk t).view.emb (ix1 q)) = V c main_arg6 (ix1 q)
  refine congrArg (V c main_arg6) (funext fun ax => Fin.ext ?_)
  match ax with
  | ⟨0, _⟩ => show win0_4.index t (0 : Fin 1) * 128 + 1 * q.val = q.val; omega

theorem emb0_5 (t : Fin cfg0.N) (p : Fin 2048) (q : Fin 512) :
    ((cfg0.win 5).blk t).view.emb (ix2 p q) = ix2 (rowOf0 t p) q := by
  obtain ⟨-, -, -, -, -, -, -, -, e0, e1, -⟩ := idx_facts0 t
  refine funext fun ax => Fin.ext ?_
  match ax with
  | ⟨0, _⟩ => show win0_5.index t (0 : Fin 2) * 2048 + 1 * p.val = 2048 * t.val + p.val; omega
  | ⟨1, _⟩ => show win0_5.index t (1 : Fin 2) * 512 + 1 * q.val = q.val; omega

theorem emb0_6 (t : Fin cfg0.N) (p : Fin 2048) (q : Fin 512) :
    ((cfg0.win 6).blk t).view.emb (ix2 p q) = ix2 (rowOf0 t p) q := by
  obtain ⟨-, -, -, -, -, -, -, -, -, -, e0, e1, -⟩ := idx_facts0 t
  refine funext fun ax => Fin.ext ?_
  match ax with
  | ⟨0, _⟩ => show win0_6.index t (0 : Fin 2) * 2048 + 1 * p.val = 2048 * t.val + p.val; omega
  | ⟨1, _⟩ => show win0_6.index t (1 : Fin 2) * 512 + 1 * q.val = q.val; omega

theorem emb0_7 (t : Fin cfg0.N) (p : Fin 2048) (q : Fin 128) :
    ((cfg0.win 7).blk t).view.emb (ix2 p q) = ix2 (rowOf0 t p) q := by
  obtain ⟨-, -, -, -, -, -, -, -, -, -, -, -, e0, e1⟩ := idx_facts0 t
  refine funext fun ax => Fin.ext ?_
  match ax with
  | ⟨0, _⟩ => show win0_7.index t (0 : Fin 2) * 2048 + 1 * p.val = 2048 * t.val + p.val; omega
  | ⟨1, _⟩ => show win0_7.index t (1 : Fin 2) * 128 + 1 * q.val = q.val; omega

/-! ## What each point writes back -/

/-- The assignment matrix of the region's argument arrays. -/
abbrev softOf (c : Dev nD) : Cert.Spec.Arr2 16384 512 := Cert.Spec.soft (V c main_arg0) (V c main_arg3) (V c main_arg4)
/-- The features of the region's argument arrays. -/
abbrev featOf (c : Dev nD) : Cert.Spec.Arr2 16384 128 := Cert.Spec.feat (V c main_arg0) (V c main_arg5) (V c main_arg6)

theorem flushed0_5_eq (c : Dev nD) (t : Fin cfg0.N) :
    (dat0 (F := Ideal) V c).flushed 5 t = ((cfg0.win 5).blk t).view.read (Elt Ideal) (softOf V c) := by
  show (cfg0.win 5).cut (grid0.coords t) ((dat0 V c).after 5 t) = _
  rw [after0_5]
  unfold out0_5
  rw [View.canon_unit_zero r0_hz2]
  simp only [View.ld_unit_zero (S := S2048x128) r0_hz2, View.ld_unit_zero (S := S128x512) r0_hz2, View.ld_unit_zero (S := S512) r0_hz1]
  funext j
  obtain ⟨p, q, rfl⟩ : ∃ (p : Fin 2048) (q : Fin 512), j = ix2 p q := ⟨j 0, j 1, eq_ix2 j⟩
  show k0_pay1 (F := Ideal) (iblk0 V c 0 t) (iblk0 V c 1 t) (iblk0 V c 2 t) (ix2 p q) = softOf V c (((cfg0.win 5).blk t).view.emb (ix2 p q))
  rw [emb0_5]
  exact (pay1_at _ _ _ p q).trans (soft_of_reads _ _ _ (V c main_arg0) (V c main_arg3) (V c main_arg4) (rowOf0 t p) p
    (fun a => read0_0 V c t p a) (fun a q' => read0_1 V c t a q') (fun q' => read0_2 V c t q') q)

theorem flushed0_6_eq (c : Dev nD) (t : Fin cfg0.N) :
    (dat0 (F := Ideal) V c).flushed 6 t = ((cfg0.win 6).blk t).view.read (Elt Ideal) (softOf V c) := by
  show (cfg0.win 6).cut (grid0.coords t) ((dat0 V c).after 6 t) = _
  rw [after0_6]
  unfold out0_6
  rw [View.canon_unit_zero r0_hz2]
  simp only [View.ld_unit_zero (S := S2048x128) r0_hz2, View.ld_unit_zero (S := S128x512) r0_hz2, View.ld_unit_zero (S := S512) r0_hz1]
  funext j
  obtain ⟨p, q, rfl⟩ : ∃ (p : Fin 2048) (q : Fin 512), j = ix2 p q := ⟨j 0, j 1, eq_ix2 j⟩
  show k0_pay1 (F := Ideal) (iblk0 V c 0 t) (iblk0 V c 1 t) (iblk0 V c 2 t) (ix2 p q) = softOf V c (((cfg0.win 6).blk t).view.emb (ix2 p q))
  rw [emb0_6]
  exact (pay1_at _ _ _ p q).trans (soft_of_reads _ _ _ (V c main_arg0) (V c main_arg3) (V c main_arg4) (rowOf0 t p) p
    (fun a => read0_0 V c t p a) (fun a q' => read0_1 V c t a q') (fun q' => read0_2 V c t q') q)

theorem flushed0_7_eq (c : Dev nD) (t : Fin cfg0.N) :
    (dat0 (F := Ideal) V c).flushed 7 t = ((cfg0.win 7).blk t).view.read (Elt Ideal) (featOf V c) := by
  show (cfg0.win 7).cut (grid0.coords t) ((dat0 V c).after 7 t) = _
  rw [after0_7]
  unfold out0_7
  rw [View.canon_unit_zero r0_hz2]
  simp only [View.ld_unit_zero (S := S2048x128) r0_hz2, View.ld_unit_zero (S := S128x128) r0_hz2, View.ld_unit_zero (S := S128) r0_hz1]
  funext j
  obtain ⟨p, q, rfl⟩ : ∃ (p : Fin 2048) (q : Fin 128), j = ix2 p q := ⟨j 0, j 1, eq_ix2 j⟩
  show k0_pay3 (F := Ideal) (iblk0 V c 0 t) (iblk0 V c 3 t) (iblk0 V c 4 t) (ix2 p q) = featOf V c (((cfg0.win 7).blk t).view.emb (ix2 p q))
  rw [emb0_7]
  exact (pay3_at _ _ _ p q).trans (feat_of_reads _ _ _ (V c main_arg0) (V c main_arg5) (V c main_arg6) (rowOf0 t p) p
    (fun a => read0_0 V c t p a) (fun a q' => read0_3 V c t a q') (fun q' => read0_4 V c t q') q)

/-! ## The eight blocks cover each output array -/

theorem mem_blk0_5 (t : Fin cfg0.N) (i : S16384x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v20_0).slice (win0_5.rect t)).set ↔ _
  rw [View.set_slice_whole, Rect.mem_set_unit]
  exact Iff.rfl

/-- Every index of the array lies in the block of the point that handles its row. -/
theorem cover0_5_arr (i : S16384x512.Idx) : ∃ t : Fin cfg0.N, (cfg0.win 5).flush t = true ∧ i ∈ ((cfg0.win 5).blk t).view.set := by
  have hi0 : (i 0).val < 16384 := (i 0).isLt
  have hi1 : (i 1).val < 512 := (i 1).isLt
  have hN : cfg0.N = 8 := N_0
  obtain ⟨-, -, -, -, -, -, -, -, e0, e1, -⟩ := idx_facts0 (⟨(i 0).val / 2048, by omega⟩ : Fin cfg0.N)
  refine ⟨⟨(i 0).val / 2048, by omega⟩, flush0_5 _, ?_⟩
  rw [mem_blk0_5]
  intro a
  match a with
  | ⟨0, _⟩ =>
    show win0_5.index _ (0 : Fin 2) * 2048 ≤ (i 0).val ∧ (i 0).val < win0_5.index _ (0 : Fin 2) * 2048 + 2048
    rw [e0]
    show (i 0).val / 2048 * 2048 ≤ (i 0).val ∧ (i 0).val < (i 0).val / 2048 * 2048 + 2048
    omega
  | ⟨1, _⟩ =>
    show win0_5.index _ (1 : Fin 2) * 512 ≤ (i 1).val ∧ (i 1).val < win0_5.index _ (1 : Fin 2) * 512 + 512
    rw [e1]
    omega

theorem mem_blk0_6 (t : Fin cfg0.N) (i : S16384x512.Idx) :
    i ∈ ((cfg0.win 6).blk t).view.set ↔ ∀ a : Fin 2, win0_6.index t a * S2048x512.size a ≤ (i a).val ∧ (i a).val < win0_6.index t a * S2048x512.size a + S2048x512.size a := by
  show i ∈ ((View.whole main_v20_1).slice (win0_6.rect t)).set ↔ _
  rw [View.set_slice_whole, Rect.mem_set_unit]
  exact Iff.rfl

/-- Every index of the array lies in the block of the point that handles its row. -/
theorem cover0_6_arr (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 8 := N_0
  obtain ⟨-, -, -, -, -, -, -, -, -, -, e0, e1, -⟩ := idx_facts0 (⟨(i 0).val / 2048, by omega⟩ : Fin cfg0.N)
  refine ⟨⟨(i 0).val / 2048, by omega⟩, flush0_6 _, ?_⟩
  rw [mem_blk0_6]
  intro a
  match a with
  | ⟨0, _⟩ =>
    show win0_6.index _ (0 : Fin 2) * 2048 ≤ (i 0).val ∧ (i 0).val < win0_6.index _ (0 : Fin 2) * 2048 + 2048
    rw [e0]
    show (i 0).val / 2048 * 2048 ≤ (i 0).val ∧ (i 0).val < (i 0).val / 2048 * 2048 + 2048
    omega
  | ⟨1, _⟩ =>
    show win0_6.index _ (1 : Fin 2) * 512 ≤ (i 1).val ∧ (i 1).val < win0_6.index _ (1 : Fin 2) * 512 + 512
    rw [e1]
    omega

theorem mem_blk0_7 (t : Fin cfg0.N) (i : S16384x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v20_2).slice (win0_7.rect t)).set ↔ _
  rw [View.set_slice_whole, Rect.mem_set_unit]
  exact Iff.rfl

/-- Every index of the array lies in the block of the point that handles its row. -/
theorem cover0_7_arr (i : S16384x128.Idx) : ∃ t : Fin cfg0.N, (cfg0.win 7).flush t = true ∧ i ∈ ((cfg0.win 7).blk t).view.set := by
  have hi0 : (i 0).val < 16384 := (i 0).isLt
  have hi1 : (i 1).val < 128 := (i 1).isLt
  have hN : cfg0.N = 8 := N_0
  obtain ⟨-, -, -, -, -, -, -, -, -, -, -, -, e0, e1⟩ := idx_facts0 (⟨(i 0).val / 2048, by omega⟩ : Fin cfg0.N)
  refine ⟨⟨(i 0).val / 2048, by omega⟩, flush0_7 _, ?_⟩
  rw [mem_blk0_7]
  intro a
  match a with
  | ⟨0, _⟩ =>
    show win0_7.index _ (0 : Fin 2) * 2048 ≤ (i 0).val ∧ (i 0).val < win0_7.index _ (0 : Fin 2) * 2048 + 2048
    rw [e0]
    show (i 0).val / 2048 * 2048 ≤ (i 0).val ∧ (i 0).val < (i 0).val / 2048 * 2048 + 2048
    omega
  | ⟨1, _⟩ =>
    show win0_7.index _ (1 : Fin 2) * 128 ≤ (i 1).val ∧ (i 1).val < win0_7.index _ (1 : Fin 2) * 128 + 128
    rw [e1]
    omega

/-- After the region the f32 softmax output holds the assignment matrix of the region's arguments. -/
theorem arrAt0_5 (c : Dev nD) : (dat0 (F := Ideal) V c).arrAt 5 cfg0.N = softOf V c :=
  (dat0 V c).arrAt_eq_of_cover 5 (softOf V c) (fun t _ => flushed0_5_eq V c t) cover0_5_arr
/-- The narrower copy holds the same extended reals. -/
theorem arrAt0_6 (c : Dev nD) : (dat0 (F := Ideal) V c).arrAt 6 cfg0.N = softOf V c :=
  (dat0 V c).arrAt_eq_of_cover 6 (softOf V c) (fun t _ => flushed0_6_eq V c t) cover0_6_arr
/-- The feature output holds the features. -/
theorem arrAt0_7 (c : Dev nD) : (dat0 (F := Ideal) V c).arrAt 7 cfg0.N = featOf V c :=
  (dat0 V c).arrAt_eq_of_cover 7 (featOf V c) (fun t _ => flushed0_7_eq V c t) cover0_7_arr

end Cert.KernelIdeal.Fr

end
-- ==== Proof.KI.R1Value.lean ====
/-
  Region 1 at the ideal instance: what the output array holds when the region is left. Entry (k, ch) of the
  512×128 output is the sum over all 16384 rows r of S r k · h r ch, where S (16384×512) and h (16384×128) are
  the two arrays the region reads: the eight grid points each add the 2048 rows of their block to the
  accumulator (zeroed at the first point), and the last point copies the accumulator to the output window, whose
  one block is the whole array.
-/
import proofs.«105494_j56573309223698_2_alg».proof.Proof.KI.R1
import proofs.«105494_j56573309223698_2_alg».proof.Proof.Spec
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)
open scoped BigOperators

/-! ## What each case's run leaves, as the payload of the blocks (any instance) -/

section Pieces
variable {F : FTy → Type} [FloatOps F]

theorem r1_hz : (![0, 0] : Fin 2 → Nat) = fun _ => 0 := funext fun a => by fin_cases a <;> rfl

/-- The first point leaves in the accumulator the zero block updated by the point's product. -/
theorem r1_soutA_eq (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : cond1_0 i) (hc1 : ¬cond1_1 i) (x0 : Vec F S2048x512 .f32) (x1 : Vec F S2048x128 .f32) :
    sout1_A_0 c i arg1 harg1 arg2 harg2 arg3 harg3 arg4 harg4 hc0 hc1 x0 x1 = k1_pay2 (k1_pay1 (F := F)) x0 x1 := by
  unfold sout1_A_0
  rw [View.read_writes_eq_canon _ _ _ (scover1_A_0 c i arg1 harg1 arg2 harg2 arg3 harg3 arg4 harg4 hc0 hc1 x0 x1)]
  unfold kernelRun1_A
  dsimp only
  try sl_unfold_words
  rw [View.canon_cons_unit_zero r1_hz, View.readCov_unit_zero (S := S512x128) _ r1_hz]
  simp only [View.readAt_eq_ld, harg1.read_unread, harg2.read_unread, View.ld_unit_zero (S := S2048x512) r1_hz, View.ld_unit_zero (S := S2048x128) r1_hz]

/-- A middle point leaves in the accumulator what it held updated by the point's product. -/
theorem r1_soutB_eq (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : ¬cond1_1 i) (x0 : Vec F S2048x512 .f32) (x1 : Vec F S2048x128 .f32) (xs0 : Vec F S512x128 .f32) :
    sout1_B_0 c i arg1 harg1 arg2 harg2 arg3 harg3 arg4 harg4 hc0 hc1 x0 x1 xs0 = k1_pay2 xs0 x0 x1 := by
  unfold sout1_B_0
  rw [View.read_writes_eq_canon _ _ _ (scover1_B_0 c i arg1 harg1 arg2 harg2 arg3 harg3 arg4 harg4 hc0 hc1 x0 x1 xs0)]
  unfold kernelRun1_B
  dsimp only
  try sl_unfold_words
  rw [View.canon_unit_zero r1_hz]
  simp only [View.readAt_eq_ld, harg1.read_unread, harg2.read_unread, harg4.read_unread, View.ld_unit_zero (S := S2048x512) r1_hz, View.ld_unit_zero (S := S2048x128) r1_hz, View.ld_unit_zero (S := S512x128) r1_hz]

/-- The last point stores into the output window what it leaves in the accumulator: what the accumulator held
    updated by the point's product. -/
theorem r1_outC_eq (c : Dev nD) (i : grid1.Coords) (arg1 : Memref sig .tc .vmem S2048x512 .f32) (harg1 : arg1.IsWhole) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (hc0 : ¬cond1_0 i) (hc1 : cond1_1 i) (x0 : Vec F S2048x512 .f32) (x1 : Vec F S2048x128 .f32) (xs0 : Vec F S512x128 .f32) :
    out1_C_2 c i arg1 harg1 arg2 harg2 arg3 harg3 arg4 harg4 hc0 hc1 x0 x1 xs0 = k1_pay2 xs0 x0 x1 := by
  unfold out1_C_2
  rw [View.read_writes_eq_canon _ _ _ (cover1_C_2 c i arg1 harg1 arg2 harg2 arg3 harg3 arg4 harg4 hc0 hc1 x0 x1 xs0)]
  unfold kernelRun1_C
  dsimp only
  try sl_unfold_words
  rw [View.canon_unit_zero r1_hz, View.readCov_unit_zero (S := S512x128) _ r1_hz]
  simp only [View.readAt_eq_ld, harg1.read_unread, harg2.read_unread, harg4.read_unread, View.ld_unit_zero (S := S2048x512) r1_hz, View.ld_unit_zero (S := S2048x128) r1_hz, View.ld_unit_zero (S := S512x128) r1_hz]

end Pieces

/-! ## The payloads at an entry, at the ideal instance -/

/-- The zero block: every entry is 0. -/
theorem r1_pay1_ix2 (k : Fin 512) (ch : Fin 128) : (k1_pay1 (F := Ideal) : S512x128.Idx → EReal) (ix2 k ch) = 0 := by
  unfold k1_pay1
  refine (congrFun (shapeCast_self _ _) _).trans ?_
  exact Ideal.ofBits_zero_f32

theorem r1_lhs_0 (i : S512x128.Idx) (q : dot_S512x2048_S2048x128_S512x128_1_0_0_1_n_n.contr.Idx) : (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem r1_lhs_1 (i : S512x128.Idx) (q : dot_S512x2048_S2048x128_S512x128_1_0_0_1_n_n.contr.Idx) : (dot_S512x2048_S2048x128_S512x128_1_0_0_1_n_n.lhsIdx i q 1).val = (q ⟨0, by decide⟩).val :=
  dot_S512x2048_S2048x128_S512x128_1_0_0_1_n_n.lhsIdx_val_of_single rfl i q
theorem r1_rhs_0 (i : S512x128.Idx) (q : dot_S512x2048_S2048x128_S512x128_1_0_0_1_n_n.contr.Idx) : (dot_S512x2048_S2048x128_S512x128_1_0_0_1_n_n.rhsIdx i q 0).val = (q ⟨0, by decide⟩).val :=
  dot_S512x2048_S2048x128_S512x128_1_0_0_1_n_n.rhsIdx_val_of_single rfl i q
theorem r1_rhs_1 (i : S512x128.Idx) (q : dot_S512x2048_S2048x128_S512x128_1_0_0_1_n_n.contr.Idx) : (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The product's left factor at output entry (k, ch) and contraction position r is entry (k, r) of the transposed block, -/
theorem r1_lhs_ix (k : Fin 512) (ch : Fin 128) (r : Fin 2048) :
    dot_S512x2048_S2048x128_S512x128_1_0_0_1_n_n.lhsIdx (ix2 k ch) ((contrEquiv1 dot_S512x2048_S2048x128_S512x128_1_0_0_1_n_n 2048 rfl rfl).symm r) = (ix2 k r : S512x2048.Idx) :=
  funext fun a => Fin.ext (by
    match a with
    | ⟨0, _⟩ => exact r1_lhs_0 _ _
    | ⟨1, _⟩ => exact (r1_lhs_1 _ _).trans (contrEquiv1_symm_val dot_S512x2048_S2048x128_S512x128_1_0_0_1_n_n 2048 rfl rfl r))

/-- and its right factor is entry (r, ch) of the features' block. -/
theorem r1_rhs_ix (k : Fin 512) (ch : Fin 128) (r : Fin 2048) :
    dot_S512x2048_S2048x128_S512x128_1_0_0_1_n_n.rhsIdx (ix2 k ch) ((contrEquiv1 dot_S512x2048_S2048x128_S512x128_1_0_0_1_n_n 2048 rfl rfl).symm r) = (ix2 r ch : S2048x128.Idx) :=
  funext fun a => Fin.ext (by
    match a with
    | ⟨0, _⟩ => exact (r1_rhs_0 _ _).trans (contrEquiv1_symm_val dot_S512x2048_S2048x128_S512x128_1_0_0_1_n_n 2048 rfl rfl r)
    | ⟨1, _⟩ => exact r1_rhs_1 _ _)

/-- One point's update of the accumulator at entry (k, ch): the entry plus the sum over the block's 2048 rows of
    (assignment of the row to cluster k) × (feature ch of the row). -/
theorem r1_pay2_ix2 (acc : Vec Ideal S512x128 .f32) (S : Vec Ideal S2048x512 .f32) (h : Vec Ideal S2048x128 .f32)
    (k : Fin 512) (ch : Fin 128) :
    (k1_pay2 acc S h : S512x128.Idx → EReal) (ix2 k ch)
      = (acc : S512x128.Idx → EReal) (ix2 k ch) + ∑ r : Fin 2048, (S : S2048x512.Idx → EReal) (ix2 r k) * (h : S2048x128.Idx → EReal) (ix2 r ch) := by
  unfold k1_pay2
  refine (congrFun (shapeCast_self _ _) _).trans ?_
  refine (addf_apply _ _ _).trans ?_
  refine congrArg (fun z => (acc : S512x128.Idx → EReal) (ix2 k ch) + z) ?_
  refine (Ideal.matmul_constant_zero_apply dot_S512x2048_S2048x128_S512x128_1_0_0_1_n_n none _ _ (ix2 k ch)).trans ?_
  rw [← Equiv.sum_comp (contrEquiv1 dot_S512x2048_S2048x128_S512x128_1_0_0_1_n_n 2048 rfl rfl).symm]
  refine Finset.sum_congr rfl fun r _ => ?_
  rw [r1_lhs_ix, r1_rhs_ix]
  refine congrArg₂ (· * ·) ?_ ?_
  · refine (transpose_apply [1, 0] _ transposes_S2048x512_p1_0_S512x2048 (ix2 k r) (ix2 r k) (fun b => match b with
      | ⟨0, _⟩ => rfl
      | ⟨1, _⟩ => rfl)).trans ?_
    exact congrFun (shapeCast_self _ _) _
  · exact congrFun (shapeCast_self _ _) _

/-- A sum over all 16384 rows is the sum over the eight blocks of 2048 consecutive rows of the sums within the blocks. -/
theorem r1_sum_rows (f : Fin 16384 → EReal) :
    ∑ r : Fin 16384, f r = ∑ p : Fin 8, ∑ q : Fin 2048, f (Cert.Spec.col p q) := by
  rw [← Equiv.sum_comp (finProdFinEquiv : Fin 8 × Fin 2048 ≃ Fin 16384) f, Fintype.sum_prod_type]
  refine Finset.sum_congr rfl fun p _ => Finset.sum_congr rfl fun q _ => congrArg f (Fin.ext ?_)
  show q.val + 2048 * p.val = 2048 * p.val + q.val
  omega

/-! ## The blocks the region reads, and the accumulator point by point -/

section Region
variable (V : (c : Dev nD) → (b : Ref sig .tc) → Buf (Elt Ideal) ((c : Thread nD τ).loc b))

/-- The two arrays the region reads, as matrices. -/
abbrev r1_S (c : Dev nD) : Cert.Spec.Arr2 16384 512 := V c main_v20_0
abbrev r1_h (c : Dev nD) : Cert.Spec.Arr2 16384 128 := V c main_v20_2

/-- The two inputs' index maps over the grid: block (t, 0) of each. -/
theorem r1_idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, win1_0.index t (0 : Fin 2) = t.val ∧ win1_0.index t (1 : Fin 2) = 0
    ∧ win1_1.index t (0 : Fin 2) = t.val ∧ win1_1.index t (1 : Fin 2) = 0)

/-- Row q of the assignment block at point t is row 2048 t + q of the assignment matrix. -/
theorem r1_iblk0_apply (c : Dev nD) (t : Fin cfg1.N) (hp : t.val < 8) (q : Fin 2048) (k : Fin 512) :
    (iblk1 V c 0 t : Vec Ideal S2048x512 .f32) (ix2 q k) = r1_S V c (ix2 (Cert.Spec.col ⟨t.val, hp⟩ q) k) := by
  have hi := r1_idx_facts t
  unfold iblk1
  rw [View.read_apply]
  show V c main_v20_0 _ = V c main_v20_0 _
  congr 1
  funext a
  apply Fin.ext
  match a with
  | ⟨0, _⟩ => show win1_0.index t 0 * 2048 + 1 * q.val = 2048 * t.val + q.val; rw [hi.1]; omega
  | ⟨1, _⟩ => show win1_0.index t 1 * 512 + 1 * k.val = k.val; rw [hi.2.1]; omega

/-- Row q of the features' block at point t is row 2048 t + q of the features. -/
theorem r1_iblk1_apply (c : Dev nD) (t : Fin cfg1.N) (hp : t.val < 8) (q : Fin 2048) (ch : Fin 128) :
    (iblk1 V c 1 t : Vec Ideal S2048x128 .f32) (ix2 q ch) = r1_h V c (ix2 (Cert.Spec.col ⟨t.val, hp⟩ q) ch) := by
  have hi := r1_idx_facts t
  unfold iblk1
  rw [View.read_apply]
  show V c main_v20_2 _ = V c main_v20_2 _
  congr 1
  funext a
  apply Fin.ext
  match a with
  | ⟨0, _⟩ => show win1_1.index t 0 * 2048 + 1 * q.val = 2048 * t.val + q.val; rw [hi.2.2.1]; omega
  | ⟨1, _⟩ => show win1_1.index t 1 * 128 + 1 * ch.val = ch.val; rw [hi.2.2.2]; omega

/-- Block p's share of entry (k, ch): the sum over its 2048 rows. -/
def r1_blockSum (c : Dev nD) (p : Fin 8) (k : Fin 512) (ch : Fin 128) : EReal :=
  ∑ q : Fin 2048, r1_S V c (ix2 (Cert.Spec.col p q) k) * r1_h V c (ix2 (Cert.Spec.col p q) ch)

/-- The same indexed by a natural number (0 past the grid). -/
def r1_blk (c : Dev nD) (k : Fin 512) (ch : Fin 128) (n : ℕ) : EReal :=
  if h : n < 8 then r1_blockSum V c ⟨n, h⟩ k ch else 0

/-- The update at point t adds block t's share. -/
theorem r1_step (c : Dev nD) (t : Fin cfg1.N) (acc : Vec Ideal S512x128 .f32) (k : Fin 512) (ch : Fin 128) :
    (k1_pay2 acc (iblk1 V c 0 t) (iblk1 V c 1 t) : S512x128.Idx → EReal) (ix2 k ch)
      = (acc : S512x128.Idx → EReal) (ix2 k ch) + r1_blk V c k ch t.val := by
  have hp : t.val < 8 := lt_of_lt_of_eq t.isLt N_1
  refine (r1_pay2_ix2 acc (iblk1 V c 0 t) (iblk1 V c 1 t) k ch).trans ?_
  unfold r1_blk; rw [dif_pos hp]; unfold r1_blockSum
  refine congrArg (fun z => (acc : S512x128.Idx → EReal) (ix2 k ch) + z) (Finset.sum_congr rfl fun q _ => ?_)
  exact congrArg₂ (· * ·) (r1_iblk0_apply V c t hp q k) (r1_iblk1_apply V c t hp q ch)

/-- What the first point leaves in the accumulator, at an entry. -/
theorem r1_soutA_at (c : Dev nD) (t : Fin cfg1.N) (hc0 : cond1_0 (grid1.coords t)) (hc1 : ¬cond1_1 (grid1.coords t)) (k : Fin 512) (ch : Fin 128) :
    (sout1_A_0 c (grid1.coords t) (ms1_0 t) (hs1_0 t) (ms1_1 t) (hs1_1 t) (ms1_2 t) (hs1_2 t) scM1_0 (Memref.isWhole_whole _) hc0 hc1 (iblk1 V c 0 t) (iblk1 V c 1 t) : S512x128.Idx → EReal) (ix2 k ch)
      = r1_blk V c k ch t.val :=
  (congrFun (r1_soutA_eq (F := Ideal) c (grid1.coords t) (ms1_0 t) (hs1_0 t) (ms1_1 t) (hs1_1 t) (ms1_2 t) (hs1_2 t) scM1_0 (Memref.isWhole_whole _) hc0 hc1 (iblk1 V c 0 t) (iblk1 V c 1 t)) (ix2 k ch)).trans
    ((r1_step V c t (k1_pay1 (F := Ideal)) k ch).trans (by rw [r1_pay1_ix2, zero_add]))

/-- What a middle point leaves in the accumulator, at an entry. -/
theorem r1_soutB_at (c : Dev nD) (t : Fin cfg1.N) (hc0 : ¬cond1_0 (grid1.coords t)) (hc1 : ¬cond1_1 (grid1.coords t)) (xs0 : Vec Ideal S512x128 .f32) (k : Fin 512) (ch : Fin 128) :
    (sout1_B_0 c (grid1.coords t) (ms1_0 t) (hs1_0 t) (ms1_1 t) (hs1_1 t) (ms1_2 t) (hs1_2 t) scM1_0 (Memref.isWhole_whole _) hc0 hc1 (iblk1 V c 0 t) (iblk1 V c 1 t) xs0 : S512x128.Idx → EReal) (ix2 k ch)
      = (xs0 : S512x128.Idx → EReal) (ix2 k ch) + r1_blk V c k ch t.val :=
  (congrFun (r1_soutB_eq (F := Ideal) c (grid1.coords t) (ms1_0 t) (hs1_0 t) (ms1_1 t) (hs1_1 t) (ms1_2 t) (hs1_2 t) scM1_0 (Memref.isWhole_whole _) hc0 hc1 (iblk1 V c 0 t) (iblk1 V c 1 t) xs0) (ix2 k ch)).trans
    (r1_step V c t xs0 k ch)

/-- What the last point stores into the output window, at an entry. -/
theorem r1_outC_at (c : Dev nD) (t : Fin cfg1.N) (hc0 : ¬cond1_0 (grid1.coords t)) (hc1 : cond1_1 (grid1.coords t)) (xs0 : Vec Ideal S512x128 .f32) (k : Fin 512) (ch : Fin 128) :
    (out1_C_2 c (grid1.coords t) (ms1_0 t) (hs1_0 t) (ms1_1 t) (hs1_1 t) (ms1_2 t) (hs1_2 t) scM1_0 (Memref.isWhole_whole _) hc0 hc1 (iblk1 V c 0 t) (iblk1 V c 1 t) xs0 : S512x128.Idx → EReal) (ix2 k ch)
      = (xs0 : S512x128.Idx → EReal) (ix2 k ch) + r1_blk V c k ch t.val :=
  (congrFun (r1_outC_eq (F := Ideal) c (grid1.coords t) (ms1_0 t) (hs1_0 t) (ms1_1 t) (hs1_1 t) (ms1_2 t) (hs1_2 t) scM1_0 (Memref.isWhole_whole _) hc0 hc1 (iblk1 V c 0 t) (iblk1 V c 1 t) xs0) (ix2 k ch)).trans
    (r1_step V c t xs0 k ch)

/-- THE PARTIAL SUMS. After point n ≤ 6 the accumulator's entry (k, ch) is the sum of the shares of blocks 0 … n. -/
theorem r1_acc (c : Dev nD) (k : Fin 512) (ch : Fin 128) : ∀ (n : ℕ) (hn : n < cfg1.N), n ≤ 6 →
    ((outsAt1 V c n hn).2 : S512x128.Idx → EReal) (ix2 k ch) = ∑ p ∈ Finset.range (n + 1), r1_blk V c k ch p
  | 0, hn, _ => by
    have h7 : ¬(⟨0, hn⟩ : Fin cfg1.N).val % 8 = 7 := show ¬(0 : ℕ) % 8 = 7 by decide
    have e := outsAt1_A V c ⟨0, hn⟩ (Nat.zero_mod _) h7
    rw [show outsAt1 V c 0 hn = _ from e]
    dsimp only
    refine (r1_soutA_at V c ⟨0, hn⟩ ((hcond1_0 ⟨0, hn⟩).mpr (Nat.zero_mod _)) (fun h => h7 ((hcond1_1 ⟨0, hn⟩).mp h)) k ch).trans ?_
    rw [Finset.sum_range_one]
  | n + 1, hn, hle => by
    have h0 : ¬(⟨n + 1, hn⟩ : Fin cfg1.N).val % 8 = 0 := show ¬(n + 1) % 8 = 0 by omega
    have h1 : ¬(⟨n + 1, hn⟩ : Fin cfg1.N).val % 8 = 7 := show ¬(n + 1) % 8 = 7 by omega
    have e := outsAt1_B V c ⟨n + 1, hn⟩ h0 h1
    rw [show outsAt1 V c (n + 1) hn = _ from e]
    dsimp only
    refine (r1_soutB_at V c ⟨n + 1, hn⟩ (fun h => h0 ((hcond1_0 ⟨n + 1, hn⟩).mp h)) (fun h => h1 ((hcond1_1 ⟨n + 1, hn⟩).mp h)) _ k ch).trans ?_
    rw [Finset.sum_range_succ]
    refine congrArg (· + r1_blk V c k ch (n + 1)) ?_
    exact r1_acc c k ch n (Nat.lt_of_succ_lt hn) (by omega)

/-- The result: S transposed times h. -/
abbrev r1_result (c : Dev nD) : Buf (Elt Ideal) ((c : Thread nD τ).loc main_v21) :=
  Cert.Spec.pooledX (r1_S V c) (r1_h V c)

/-- What the output window's staging buffer holds after the last point is the result. -/
theorem r1_after_last (c : Dev nD) : (outsAt1 V c t1_7.val t1_7.isLt).1 = r1_result V c := by
  funext j
  obtain ⟨k, ch, rfl⟩ : ∃ (k : Fin 512) (ch : Fin 128), j = ix2 k ch := ⟨j 0, j 1, eq_ix2 j⟩
  have h0 : ¬t1_7.val % 8 = 0 := by decide
  have h1 : t1_7.val % 8 = 7 := by decide
  have e := outsAt1_C V c t1_7 h0 h1
  rw [e]
  dsimp only
  refine (r1_outC_at V c t1_7 (fun h => h0 ((hcond1_0 t1_7).mp h)) ((hcond1_1 t1_7).mpr h1) _ k ch).trans ?_
  refine (congrArg (· + r1_blk V c k ch t1_7.val) (r1_acc V c k ch 6 (by rw [show cfg1.N = 8 from N_1]; decide) (le_refl 6))).trans ?_
  show ∑ p ∈ Finset.range (6 + 1), r1_blk V c k ch p + r1_blk V c k ch 7 = _
  rw [← Finset.sum_range_succ (fun p => r1_blk V c k ch p) 7, Finset.sum_range]
  show _ = Cert.Spec.pooledX (r1_S V c) (r1_h V c) (ix2 k ch)
  rw [Cert.Spec.pooledX_ix2]
  unfold Cert.Spec.pooledXAt
  rw [r1_sum_rows]
  refine Finset.sum_congr rfl fun p _ => ?_
  unfold r1_blk
  rw [dif_pos p.isLt]
  rfl

/-- The one write-back, at the last point, writes the result: block (0, 0) of the 512×128 array is the array. -/
theorem r1_flushed_eq (c : Dev nD) (t : Fin cfg1.N) (hf : (cfg1.win 2).flush t = true) :
    (dat1 V c).flushed 2 t = ((cfg1.win 2).blk t).view.read (Elt Ideal) (r1_result V c) := by
  have hN : cfg1.N = 8 := N_1
  have h1 : t.val = 7 := by have := (flush1_2 t).mp hf; have := t.isLt; omega
  obtain rfl : t = t1_7 := Fin.ext h1
  show (cfg1.win 2).cut (grid1.coords t1_7) ((dat1 V c).after 2 t1_7) = _
  rw [after1_2, r1_after_last]
  have hz' : (fun a => win1_2.index t1_7 a * main_v21.ty.shape.size a) = fun _ => 0 := funext fun a => by fin_cases a <;> decide
  exact (Memref.read_access_unit_zero (Elt Ideal) main_v21 hz' (fun a => by rw [congrFun hz' a]; simp) (r1_result V c)).symm

/-- THE VALUE: when the region is left the output array holds S transposed times h. -/
theorem arrAt1_out (c : Dev nD) :
    (dat1 (F := Ideal) V c).arrAt 2 cfg1.N = Cert.Spec.pooledX (V c main_v20_0) (V c main_v20_2) :=
  (dat1 V c).arrAt_eq_of_cover 2 (r1_result V c) (r1_flushed_eq V c) fun i =>
    ⟨t1_7, (flush1_2 t1_7).mpr rfl, by
      show i ∈ ((View.whole main_v21).slice (win1_2.rect t1_7)).set
      rw [View.set_slice_whole, Rect.mem_set_unit]
      intro a
      have h0 : (i 0 : Nat) < 512 := (i 0).isLt
      have h1 : (i 1 : Nat) < 128 := (i 1).isLt
      match a with
      | ⟨0, _⟩ => show win1_2.index t1_7 0 * win1_2.size 0 ≤ (i 0 : Nat) ∧ (i 0 : Nat) < win1_2.index t1_7 0 * win1_2.size 0 + win1_2.xsize (grid1.coords t1_7) 0
                  rw [show win1_2.index t1_7 0 * win1_2.size 0 = 0 from by decide +kernel, show win1_2.xsize (grid1.coords t1_7) 0 = 512 from by decide +kernel]; omega
      | ⟨1, _⟩ => show win1_2.index t1_7 1 * win1_2.size 1 ≤ (i 1 : Nat) ∧ (i 1 : Nat) < win1_2.index t1_7 1 * win1_2.size 1 + win1_2.xsize (grid1.coords t1_7) 1
                  rw [show win1_2.index t1_7 1 * win1_2.size 1 = 0 from by decide +kernel, show win1_2.xsize (grid1.coords t1_7) 1 = 128 from by decide +kernel]; omega⟩

end Region

end Cert.KernelIdeal.Fr

end
-- ==== Proof.KI.R2Value.lean ====
/-
  Region 2 at the exact instance: the value of the result array (eight 512 × 512 slabs) after the region.

  With S the 16384 × 512 assignment matrix and B the 16384 × 16384 dense adjacency as the region finds them, slab j
  has entry (k, l) = ∑ over the 2048 columns c of column block j of (∑ over all rows r of S(r, k) · B(r, c)) · S(c, l).
  Within column block j the eight grid points i = 0 … 7 add, into the carried accumulator, the products of rows
  2048 i … of S (transposed) with block (i, j) of B; so after point i the accumulator's entry (k, cc) is the sum over
  the row blocks 0 … i of their shares of (Sᵀ·B)(k, 2048 j + cc).  At i = 7 the accumulator is complete and is
  multiplied with rows 2048 j … of S.  The sum over all 16384 rows is split into the eight row blocks.
-/
import proofs.«105494_j56573309223698_2_alg».proof.Proof.KI.R2
import proofs.«105494_j56573309223698_2_alg».proof.Proof.Spec
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open scoped BigOperators

/-! ## Sums over the rows, split into the eight row blocks -/

/-- A sum over the 16384 rows is the sum over the eight row blocks of the sums over a block's 2048 rows. -/
theorem r2_sum_rows_split {M : Type*} [AddCommMonoid M] (f : Fin 16384 → M) :
    ∑ r : Fin 16384, f r = ∑ ii : Fin 8, ∑ r' : Fin 2048, f (Cert.Spec.col ii r') := by
  have e := Equiv.sum_comp (finProdFinEquiv (m := 8) (n := 2048)) (f : Fin (8 * 2048) → M)
  rw [Fintype.sum_prod_type] at e
  refine e.symm.trans (Finset.sum_congr rfl fun ii _ => Finset.sum_congr rfl fun r' _ => congrArg f (Fin.ext ?_))
  show r'.val + 2048 * ii.val = 2048 * ii.val + r'.val
  omega

/-- Row block `ii`'s share of entry (k, c) of Sᵀ·B (zero for an index past the eighth block). -/
def r2_blockTerm (S : Cert.Spec.Arr2 16384 512) (B : Cert.Spec.Arr2 16384 16384) (k : Fin 512) (c : Fin 16384) (ii : ℕ) : EReal :=
  if h : ii < 8 then ∑ r' : Fin 2048, S (ix2 (Cert.Spec.col ⟨ii, h⟩ r') k) * B (ix2 (Cert.Spec.col ⟨ii, h⟩ r') c) else 0

/-- All eight row blocks' shares add up to the entry. -/
theorem r2_sum_blockTerm (S : Cert.Spec.Arr2 16384 512) (B : Cert.Spec.Arr2 16384 16384) (k : Fin 512) (c : Fin 16384) :
    ∑ ii ∈ Finset.range 8, r2_blockTerm S B k c ii = Cert.Spec.stB S B k c := by
  unfold Cert.Spec.stB
  rw [r2_sum_rows_split, Finset.sum_range]
  refine Finset.sum_congr rfl fun ii _ => ?_
  unfold r2_blockTerm
  rw [dif_pos ii.isLt]

/-! ## The two matrix products at an entry -/

theorem r2_lhsA_0 (i : S512x2048.Idx) (q : dot_S512x2048_S2048x2048_S512x2048_1_0_0_1_n_n.contr.Idx) : (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem r2_lhsA_1 (i : S512x2048.Idx) (q : dot_S512x2048_S2048x2048_S512x2048_1_0_0_1_n_n.contr.Idx) : (dot_S512x2048_S2048x2048_S512x2048_1_0_0_1_n_n.lhsIdx i q 1).val = (q ⟨0, by decide⟩).val :=
  dot_S512x2048_S2048x2048_S512x2048_1_0_0_1_n_n.lhsIdx_val_of_single rfl i q
theorem r2_rhsA_0 (i : S512x2048.Idx) (q : dot_S512x2048_S2048x2048_S512x2048_1_0_0_1_n_n.contr.Idx) : (dot_S512x2048_S2048x2048_S512x2048_1_0_0_1_n_n.rhsIdx i q 0).val = (q ⟨0, by decide⟩).val :=
  dot_S512x2048_S2048x2048_S512x2048_1_0_0_1_n_n.rhsIdx_val_of_single rfl i q
theorem r2_rhsA_1 (i : S512x2048.Idx) (q : dot_S512x2048_S2048x2048_S512x2048_1_0_0_1_n_n.contr.Idx) : (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The product into a zero accumulator, entry (a, b): the sum over the 2048 contracted positions. -/
theorem r2_matmulA_apply {φ₁ φ₂ : FTy} (l : FVec Ideal S512x2048 φ₁) (r : FVec Ideal S2048x2048 φ₂) (a : Fin 512) (b : Fin 2048) :
    matmul dot_S512x2048_S2048x2048_S512x2048_1_0_0_1_n_n none l r (constant S512x2048 .f32 0x00000000#32) (ix2 a b) = ∑ q : Fin 2048, l (ix2 a q) * r (ix2 q b) := by
  refine (Ideal.matmul_constant_zero_apply dot_S512x2048_S2048x2048_S512x2048_1_0_0_1_n_n none l r (ix2 a b)).trans ?_
  rw [← Equiv.sum_comp (contrEquiv1 dot_S512x2048_S2048x2048_S512x2048_1_0_0_1_n_n 2048 rfl rfl).symm]
  refine Finset.sum_congr rfl fun q _ => ?_
  have hq := contrEquiv1_symm_val dot_S512x2048_S2048x2048_S512x2048_1_0_0_1_n_n 2048 rfl rfl q
  have el : dot_S512x2048_S2048x2048_S512x2048_1_0_0_1_n_n.lhsIdx (ix2 a b) ((contrEquiv1 dot_S512x2048_S2048x2048_S512x2048_1_0_0_1_n_n 2048 rfl rfl).symm q) = ix2 a q := funext fun x => Fin.ext (by
    match x with
    | ⟨0, _⟩ => exact r2_lhsA_0 _ _
    | ⟨1, _⟩ => exact (r2_lhsA_1 _ _).trans hq)
  have er : dot_S512x2048_S2048x2048_S512x2048_1_0_0_1_n_n.rhsIdx (ix2 a b) ((contrEquiv1 dot_S512x2048_S2048x2048_S512x2048_1_0_0_1_n_n 2048 rfl rfl).symm q) = ix2 q b := funext fun x => Fin.ext (by
    match x with
    | ⟨0, _⟩ => exact (r2_rhsA_0 _ _).trans hq
    | ⟨1, _⟩ => exact r2_rhsA_1 _ _)
  rw [el, er]

theorem r2_lhsB_0 (i : S512x512.Idx) (q : dot_S512x2048_S2048x512_S512x512_1_0_0_1_n_n.contr.Idx) : (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem r2_lhsB_1 (i : S512x512.Idx) (q : dot_S512x2048_S2048x512_S512x512_1_0_0_1_n_n.contr.Idx) : (dot_S512x2048_S2048x512_S512x512_1_0_0_1_n_n.lhsIdx i q 1).val = (q ⟨0, by decide⟩).val :=
  dot_S512x2048_S2048x512_S512x512_1_0_0_1_n_n.lhsIdx_val_of_single rfl i q
theorem r2_rhsB_0 (i : S512x512.Idx) (q : dot_S512x2048_S2048x512_S512x512_1_0_0_1_n_n.contr.Idx) : (dot_S512x2048_S2048x512_S512x512_1_0_0_1_n_n.rhsIdx i q 0).val = (q ⟨0, by decide⟩).val :=
  dot_S512x2048_S2048x512_S512x512_1_0_0_1_n_n.rhsIdx_val_of_single rfl i q
theorem r2_rhsB_1 (i : S512x512.Idx) (q : dot_S512x2048_S2048x512_S512x512_1_0_0_1_n_n.contr.Idx) : (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The product into a zero accumulator, entry (a, b): the sum over the 2048 contracted positions. -/
theorem r2_matmulB_apply {φ₁ φ₂ : FTy} (l : FVec Ideal S512x2048 φ₁) (r : FVec Ideal S2048x512 φ₂) (a : Fin 512) (b : Fin 512) :
    matmul dot_S512x2048_S2048x512_S512x512_1_0_0_1_n_n none l r (constant S512x512 .f32 0x00000000#32) (ix2 a b) = ∑ q : Fin 2048, l (ix2 a q) * r (ix2 q b) := by
  refine (Ideal.matmul_constant_zero_apply dot_S512x2048_S2048x512_S512x512_1_0_0_1_n_n none l r (ix2 a b)).trans ?_
  rw [← Equiv.sum_comp (contrEquiv1 dot_S512x2048_S2048x512_S512x512_1_0_0_1_n_n 2048 rfl rfl).symm]
  refine Finset.sum_congr rfl fun q _ => ?_
  have hq := contrEquiv1_symm_val dot_S512x2048_S2048x512_S512x512_1_0_0_1_n_n 2048 rfl rfl q
  have el : dot_S512x2048_S2048x512_S512x512_1_0_0_1_n_n.lhsIdx (ix2 a b) ((contrEquiv1 dot_S512x2048_S2048x512_S512x512_1_0_0_1_n_n 2048 rfl rfl).symm q) = ix2 a q := funext fun x => Fin.ext (by
    match x with
    | ⟨0, _⟩ => exact r2_lhsB_0 _ _
    | ⟨1, _⟩ => exact (r2_lhsB_1 _ _).trans hq)
  have er : dot_S512x2048_S2048x512_S512x512_1_0_0_1_n_n.rhsIdx (ix2 a b) ((contrEquiv1 dot_S512x2048_S2048x512_S512x512_1_0_0_1_n_n 2048 rfl rfl).symm q) = ix2 q b := funext fun x => Fin.ext (by
    match x with
    | ⟨0, _⟩ => exact (r2_rhsB_0 _ _).trans hq
    | ⟨1, _⟩ => exact r2_rhsB_1 _ _)
  rw [el, er]

/-! ## The three stored values at an entry -/

/-- The value stored where the inner coordinate is 0 first: zero everywhere. -/
theorem r2_pay1_apply (k : Fin 512) (cc : Fin 2048) : (k2_pay1 (F := Ideal)) (ix2 k cc) = 0 := by
  unfold k2_pay1
  refine (congrFun (shapeCast_self _ _) _).trans ?_
  show Ideal.ofBits .f32 0x00000000#32 = 0
  exact Ideal.ofBits_zero_f32

/-- The accumulator's update, entry (k, cc): what it held plus the sum over the block's 2048 rows r' of
    (rows of the assignment matrix)(r', k) · (adjacency block)(r', cc). -/
theorem r2_pay2_apply (v6 : Vec Ideal S2048x512 .bf16) (v8 : Vec Ideal S2048x2048 .bf16) (v10 : Vec Ideal S512x2048 .f32)
    (k : Fin 512) (cc : Fin 2048) :
    k2_pay2 v6 v8 v10 (ix2 k cc) = v10 (ix2 k cc) + ∑ r' : Fin 2048, v6 (ix2 r' k) * v8 (ix2 r' cc) := by
  unfold k2_pay2
  refine (congrFun (shapeCast_self _ _) _).trans ?_
  refine congrArg (v10 (ix2 k cc) + ·) ?_
  refine (r2_matmulA_apply _ _ k cc).trans ?_
  refine Finset.sum_congr rfl fun r' _ => ?_
  have e1 : (transpose S512x2048 [1, 0] (shapeCast S2048x512 v6 shapeCasts_S2048x512_S2048x512) transposes_S2048x512_p1_0_S512x2048 : FVec Ideal S512x2048 .bf16) (ix2 k r') = v6 (ix2 r' k) :=
    (transpose_apply [1, 0] _ transposes_S2048x512_p1_0_S512x2048 (ix2 k r') (ix2 r' k) (fun b => by
      match b with
      | ⟨0, _⟩ => rfl
      | ⟨1, _⟩ => rfl)).trans (congrFun (shapeCast_self v6 _) _)
  have e2 : (shapeCast S2048x2048 v8 shapeCasts_S2048x2048_S2048x2048 : FVec Ideal S2048x2048 .bf16) (ix2 r' cc) = v8 (ix2 r' cc) :=
    congrFun (shapeCast_self v8 _) _
  rw [e1, e2]

/-- The slab's value, entry (k, l): the sum over the 2048 columns cc of accumulator(k, cc) · (rows of the
    assignment matrix)(cc, l). -/
theorem r2_pay3_apply (v23 : Vec Ideal S2048x512 .bf16) (v25 : Vec Ideal S512x2048 .f32) (z : Fin 1) (k l : Fin 512) :
    k2_pay3 v23 v25 (ix3 z k l) = ∑ q : Fin 2048, v25 (ix2 k q) * v23 (ix2 q l) := by
  unfold k2_pay3
  refine (shapeCast_apply _ shapeCasts_S512x512_S1x512x512 (ix3 z k l) (ix2 k l) ?_).trans ?_
  · rw [Shape.rowMajor_val_two, Shape.rowMajor_val_three]
    show k.val * 512 + l.val = (z.val * 512 + k.val) * 512 + l.val
    have := z.isLt; omega
  · refine (r2_matmulB_apply _ _ k l).trans ?_
    refine Finset.sum_congr rfl fun q _ => ?_
    exact congrArg (v25 (ix2 k q) * ·) (congrFun (shapeCast_self v23 _) (ix2 q l))

/-! ## What each case's stores leave, as the stored values of the blocks -/

theorem r2_hz2 : (![0, 0] : Fin 2 → Nat) = fun _ => 0 := funext fun a => by fin_cases a <;> rfl
theorem r2_hz3 : (![0, 0, 0] : Fin 3 → Nat) = fun _ => 0 := funext fun a => by fin_cases a <;> rfl

section Pieces
variable {F : FTy → Type} [FloatOps F]

/-- Inner coordinate 1 … 6: the accumulator ends at its update of what it held. -/
theorem r2_soutB_eq (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : ¬cond2_1 i)
    (x0 : Vec F S16384x512 .bf16) (x1 : Vec F S2048x2048 .bf16) (xs0 : Vec F S512x2048 .f32) :
    sout2_B_0 c i arg2 harg2 arg3 harg3 arg4 harg4 arg5 harg5 hc0 hc1 x0 x1 xs0 = k2_pay2 (View.ld x0 (Rect.unit (s := S16384x512) (k2_off1 i) S2048x512.size (k2_off1_inb i))) x1 xs0 := by
  unfold sout2_B_0
  rw [View.read_writes_eq_canon _ _ _ (scover2_B_0 c i arg2 harg2 arg3 harg3 arg4 harg4 arg5 harg5 hc0 hc1 x0 x1 xs0)]
  unfold kernelRun2_B
  dsimp only
  try sl_unfold_words
  rw [View.canon_unit_zero r2_hz2]
  simp only [View.readAt_eq_ld, harg2.read_unread, harg3.read_unread, harg5.read_unread, View.ld_unit_zero (S := S2048x2048) r2_hz2, View.ld_unit_zero (S := S512x2048) r2_hz2]

/-- Inner coordinate 0: the accumulator ends at its update of zero. -/
theorem r2_soutA_eq (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : cond2_0 i) (hc1 : ¬cond2_1 i)
    (x0 : Vec F S16384x512 .bf16) (x1 : Vec F S2048x2048 .bf16) :
    sout2_A_0 c i arg2 harg2 arg3 harg3 arg4 harg4 arg5 harg5 hc0 hc1 x0 x1 = k2_pay2 (View.ld x0 (Rect.unit (s := S16384x512) (k2_off1 i) S2048x512.size (k2_off1_inb i))) x1 k2_pay1 := by
  unfold sout2_A_0
  rw [View.read_writes_eq_canon _ _ _ (scover2_A_0 c i arg2 harg2 arg3 harg3 arg4 harg4 arg5 harg5 hc0 hc1 x0 x1)]
  unfold kernelRun2_A
  dsimp only
  try sl_unfold_words
  rw [View.canon_cons_unit_zero r2_hz2]
  simp only [View.readAt_eq_ld, harg2.read_unread, harg3.read_unread, View.ld_unit_zero (S := S2048x2048) r2_hz2, View.readCov_unit_zero (S := S512x2048) _ r2_hz2]

/-- Inner coordinate 7: the accumulator ends at its update of what it held, -/
theorem r2_soutC_eq (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : cond2_1 i)
    (x0 : Vec F S16384x512 .bf16) (x1 : Vec F S2048x2048 .bf16) (xs0 : Vec F S512x2048 .f32) :
    sout2_C_0 c i arg2 harg2 arg3 harg3 arg4 harg4 arg5 harg5 hc0 hc1 x0 x1 xs0 = k2_pay2 (View.ld x0 (Rect.unit (s := S16384x512) (k2_off1 i) S2048x512.size (k2_off1_inb i))) x1 xs0 := by
  unfold sout2_C_0
  rw [View.read_writes_eq_canon _ _ _ (scover2_C_0 c i arg2 harg2 arg3 harg3 arg4 harg4 arg5 harg5 hc0 hc1 x0 x1 xs0)]
  unfold kernelRun2_C
  dsimp only
  try sl_unfold_words
  rw [View.canon_unit_zero r2_hz2]
  simp only [View.readAt_eq_ld, harg2.read_unread, harg3.read_unread, harg5.read_unread, View.ld_unit_zero (S := S2048x2048) r2_hz2, View.ld_unit_zero (S := S512x2048) r2_hz2]

/-- and the slab's buffer at the product of that accumulator with the rows of the assignment matrix. -/
theorem r2_outC_eq (c : Dev nD) (i : grid2.Coords) (arg2 : Memref sig .tc .vmem S16384x512 .bf16) (harg2 : arg2.IsWhole) (arg3 : Memref sig .tc .vmem S2048x2048 .bf16) (harg3 : arg3.IsWhole) (arg4 : Memref sig .tc .vmem S1x512x512 .f32) (harg4 : arg4.IsWhole) (arg5 : Memref sig .tc .vmem S512x2048 .f32) (harg5 : arg5.IsWhole) (hc0 : ¬cond2_0 i) (hc1 : cond2_1 i)
    (x0 : Vec F S16384x512 .bf16) (x1 : Vec F S2048x2048 .bf16) (xs0 : Vec F S512x2048 .f32) :
    out2_C_2 c i arg2 harg2 arg3 harg3 arg4 harg4 arg5 harg5 hc0 hc1 x0 x1 xs0 = k2_pay3 (View.ld x0 (Rect.unit (s := S16384x512) (k2_off2 i) S2048x512.size (k2_off2_inb i hc1))) (k2_pay2 (View.ld x0 (Rect.unit (s := S16384x512) (k2_off1 i) S2048x512.size (k2_off1_inb i))) x1 xs0) := by
  unfold out2_C_2
  rw [View.read_writes_eq_canon _ _ _ (cover2_C_2 c i arg2 harg2 arg3 harg3 arg4 harg4 arg5 harg5 hc0 hc1 x0 x1 xs0)]
  unfold kernelRun2_C
  dsimp only
  try sl_unfold_words
  rw [View.canon_unit_zero r2_hz3]
  simp only [View.readAt_eq_ld, harg2.read_unread, harg3.read_unread, harg5.read_unread, View.ld_unit_zero (S := S2048x2048) r2_hz2, View.ld_unit_zero (S := S512x2048) r2_hz2, View.readCov_unit_zero (S := S512x2048) _ r2_hz2]

end Pieces

/-! ## The blocks as entries of the arrays -/

variable (V : (c : Dev nD) → (b : Ref sig .tc) → Buf (Elt Ideal) ((c : Thread nD τ).loc b))

/-- The two input blocks at a point, at their literal types. -/
abbrev r2_x0 (c : Dev nD) (t : Fin cfg2.N) : Vec Ideal S16384x512 .bf16 := iblk2 V c 0 t
abbrev r2_x1 (c : Dev nD) (t : Fin cfg2.N) : Vec Ideal S2048x2048 .bf16 := iblk2 V c 1 t

/-- Over the grid: point t has outer coordinate t / 8 and inner coordinate t % 8; window 0 always has block
    index (0, 0), window 1 block index (t % 8, t / 8), the slab's window block index (t / 8, 0, 0). -/
theorem r2_grid_facts : ∀ t : Fin cfg2.N,
    ((grid2.coords t) 0).val = t.val / 8 ∧ ((grid2.coords t) 1).val = t.val % 8
    ∧ win2_0.index t (0 : Fin 2) = 0 ∧ win2_0.index t (1 : Fin 2) = 0
    ∧ win2_1.index t (0 : Fin 2) = t.val % 8 ∧ win2_1.index t (1 : Fin 2) = t.val / 8
    ∧ win2_2.index t (0 : Fin 3) = t.val / 8 ∧ win2_2.index t (1 : Fin 3) = 0 ∧ win2_2.index t (2 : Fin 3) = 0 :=
  (by decide +kernel : ∀ t : Fin grid2.N, _)

/-- Window 0's block is the whole assignment matrix. -/
theorem r2_iblk0_apply (c : Dev nD) (t : Fin cfg2.N) (x : S16384x512.Idx) :
    r2_x0 V c t x = (V c main_v20_1 : S16384x512.Idx → EReal) x := by
  obtain ⟨-, -, e0, e1, -⟩ := r2_grid_facts t
  show (V c main_v20_1 : S16384x512.Idx → EReal) (((cfg2.win 0).blk t).view.emb x) = _
  refine congrArg (V c main_v20_1 : S16384x512.Idx → EReal) (funext fun a => Fin.ext ?_)
  match a with
  | ⟨0, _⟩ => show win2_0.index t (0 : Fin 2) * 16384 + 1 * (x 0).val = (x 0).val; rw [e0]; omega
  | ⟨1, _⟩ => show win2_0.index t (1 : Fin 2) * 512 + 1 * (x 1).val = (x 1).val; rw [e1]; omega

/-- Window 1's block at point t is rows 2048 (t % 8) … and columns 2048 (t / 8) … of the adjacency. -/
theorem r2_iblk1_apply (c : Dev nD) (t : Fin cfg2.N) (r' cc : Fin 2048) (R C : Fin 16384)
    (hR : R.val = 2048 * (t.val % 8) + r'.val) (hC : C.val = 2048 * (t.val / 8) + cc.val) :
    r2_x1 V c t (ix2 r' cc) = (V c main_v19 : S16384x16384.Idx → EReal) (ix2 R C) := by
  obtain ⟨-, -, -, -, e0, e1, -⟩ := r2_grid_facts t
  show (V c main_v19 : S16384x16384.Idx → EReal) (((cfg2.win 1).blk t).view.emb (ix2 r' cc)) = _
  refine congrArg (V c main_v19 : S16384x16384.Idx → EReal) (funext fun a => Fin.ext ?_)
  match a with
  | ⟨0, _⟩ => show win2_1.index t (0 : Fin 2) * 2048 + 1 * r'.val = R.val; rw [e0, hR]; omega
  | ⟨1, _⟩ => show win2_1.index t (1 : Fin 2) * 2048 + 1 * cc.val = C.val; rw [e1, hC]; omega

/-- The rows the body loads for the accumulation: rows 2048 · (inner coordinate) … of the resident matrix. -/
theorem r2_ld1_apply (i : grid2.Coords) (x0 : Vec Ideal S16384x512 .bf16) (r' : Fin 2048) (k : Fin 512) (R : Fin 16384)
    (hR : R.val = 2048 * (i 1).val + r'.val) :
    View.ld x0 (Rect.unit (s := S16384x512) (k2_off1 i) S2048x512.size (k2_off1_inb i)) (ix2 r' k) = x0 (ix2 R k) := by
  show x0 ((Rect.unit (s := S16384x512) (k2_off1 i) S2048x512.size (k2_off1_inb i)).emb (ix2 r' k)) = _
  refine congrArg x0 (funext fun a => Fin.ext ?_)
  rw [Rect.emb_apply, Rect.off_unit, Rect.stride_unit]
  match a with
  | ⟨0, _⟩ => show k2_off1 i 0 + 1 * r'.val = R.val; rw [show k2_off1 i 0 = 2048 * (i 1).val from congrFun (k2_off1_eq i) 0]; omega
  | ⟨1, _⟩ => show k2_off1 i 1 + 1 * k.val = k.val; rw [show k2_off1 i 1 = 0 from congrFun (k2_off1_eq i) 1]; omega

/-- The rows the body loads for the slab: rows 2048 · (outer coordinate) … of the resident matrix. -/
theorem r2_ld2_apply (i : grid2.Coords) (h : k2_cond2 i = 1#1) (x0 : Vec Ideal S16384x512 .bf16) (q : Fin 2048) (l : Fin 512) (R : Fin 16384)
    (hR : R.val = 2048 * (i 0).val + q.val) :
    View.ld x0 (Rect.unit (s := S16384x512) (k2_off2 i) S2048x512.size (k2_off2_inb i h)) (ix2 q l) = x0 (ix2 R l) := by
  show x0 ((Rect.unit (s := S16384x512) (k2_off2 i) S2048x512.size (k2_off2_inb i h)).emb (ix2 q l)) = _
  refine congrArg x0 (funext fun a => Fin.ext ?_)
  rw [Rect.emb_apply, Rect.off_unit, Rect.stride_unit]
  match a with
  | ⟨0, _⟩ => show k2_off2 i 0 + 1 * q.val = R.val; rw [show k2_off2 i 0 = 2048 * (i 0).val from congrFun (k2_off2_eq i) 0]; omega
  | ⟨1, _⟩ => show k2_off2 i 1 + 1 * l.val = l.val; rw [show k2_off2 i 1 = 0 from congrFun (k2_off2_eq i) 1]; omega

/-- The column block of a point: its outer coordinate. -/
def r2_jOf (t : Fin cfg2.N) : Fin 8 := ⟨t.val / 8, by have := lt_of_lt_of_eq t.isLt (show cfg2.N = 64 from N_2); omega⟩

/-- What point t adds to entry (k, cc) of the accumulator: row block t % 8's share of entry (k, 2048 (t / 8) + cc) of Sᵀ·B. -/
theorem r2_term (c : Dev nD) (t : Fin cfg2.N) (k : Fin 512) (cc : Fin 2048) :
    ∑ r' : Fin 2048, (View.ld (r2_x0 V c t) (Rect.unit (s := S16384x512) (k2_off1 (grid2.coords t)) S2048x512.size (k2_off1_inb (grid2.coords t)))) (ix2 r' k) * (r2_x1 V c t) (ix2 r' cc)
      = r2_blockTerm (V c main_v20_1) (V c main_v19) k (Cert.Spec.col (r2_jOf t) cc) (t.val % 8) := by
  have h8 : t.val % 8 < 8 := Nat.mod_lt _ (by decide)
  obtain ⟨-, g1, -⟩ := r2_grid_facts t
  unfold r2_blockTerm
  rw [dif_pos h8]
  refine Finset.sum_congr rfl fun r' _ => ?_
  exact congrArg₂ (· * ·)
    ((r2_ld1_apply (grid2.coords t) (r2_x0 V c t) r' k (Cert.Spec.col ⟨t.val % 8, h8⟩ r') (by rw [g1]; rfl)).trans
      (r2_iblk0_apply V c t (ix2 (Cert.Spec.col ⟨t.val % 8, h8⟩ r') k)))
    (r2_iblk1_apply V c t r' cc (Cert.Spec.col ⟨t.val % 8, h8⟩ r') (Cert.Spec.col (r2_jOf t) cc) rfl rfl)

/-! ## The accumulator after each point -/

/-- Where the inner coordinate is 0 the accumulator is its update of zero, -/
theorem r2_snd_A (c : Dev nD) (t : Fin cfg2.N) (h0 : t.val % 8 = 0) :
    (outsAt2 V c t.val t.isLt).2 = k2_pay2 (View.ld (r2_x0 V c t) (Rect.unit (s := S16384x512) (k2_off1 (grid2.coords t)) S2048x512.size (k2_off1_inb (grid2.coords t)))) (r2_x1 V c t) (k2_pay1 (F := Ideal)) := by
  have h1 : ¬t.val % 8 = 7 := by omega
  rw [outsAt2_A V c t h0 h1]
  dsimp only
  exact r2_soutA_eq c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (r2_x0 V c t) (r2_x1 V c t)

/-- elsewhere its update of what the point before left. -/
theorem r2_snd_BC (c : Dev nD) (t : Fin cfg2.N) (h0 : ¬t.val % 8 = 0) :
    (outsAt2 V c t.val t.isLt).2 = k2_pay2 (View.ld (r2_x0 V c t) (Rect.unit (s := S16384x512) (k2_off1 (grid2.coords t)) S2048x512.size (k2_off1_inb (grid2.coords t)))) (r2_x1 V c t) (outsAt2 V c (t.val - 1) (Nat.lt_of_le_of_lt (Nat.sub_le _ _) t.isLt)).2 := by
  by_cases h1 : t.val % 8 = 7
  · rw [outsAt2_C V c t h0 h1]
    dsimp only
    exact r2_soutC_eq c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (r2_x0 V c t) (r2_x1 V c t) (outsAt2 V c (t.val - 1) (Nat.lt_of_le_of_lt (Nat.sub_le _ _) t.isLt)).2
  · rw [outsAt2_B V c t h0 h1]
    dsimp only
    exact r2_soutB_eq c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (r2_x0 V c t) (r2_x1 V c t) (outsAt2 V c (t.val - 1) (Nat.lt_of_le_of_lt (Nat.sub_le _ _) t.isLt)).2

/-- After point t the accumulator's entry (k, cc) is the sum of the shares of the row blocks 0 … t % 8 of entry
    (k, 2048 (t / 8) + cc) of Sᵀ·B: by induction on the point; where t % 8 = 0 it restarts from zero. -/
theorem r2_acc (c : Dev nD) : ∀ (n : ℕ) (t : Fin cfg2.N), t.val = n → ∀ (k : Fin 512) (cc : Fin 2048),
    (outsAt2 V c t.val t.isLt).2 (ix2 k cc)
      = ∑ ii ∈ Finset.range (t.val % 8 + 1), r2_blockTerm (V c main_v20_1) (V c main_v19) k (Cert.Spec.col (r2_jOf t) cc) ii := by
  intro n
  induction n with
  | zero =>
    intro t ht k cc
    have h0 : t.val % 8 = 0 := by omega
    rw [r2_snd_A V c t h0]
    refine (r2_pay2_apply (View.ld (r2_x0 V c t) (Rect.unit (s := S16384x512) (k2_off1 (grid2.coords t)) S2048x512.size (k2_off1_inb (grid2.coords t)))) (r2_x1 V c t) (k2_pay1 (F := Ideal)) k cc).trans ?_
    refine (congrArg₂ (· + ·) (r2_pay1_apply k cc) (r2_term V c t k cc)).trans ?_
    rw [zero_add, h0, Finset.sum_range_one]
  | succ n ih =>
    intro t ht k cc
    by_cases h0 : t.val % 8 = 0
    · rw [r2_snd_A V c t h0]
      refine (r2_pay2_apply (View.ld (r2_x0 V c t) (Rect.unit (s := S16384x512) (k2_off1 (grid2.coords t)) S2048x512.size (k2_off1_inb (grid2.coords t)))) (r2_x1 V c t) (k2_pay1 (F := Ideal)) k cc).trans ?_
      refine (congrArg₂ (· + ·) (r2_pay1_apply k cc) (r2_term V c t k cc)).trans ?_
      rw [zero_add, h0, Finset.sum_range_one]
    · have hp : t.val - 1 < cfg2.N := Nat.lt_of_le_of_lt (Nat.sub_le _ _) t.isLt
      have hih := ih ⟨t.val - 1, hp⟩ (by show t.val - 1 = n; omega) k cc
      rw [r2_snd_BC V c t h0]
      refine (r2_pay2_apply (View.ld (r2_x0 V c t) (Rect.unit (s := S16384x512) (k2_off1 (grid2.coords t)) S2048x512.size (k2_off1_inb (grid2.coords t)))) (r2_x1 V c t) (outsAt2 V c (t.val - 1) (Nat.lt_of_le_of_lt (Nat.sub_le _ _) t.isLt)).2 k cc).trans ?_
      refine (congrArg₂ (· + ·) hih (r2_term V c t k cc)).trans ?_
      have hj : r2_jOf ⟨t.val - 1, hp⟩ = r2_jOf t := Fin.ext (show (t.val - 1) / 8 = t.val / 8 by omega)
      have hm : t.val % 8 = (t.val - 1) % 8 + 1 := by omega
      show (∑ ii ∈ Finset.range ((t.val - 1) % 8 + 1), r2_blockTerm (V c main_v20_1) (V c main_v19) k (Cert.Spec.col (r2_jOf ⟨t.val - 1, hp⟩) cc) ii) + _ = _
      rw [hj, hm]
      exact (Finset.sum_range_succ _ _).symm

/-! ## The slab stored where the inner coordinate is 7 -/

/-- At a point with inner coordinate 7 the slab's buffer holds slab t / 8 of the result. -/
theorem r2_out_C (c : Dev nD) (t : Fin cfg2.N) (h1 : t.val % 8 = 7) (z : Fin 1) (k l : Fin 512) :
    (outsAt2 V c t.val t.isLt).1 (ix3 z k l) = Cert.Spec.partialMAt (V c main_v20_1) (V c main_v19) (r2_jOf t) k l := by
  have h0 : ¬t.val % 8 = 0 := by omega
  obtain ⟨g0, -⟩ := r2_grid_facts t
  have e1 : (outsAt2 V c t.val t.isLt).1 = k2_pay3 (View.ld (r2_x0 V c t) (Rect.unit (s := S16384x512) (k2_off2 (grid2.coords t)) S2048x512.size (k2_off2_inb (grid2.coords t) ((hcond2_1 t).mpr h1)))) (outsAt2 V c t.val t.isLt).2 := by
    rw [outsAt2_C V c t h0 h1]
    dsimp only
    exact (r2_outC_eq c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (r2_x0 V c t) (r2_x1 V c t) (outsAt2 V c (t.val - 1) (Nat.lt_of_le_of_lt (Nat.sub_le _ _) t.isLt)).2).trans
      (congrArg (k2_pay3 (View.ld (r2_x0 V c t) (Rect.unit (s := S16384x512) (k2_off2 (grid2.coords t)) S2048x512.size (k2_off2_inb (grid2.coords t) ((hcond2_1 t).mpr h1))))) (r2_soutC_eq c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (r2_x0 V c t) (r2_x1 V c t) (outsAt2 V c (t.val - 1) (Nat.lt_of_le_of_lt (Nat.sub_le _ _) t.isLt)).2).symm)
  rw [e1]
  refine (r2_pay3_apply (View.ld (r2_x0 V c t) (Rect.unit (s := S16384x512) (k2_off2 (grid2.coords t)) S2048x512.size (k2_off2_inb (grid2.coords t) ((hcond2_1 t).mpr h1)))) (outsAt2 V c t.val t.isLt).2 z k l).trans ?_
  unfold Cert.Spec.partialMAt
  refine Finset.sum_congr rfl fun q _ => congrArg₂ (· * ·) ?_ ?_
  · refine (r2_acc V c t.val t rfl k q).trans ?_
    rw [h1]
    exact r2_sum_blockTerm (V c main_v20_1) (V c main_v19) k (Cert.Spec.col (r2_jOf t) q)
  · exact (r2_ld2_apply (grid2.coords t) ((hcond2_1 t).mpr h1) (r2_x0 V c t) q l (Cert.Spec.col (r2_jOf t) q) (by rw [g0]; rfl)).trans
      (r2_iblk0_apply V c t (ix2 (Cert.Spec.col (r2_jOf t) q) l))

/-! ## From the write-backs to the array -/

/-- What a write-back writes is its block of the result. -/
theorem r2_flushed_eq (c : Dev nD) (t : Fin cfg2.N) (hf : (cfg2.win 2).flush t = true) :
    (dat2 V c).flushed 2 t = ((cfg2.win 2).blk t).view.read (Elt Ideal) (Cert.Spec.partialM (V c main_v20_1) (V c main_v19)) := by
  have h1 : t.val % 8 = 7 := (flush2_2 t).mp hf
  obtain ⟨-, -, -, -, -, -, e0, e1, e2⟩ := r2_grid_facts t
  show (cfg2.win 2).cut (grid2.coords t) ((dat2 V c).after 2 t) = _
  rw [after2_2]
  refine funext fun (y : S1x512x512.Idx) => ?_
  show (outsAt2 V c t.val t.isLt).1 y = Cert.Spec.partialM (V c main_v20_1) (V c main_v19) (((cfg2.win 2).blk t).view.emb y)
  have hy : y = ix3 (y 0) (y 1) (y 2) := eq_ix3 y
  have hemb : ((cfg2.win 2).blk t).view.emb y = ix3 (r2_jOf t) (y 1) (y 2) := by
    funext a; apply Fin.ext
    match a with
    | ⟨0, _⟩ => show win2_2.index t (0 : Fin 3) * 1 + 1 * (y 0).val = t.val / 8; rw [e0]; have : (y 0).val < 1 := (y 0).isLt; omega
    | ⟨1, _⟩ => show win2_2.index t (1 : Fin 3) * 512 + 1 * (y 1).val = (y 1).val; rw [e1]; omega
    | ⟨2, _⟩ => show win2_2.index t (2 : Fin 3) * 512 + 1 * (y 2).val = (y 2).val; rw [e2]; omega
  rw [hemb, hy]
  exact r2_out_C V c t h1 (y 0) (y 1) (y 2)

theorem r2_mem_blk (t : Fin cfg2.N) (i : S8x512x512.Idx) :
    i ∈ ((cfg2.win 2).blk t).view.set ↔ ∀ a : Fin 3, win2_2.index t a * S1x512x512.size a ≤ (i a).val ∧ (i a).val < win2_2.index t a * S1x512x512.size a + S1x512x512.size a := by
  show i ∈ ((View.whole main_v22).slice (win2_2.rect t)).set ↔ _
  rw [View.set_slice_whole, Rect.mem_set_unit]
  exact Iff.rfl

/-- Slab j is written back at point 8 j + 7. -/
theorem r2_cover (i : S8x512x512.Idx) : ∃ t : Fin cfg2.N, (cfg2.win 2).flush t = true ∧ i ∈ ((cfg2.win 2).blk t).view.set := by
  have hi0 : (i 0).val < 8 := (i 0).isLt
  have hi1 : (i 1).val < 512 := (i 1).isLt
  have hi2 : (i 2).val < 512 := (i 2).isLt
  have hN : cfg2.N = 64 := N_2
  obtain ⟨t, htv⟩ : ∃ t : Fin cfg2.N, t.val = 8 * (i 0).val + 7 := ⟨⟨8 * (i 0).val + 7, by omega⟩, rfl⟩
  obtain ⟨-, -, -, -, -, -, e0, e1, e2⟩ := r2_grid_facts t
  refine ⟨t, (flush2_2 t).mpr (by omega), ?_⟩
  rw [r2_mem_blk]
  intro a
  match a with
  | ⟨0, _⟩ => show win2_2.index t (0 : Fin 3) * 1 ≤ (i 0).val ∧ (i 0).val < win2_2.index t (0 : Fin 3) * 1 + 1; rw [e0]; omega
  | ⟨1, _⟩ => show win2_2.index t (1 : Fin 3) * 512 ≤ (i 1).val ∧ (i 1).val < win2_2.index t (1 : Fin 3) * 512 + 512; rw [e1]; omega
  | ⟨2, _⟩ => show win2_2.index t (2 : Fin 3) * 512 ≤ (i 2).val ∧ (i 2).val < win2_2.index t (2 : Fin 3) * 512 + 512; rw [e2]; omega

/-- The result array after the region: slab j, entry (k, l), is the sum over the 2048 columns c of column block
    j of (Sᵀ·B)(k, c) · S(c, l). -/
theorem arrAt2_out (c : Dev nD) :
    ((dat2 (F := Ideal) V c).arrAt 2 cfg2.N : Cert.Spec.Arr3 8 512 512) = Cert.Spec.partialM (V c main_v20_1) (V c main_v19) :=
  (dat2 V c).arrAt_eq_of_cover 2 (Cert.Spec.partialM (V c main_v20_1) (V c main_v19)) (fun t hf => r2_flushed_eq V c t hf) r2_cover

end Cert.KernelIdeal.Fr

end
-- ==== Proof.KI.Tail.lean ====
import proofs.«105494_j56573309223698_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«105494_j56573309223698_2_alg».proof.Proof.Spec

noncomputable section

namespace Cert.KernelIdeal.Val

open Cert.KernelIdeal Cert.KernelIdeal.Gen Idealize.ShloMosaic Idealize.ShloMosaic.ValueIdx
open scoped BigOperators

/-! # The host operations after the kernels: the eight slabs summed from zero, plus the transpose of that sum -/

/-- The reduced index (k, l) with the slab coordinate j inserted is (j, k, l). -/
theorem lift_slab (h : Shape.Reduces S8x512x512 [0] S512x512) (k l : Fin 512) (j : Fin 8) : h.lift (ix2 k l) j = ix3 j k l :=
  funext fun a => Fin.ext (by
    match a with
    | ⟨0, _⟩ => rfl
    | ⟨1, _⟩ => rfl
    | ⟨2, _⟩ => rfl)

/-- The slabs' sum at (k, l). -/
theorem sumSlab (Mp : FVec Ideal S8x512x512 .f32) (k l : Fin 512) :
    Host.reduceAdd (F := Ideal) Mp (constant S_ .f32 0x00000000#32) reducesTo_S8x512x512_S512x512_d0 h_S_ (ix2 k l) = Cert.Spec.sumM Mp k l := by
  simp only [Host.reduceAdd, Ideal.hostReduceAdd_def]
  rw [Ideal.hostReduceAdd_single reducesTo_S8x512x512_S512x512_d0 (by decide)]
  unfold Cert.Spec.sumM
  refine congrArg₂ (· + ·) Ideal.ofBits_zero_f32 (Finset.sum_congr rfl fun j _ => congrArg Mp (lift_slab _ k l j))

/-- What the host tail computes from the slabs. -/
def tailOf (Mp : FVec Ideal S8x512x512 .f32) : FVec Ideal S512x512 .f32 :=
  addf (Host.reduceAdd (F := Ideal) Mp (constant S_ .f32 0x00000000#32) reducesTo_S8x512x512_S512x512_d0 h_S_)
    (transpose S512x512 [1, 0] (Host.reduceAdd (F := Ideal) Mp (constant S_ .f32 0x00000000#32) reducesTo_S8x512x512_S512x512_d0 h_S_) transposes_S512x512_S512x512_1_0)

theorem tailOf_eq (Mp : FVec Ideal S8x512x512 .f32) : tailOf Mp = Cert.Spec.pooledAdj Mp := by
  funext i
  obtain ⟨k, l, rfl⟩ : ∃ (k l : Fin 512), i = ix2 k l := ⟨i 0, i 1, eq_ix2 i⟩
  rw [Cert.Spec.pooledAdj_ix2]
  unfold tailOf
  show Host.reduceAdd (F := Ideal) Mp (constant S_ .f32 0x00000000#32) reducesTo_S8x512x512_S512x512_d0 h_S_ (ix2 k l)
      + transpose S512x512 [1, 0] (Host.reduceAdd (F := Ideal) Mp (constant S_ .f32 0x00000000#32) reducesTo_S8x512x512_S512x512_d0 h_S_) transposes_S512x512_S512x512_1_0 (ix2 k l) = _
  rw [transpose_ix2_apply, sumSlab, sumSlab]

end Cert.KernelIdeal.Val

end
-- ==== Proof.KI.HostTail.lean ====
import proofs.«105494_j56573309223698_2_alg».proof.Proof.Gen.KernelIdeal.Launch
import proofs.«105494_j56573309223698_2_alg».proof.Proof.KI.Tail
import Idealize.ShloMosaic.Lib.StableHlo.Run

noncomputable section

namespace Cert.KernelIdeal.Val

open Idealize.ShloMosaic Idealize.ShloMosaic.TcCoe Idealize.SL.Sem Idealize.ShloMosaic.StableHlo
open Cert.KernelIdeal Cert.KernelIdeal.Gen

/-- The host operations after the kernels leave, in the second result, the slabs summed from zero plus the transpose of
    that sum, whatever the other buffers hold. -/
theorem kernel_tail (W : Valuation Cert.KernelIdeal.τ Cert.KernelIdeal.sig (Elt Ideal)) :
    StableHlo.after (Cert.KernelIdeal.Gen.hostOps3 (F := Ideal)) W (Proc.devRef .tc Cert.KernelIdeal.main_v25)
      = tailOf (W (Proc.devRef .tc Cert.KernelIdeal.main_v22)) := by
  dsimp only [hostOps3]
  after_results
  rfl

end Cert.KernelIdeal.Val

end
-- ==== Proof.Math.RefSoft.lean ====
/-
  The reference's assignment matrix, entry by entry, is the softmax of the logits along the clusters.

  Each stage of the reference is read at an index: the logits are row `r` of `x` against column `k` of `Wa`
  plus the bias; the row maximum is the fold of `max` over the row from `−∞` (then once more against `−∞`);
  the shifted exponentials; the row sum from zero; the quotient.
-/
import proofs.«105494_j56573309223698_2_alg».proof.Proof.Gen.ReferenceIdeal.Read
import proofs.«105494_j56573309223698_2_alg».proof.Proof.Spec
import Idealize.ShloMosaic.PureOps.Reduce
import Idealize.ShloMosaic.PureOps.Ideal.Laws

set_option pp.maxSteps 5000
set_option pp.deepTerms false

noncomputable section

namespace Cert.Math

open Cert.ReferenceIdeal Cert.ReferenceIdeal.Gen Cert.ReferenceIdeal.Read Idealize.ShloMosaic Idealize.ShloMosaic.ValueIdx
open scoped BigOperators

/-- The word `0xFF800000` denotes `−∞`. -/
theorem ofBits_negInf : Ideal.ofBits .f32 0xFF800000#32 = (⊥ : EReal) := by
  simp [Ideal.ofBits, Ideal.ieee]

/-! ### The index maps of the stages, by coordinates -/

theorem lidx_v0_ix2 (r : Fin 16384) (k : Fin 512) (q : Fin 128) : lidx_main_v0 (ix2 r k) q = ix2 r q :=
  funext fun a => Fin.ext (by match a with | ⟨0, _⟩ => rfl | ⟨1, _⟩ => rfl)

theorem ridx_v0_ix2 (r : Fin 16384) (k : Fin 512) (q : Fin 128) : ridx_main_v0 (ix2 r k) q = ix2 q k :=
  funext fun a => Fin.ext (by match a with | ⟨0, _⟩ => rfl | ⟨1, _⟩ => rfl)

theorem idx_v1_v2_ix2 (r : Fin 16384) (k : Fin 512) : idx_main_v1 (idx_main_v2 (ix2 r k)) = ix1 k :=
  funext fun a => Fin.ext (by match a with | ⟨0, _⟩ => rfl)

theorem idx_v7_v8_ix2 (r : Fin 16384) (k : Fin 512) : idx_main_v7 (idx_main_v8 (ix2 r k)) = ix1 r :=
  funext fun a => Fin.ext (by match a with | ⟨0, _⟩ => rfl)

theorem idx_v11_ix1 (r : Fin 16384) (k : Fin 512) : idx_main_v11 (ix1 r) k = ix2 r k :=
  funext fun a => Fin.ext (by match a with | ⟨0, _⟩ => rfl | ⟨1, _⟩ => rfl)

theorem idx_v12_v13_ix2 (r : Fin 16384) (k : Fin 512) : idx_main_v12 (idx_main_v13 (ix2 r k)) = ix1 r :=
  funext fun a => Fin.ext (by match a with | ⟨0, _⟩ => rfl)

/-- Row `r` with the cluster coordinate `k` put back is the entry (r, k). -/
theorem lift_row (h : S16384x512.Reduces [1] S16384) (r : Fin 16384) (k : Fin (S16384x512.size 1)) :
    h.lift (ix1 r) k = ix2 r (⟨k.val, k.isLt⟩ : Fin 512) := by
  funext c; apply Fin.ext
  fin_cases c <;> rfl

section

variable (x0 : (⟨S16384x128, .f32⟩ : BufTy).Contents (Elt Ideal)) (x3 : (⟨S128x512, .f32⟩ : BufTy).Contents (Elt Ideal))
  (x4 : (⟨S512, .f32⟩ : BufTy).Contents (Elt Ideal))

/-- The logits. -/
theorem ref_logit (r : Fin 16384) (k : Fin 512) :
    val_main_v3 (F := Ideal) x0 x3 x4 (ix2 r k) = Spec.logit x0 x3 x4 r k := by
  rw [val_main_v3_apply, val_main_v0_apply, val_main_v2_apply, val_main_v1_apply, idx_v1_v2_ix2]
  simp only [lidx_v0_ix2, ridx_v0_ix2]
  rfl

/-- The row maximum. -/
theorem ref_rowMax (r : Fin 16384) :
    val_main_v6 (F := Ideal) x0 x3 x4 (ix1 r) = Spec.rowMax x0 x3 x4 r := by
  have h : S16384x512.Reduces [1] S16384 := by decide
  rw [val_main_v6_apply, val_main_v5_apply, val_main_cst_0_apply]
  unfold val_main_v4
  rw [Host.reduce_eq_fold_single FloatOps.maximumf _ _ reducesTo_S16384x512_S16384_d1 h h_S_]
  have hl : (val_main_v3 (F := Ideal) x0 x3 x4 ∘ h.lift (ix1 r)) = fun k : Fin 512 => Spec.logit x0 x3 x4 r k :=
    funext fun k => (congrArg (val_main_v3 (F := Ideal) x0 x3 x4) (lift_row h r k)).trans (ref_logit x0 x3 x4 r _)
  refine (congrArg (fun f => max (Ideal.ofBits .f32 0xFF800000#32)
    (Finset.fold max (Ideal.ofBits .f32 0xFF800000#32) f (Finset.univ : Finset (Fin 512)))) hl).trans ?_
  unfold Spec.rowMax
  rw [ofBits_negInf]

/-- The shifted exponentials. -/
theorem ref_expo (r : Fin 16384) (k : Fin 512) :
    val_main_v10 (F := Ideal) x0 x3 x4 (ix2 r k) = Spec.expo x0 x3 x4 r k := by
  rw [val_main_v10_apply, val_main_v9_apply, val_main_v8_apply, val_main_v7_apply, idx_v7_v8_ix2, ref_rowMax,
    ref_logit]
  rfl

/-- The row sums. -/
theorem ref_rowSum (r : Fin 16384) :
    val_main_v11 (F := Ideal) x0 x3 x4 (ix1 r) = Spec.rowSum x0 x3 x4 r := by
  rw [val_main_v11_apply, val_main_cst_1_apply]
  show Ideal.ofBits .f32 0x00000000#32 + _ = _
  rw [Ideal.ofBits_zero_f32, zero_add]
  unfold Spec.rowSum
  refine Finset.sum_congr rfl fun k _ => ?_
  rw [idx_v11_ix1, ref_expo]

/-- The reference's assignment matrix is the softmax of the logits. -/
theorem ref_soft : val_main_v14 (F := Ideal) x0 x3 x4 = Spec.soft x0 x3 x4 := by
  funext i
  obtain ⟨r, k, rfl⟩ : ∃ (r : Fin 16384) (k : Fin 512), i = ix2 r k := ⟨i 0, i 1, eq_ix2 i⟩
  rw [Spec.soft_ix2, val_main_v14_apply, val_main_v13_apply, val_main_v12_apply, idx_v12_v13_ix2, ref_rowSum,
    ref_expo]
  rfl

end

end Cert.Math

end
-- ==== Proof.Math.Algebra.lean ====
/-
  The algebraic law behind the pooled adjacency, over the extended reals.

  With `s r k` the assignment weights (each a finite nonnegative number) and `a r c` any extended reals,
    ∑ c, (∑ r, s r k * (a r c + a c r)) * s c l  =  M k l + M l k,   M k l = ∑ c, (∑ r, s r k * a r c) * s c l.
  Multiplication by a finite nonnegative number distributes over addition of extended reals (no `∞ − ∞` can
  appear), so it distributes over finite sums; the second summand is then `M l k` after exchanging the two
  node sums and commuting the factors. A sum over the 16384 nodes is the sum over the 8 column blocks of the
  sums over the 2048 columns of a block.
-/
import proofs.«105494_j56573309223698_2_alg».proof.Proof.Spec
import Mathlib.Data.EReal.Operations

noncomputable section

namespace Cert.Math

open Idealize.ShloMosaic Idealize.ShloMosaic.ValueIdx
open scoped BigOperators

/-- A finite nonnegative extended real distributes over a finite sum, from the left. -/
theorem mul_sum_of_nonneg_ne_top {ι : Type*} (t : Finset ι) (x : EReal) (hx : 0 ≤ x) (hx' : x ≠ ⊤)
    (f : ι → EReal) : x * ∑ i ∈ t, f i = ∑ i ∈ t, x * f i := by
  classical
  refine Finset.induction_on t ?_ ?_
  · simp
  · intro a t ha ih
    rw [Finset.sum_insert ha, Finset.sum_insert ha, EReal.left_distrib_of_nonneg_of_ne_top hx hx', ih]

/-- A finite nonnegative extended real distributes over a finite sum, from the right. -/
theorem sum_mul_of_nonneg_ne_top {ι : Type*} (t : Finset ι) (x : EReal) (hx : 0 ≤ x) (hx' : x ≠ ⊤)
    (f : ι → EReal) : (∑ i ∈ t, f i) * x = ∑ i ∈ t, f i * x := by
  rw [mul_comm, mul_sum_of_nonneg_ne_top t x hx hx' f]
  exact Finset.sum_congr rfl fun i _ => mul_comm _ _

/-- The law: `Sᵀ (A + Aᵀ) S = Sᵀ A S + (Sᵀ A S)ᵀ` entry by entry, for finite nonnegative weights `s` and
    arbitrary extended reals `a`. -/
theorem adj_law {ι κ : Type*} [Fintype ι] (s : ι → κ → EReal) (hs : ∀ r k, 0 ≤ s r k ∧ s r k ≠ ⊤)
    (a : ι → ι → EReal) (k l : κ) :
    ∑ c, (∑ r, s r k * (a r c + a c r)) * s c l
      = (∑ c, (∑ r, s r k * a r c) * s c l) + ∑ c, (∑ r, s r l * a r c) * s c k := by
  have h1 : ∀ c, (∑ r, s r k * (a r c + a c r)) * s c l
      = (∑ r, s r k * a r c) * s c l + ∑ r, (s r k * a c r) * s c l := by
    intro c
    have h0 : ∑ r, s r k * (a r c + a c r) = (∑ r, s r k * a r c) + ∑ r, s r k * a c r := by
      rw [← Finset.sum_add_distrib]
      exact Finset.sum_congr rfl fun r _ =>
        EReal.left_distrib_of_nonneg_of_ne_top (hs r k).1 (hs r k).2 _ _
    rw [h0, EReal.right_distrib_of_nonneg_of_ne_top (hs c l).1 (hs c l).2,
      sum_mul_of_nonneg_ne_top Finset.univ (s c l) (hs c l).1 (hs c l).2 (fun r => s r k * a c r)]
  have h2 : ∀ c, (∑ r, s r l * a r c) * s c k = ∑ r, (s r l * a r c) * s c k := fun c =>
    sum_mul_of_nonneg_ne_top _ _ (hs c k).1 (hs c k).2 _
  rw [Finset.sum_congr rfl (fun c _ => h1 c), Finset.sum_add_distrib]
  refine congrArg (_ + ·) ?_
  rw [Finset.sum_congr rfl (fun c _ => h2 c), Finset.sum_comm]
  refine Finset.sum_congr rfl fun c _ => Finset.sum_congr rfl fun r _ => ?_
  rw [mul_right_comm, mul_comm (s c k) (s r l), mul_right_comm]

/-- (column block, column inside the block) ↔ node. -/
def colEquiv : Fin 8 × Fin 2048 ≃ Fin 16384 where
  toFun p := Spec.col p.1 p.2
  invFun c := (⟨c.val / 2048, by have := c.isLt; omega⟩, ⟨c.val % 2048, by omega⟩)
  left_inv p := by
    obtain ⟨j, cc⟩ := p
    have hj := j.isLt
    have hc := cc.isLt
    refine Prod.ext (Fin.ext ?_) (Fin.ext ?_)
    · show (2048 * j.val + cc.val) / 2048 = j.val
      omega
    · show (2048 * j.val + cc.val) % 2048 = cc.val
      omega
  right_inv c := by
    refine Fin.ext ?_
    show 2048 * (c.val / 2048) + c.val % 2048 = c.val
    omega

/-- A sum over the nodes, block by block. -/
theorem sum_col {M : Type*} [AddCommMonoid M] (f : Fin 16384 → M) :
    ∑ c, f c = ∑ j : Fin 8, ∑ cc : Fin 2048, f (Spec.col j cc) :=
  (Fintype.sum_equiv colEquiv (fun p => f (Spec.col p.1 p.2)) f (fun _ => rfl)).symm.trans
    (Fintype.sum_prod_type' (fun j cc => f (Spec.col j cc)))

/-- The slabs summed are the full product `Sᵀ · B · S`. -/
theorem sumM_partialM (S : Spec.Arr2 16384 512) (B : Spec.Arr2 16384 16384) (k l : Fin 512) :
    Spec.sumM (Spec.partialM S B) k l
      = ∑ c : Fin 16384, (∑ r : Fin 16384, S (ix2 r k) * B (ix2 r c)) * S (ix2 c l) := by
  unfold Spec.sumM
  rw [zero_add, sum_col]
  refine Finset.sum_congr rfl fun j _ => ?_
  rw [Spec.partialM_ix3]
  rfl

/-- The pooled adjacency of the symmetrised dense adjacency is `M + Mᵀ` of the un-symmetrised one, when the
    assignment weights are finite and nonnegative. -/
theorem pooledAdj_law (S : Spec.Arr2 16384 512) (B : Spec.Arr2 16384 16384)
    (hS : ∀ (r : Fin 16384) (k : Fin 512), 0 ≤ S (ix2 r k) ∧ S (ix2 r k) ≠ ⊤) (k l : Fin 512) :
    ∑ c : Fin 16384, (∑ r : Fin 16384, S (ix2 r k) * (B (ix2 r c) + B (ix2 c r))) * S (ix2 c l)
      = Spec.pooledAdj (Spec.partialM S B) (ix2 k l) := by
  rw [Spec.pooledAdj_ix2, sumM_partialM, sumM_partialM]
  exact adj_law (fun r k => S (ix2 r k)) hS (fun r c => B (ix2 r c)) k l

end Cert.Math

end
-- ==== Proof.Math.RefAdj.lean ====
/-
  The reference's pooled adjacency, entry by entry, and the law that turns it into `M + Mᵀ`.

  The reference symmetrises the dense adjacency `B` first (`B + Bᵀ`, the transpose read through its index map),
  then forms `(Sᵀ · (B + Bᵀ)) · S`: entry (k, l) is `∑ c, (∑ r, S r k * (B r c + B c r)) * S c l`. For a finite
  nonnegative `S` this is `M k l + M l k` with `M = Sᵀ · B · S`, the sum of the eight column-block slabs.
-/
import proofs.«105494_j56573309223698_2_alg».proof.Proof.Math.RefSoft
import proofs.«105494_j56573309223698_2_alg».proof.Proof.Math.Algebra

set_option pp.maxSteps 5000
set_option pp.deepTerms false

noncomputable section

namespace Cert.Math

open Cert.ReferenceIdeal Cert.ReferenceIdeal.Gen Cert.ReferenceIdeal.Read Idealize.ShloMosaic Idealize.ShloMosaic.ValueIdx
open scoped BigOperators

/-- The reference's dense adjacency before symmetrisation: the edge weights scattered into a zero array at the
    (wrapped) source and target node of each edge, as one function of the edge-index and edge-weight arguments. -/
@[reducible] def refB (idx : (⟨S2x524288, .i32⟩ : BufTy).Contents (Elt Ideal))
    (ew : (⟨S524288, .f32⟩ : BufTy).Contents (Elt Ideal)) : Spec.Arr2 16384 16384 :=
  val_main_v39 (F := Ideal) idx ew

theorem lidx_v44_ix2 (k l : Fin 512) (c : Fin 16384) : lidx_main_v44 (ix2 k l) c = ix2 k c :=
  funext fun a => Fin.ext (by match a with | ⟨0, _⟩ => rfl | ⟨1, _⟩ => rfl)

theorem ridx_v44_ix2 (k l : Fin 512) (c : Fin 16384) : ridx_main_v44 (ix2 k l) c = ix2 c l :=
  funext fun a => Fin.ext (by match a with | ⟨0, _⟩ => rfl | ⟨1, _⟩ => rfl)

theorem lidx_v43_ix2 (k : Fin 512) (c r : Fin 16384) : lidx_main_v43 (ix2 k c) r = ix2 k r :=
  funext fun a => Fin.ext (by match a with | ⟨0, _⟩ => rfl | ⟨1, _⟩ => rfl)

theorem ridx_v43_ix2 (k : Fin 512) (c r : Fin 16384) : ridx_main_v43 (ix2 k c) r = ix2 r c :=
  funext fun a => Fin.ext (by match a with | ⟨0, _⟩ => rfl | ⟨1, _⟩ => rfl)

theorem idx_v42_ix2 (k : Fin 512) (r : Fin 16384) : idx_main_v42 (ix2 k r) = ix2 r k :=
  funext fun a => Fin.ext (by match a with | ⟨0, _⟩ => rfl | ⟨1, _⟩ => rfl)

theorem idx_v40_ix2 (r c : Fin 16384) : idx_main_v40 (ix2 r c) = ix2 c r :=
  funext fun a => Fin.ext (by match a with | ⟨0, _⟩ => rfl | ⟨1, _⟩ => rfl)

section

variable (x0 : (⟨S16384x128, .f32⟩ : BufTy).Contents (Elt Ideal)) (x1 : (⟨S2x524288, .i32⟩ : BufTy).Contents (Elt Ideal))
  (x2 : (⟨S524288, .f32⟩ : BufTy).Contents (Elt Ideal)) (x3 : (⟨S128x512, .f32⟩ : BufTy).Contents (Elt Ideal))
  (x4 : (⟨S512, .f32⟩ : BufTy).Contents (Elt Ideal))

/-- Entry (r, c) of the symmetrised dense adjacency. -/
theorem ref_sym (r c : Fin 16384) :
    val_main_v41 (F := Ideal) x1 x2 (ix2 r c) = refB x1 x2 (ix2 r c) + refB x1 x2 (ix2 c r) := by
  rw [val_main_v41_apply, val_main_v40_apply, idx_v40_ix2]
  rfl

/-- Entry (k, c) of `Sᵀ · (B + Bᵀ)`. -/
theorem ref_stSym (k : Fin 512) (c : Fin 16384) :
    val_main_v43 (F := Ideal) x0 x1 x2 x3 x4 (ix2 k c)
      = ∑ r : Fin 16384, Spec.soft x0 x3 x4 (ix2 r k) * (refB x1 x2 (ix2 r c) + refB x1 x2 (ix2 c r)) := by
  rw [val_main_v43_apply]
  refine Finset.sum_congr rfl fun r _ => ?_
  rw [lidx_v43_ix2, ridx_v43_ix2, val_main_v42_apply, idx_v42_ix2, ref_soft, ref_sym]

/-- Entry (k, l) of the reference's pooled adjacency. -/
theorem ref_pooledAdj_entry (k l : Fin 512) :
    val_main_v44 (F := Ideal) x0 x1 x2 x3 x4 (ix2 k l)
      = ∑ c : Fin 16384, (∑ r : Fin 16384, Spec.soft x0 x3 x4 (ix2 r k) * (refB x1 x2 (ix2 r c) + refB x1 x2 (ix2 c r)))
          * Spec.soft x0 x3 x4 (ix2 c l) := by
  rw [val_main_v44_apply]
  refine Finset.sum_congr rfl fun c _ => ?_
  rw [lidx_v44_ix2, ridx_v44_ix2, ref_stSym, ref_soft]

/-- The reference's pooled adjacency is `M + Mᵀ` of the un-symmetrised dense adjacency, when the assignment
    matrix has finite nonnegative entries. -/
theorem ref_pooledAdj
    (hS : ∀ (r : Fin 16384) (k : Fin 512), 0 ≤ Spec.soft x0 x3 x4 (ix2 r k) ∧ Spec.soft x0 x3 x4 (ix2 r k) ≠ ⊤) :
    val_main_v44 (F := Ideal) x0 x1 x2 x3 x4
      = Spec.pooledAdj (Spec.partialM (Spec.soft x0 x3 x4) (refB x1 x2)) := by
  funext i
  obtain ⟨k, l, rfl⟩ : ∃ (k l : Fin 512), i = ix2 k l := ⟨i 0, i 1, eq_ix2 i⟩
  rw [ref_pooledAdj_entry]
  exact pooledAdj_law (Spec.soft x0 x3 x4) (refB x1 x2) hS k l

end

end Cert.Math

end
-- ==== Proof.KI.HostScatter.lean ====
import proofs.«105494_j56573309223698_2_alg».proof.Proof.Gen.KernelIdeal.Launch
import proofs.«105494_j56573309223698_2_alg».proof.Proof.Math.RefAdj
import Idealize.ShloMosaic.Lib.StableHlo.Run

noncomputable section

namespace Cert.KernelIdeal.Val

open Idealize.ShloMosaic Idealize.ShloMosaic.TcCoe Idealize.SL.Sem Idealize.ShloMosaic.StableHlo
open Cert.KernelIdeal Cert.KernelIdeal.Gen

/-- The zero the dense adjacency is filled with before the scatter is the same extended real in both formats. -/
theorem zeros_eq : (constant (F := Ideal) Cert.KernelIdeal.S_ .bf16 0x0000#16 : Cert.KernelIdeal.S_.Idx → EReal)
    = constant (F := Ideal) Cert.ReferenceIdeal.S_ .f32 0x00000000#32 :=
  funext fun _ => by
    show Ideal.ofBits .bf16 0x0000#16 = Ideal.ofBits .f32 0x00000000#32
    simp [Ideal.ofBits, Ideal.ieee]

set_option maxHeartbeats 1000000 in
/-- The dense adjacency the host operations before the kernels build is the reference's: the same two index rows,
    wrapped the same way, the same weights (a change of format is the identity on the extended reals) scattered into
    the same zeros. -/
theorem kernel_scatter (W : Valuation Cert.KernelIdeal.τ Cert.KernelIdeal.sig (Elt Ideal)) :
    StableHlo.after (Cert.KernelIdeal.Gen.hostOps0 (F := Ideal)) W (Proc.devRef .tc Cert.KernelIdeal.main_v19)
      = Cert.Math.refB (W (Proc.devRef .tc Cert.KernelIdeal.main_arg1)) (W (Proc.devRef .tc Cert.KernelIdeal.main_arg2)) := by
  dsimp only [hostOps0]
  after_results
  unfold Cert.Math.refB Cert.ReferenceIdeal.Read.val_main_v39 Cert.ReferenceIdeal.Read.val_main_v25 Cert.ReferenceIdeal.Read.val_main_cst_2
  rw [zeros_eq]
  rfl

end Cert.KernelIdeal.Val

end
-- ==== Proof.KI.Results.lean ====
import proofs.«105494_j56573309223698_2_alg».proof.Proof.KI.Args
import proofs.«105494_j56573309223698_2_alg».proof.Proof.KI.R0Value
import proofs.«105494_j56573309223698_2_alg».proof.Proof.KI.R1Value
import proofs.«105494_j56573309223698_2_alg».proof.Proof.KI.R2Value
import proofs.«105494_j56573309223698_2_alg».proof.Proof.KI.HostTail
import proofs.«105494_j56573309223698_2_alg».proof.Proof.KI.HostScatter

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Val

/-! # The three results of the kernel program, as functions of the argument arrays, over the extended reals -/

variable (m : (ℓ : Loc nD τ sig) → Buf (Elt Ideal) ℓ) (ρ : Dev nD → PrngReg)

/-- The assignment matrix of the launch's arguments. -/
abbrev Sm (c : Dev nD) : Cert.Spec.Arr2 16384 512 :=
  Cert.Spec.soft (m ((c : Thread nD τ).loc main_arg0)) (m ((c : Thread nD τ).loc main_arg3)) (m ((c : Thread nD τ).loc main_arg4))
/-- The features of the launch's arguments. -/
abbrev Hm (c : Dev nD) : Cert.Spec.Arr2 16384 128 :=
  Cert.Spec.feat (m ((c : Thread nD τ).loc main_arg0)) (m ((c : Thread nD τ).loc main_arg5)) (m ((c : Thread nD τ).loc main_arg6))
/-- The dense adjacency of the launch's arguments. -/
abbrev Bm (c : Dev nD) : Cert.Spec.Arr2 16384 16384 :=
  Cert.Math.refB (m ((c : Thread nD τ).loc main_arg1)) (m ((c : Thread nD τ).loc main_arg2))

/-- After the first region its f32 softmax output holds the assignment matrix. -/
theorem W2_S (c : Dev nD) : W2 m c (Proc.devRef .tc main_v20_0) = Sm m c := by
  refine (W2_arr m c 5).trans ((arrAt0_5 (V1 m) c).trans ?_)
  show Cert.Spec.soft (W1 m c (Proc.devRef .tc main_arg0)) (W1 m c (Proc.devRef .tc main_arg3)) (W1 m c (Proc.devRef .tc main_arg4)) = _
  rw [W1_main_arg0, W1_main_arg3, W1_main_arg4]
/-- The narrower copy holds the same extended reals. -/
theorem W2_Sb (c : Dev nD) : W2 m c (Proc.devRef .tc main_v20_1) = Sm m c := by
  refine (W2_arr m c 6).trans ((arrAt0_6 (V1 m) c).trans ?_)
  show Cert.Spec.soft (W1 m c (Proc.devRef .tc main_arg0)) (W1 m c (Proc.devRef .tc main_arg3)) (W1 m c (Proc.devRef .tc main_arg4)) = _
  rw [W1_main_arg0, W1_main_arg3, W1_main_arg4]
/-- The feature output holds the features. -/
theorem W2_H (c : Dev nD) : W2 m c (Proc.devRef .tc main_v20_2) = Hm m c := by
  refine (W2_arr m c 7).trans ((arrAt0_7 (V1 m) c).trans ?_)
  show Cert.Spec.feat (W1 m c (Proc.devRef .tc main_arg0)) (W1 m c (Proc.devRef .tc main_arg5)) (W1 m c (Proc.devRef .tc main_arg6)) = _
  rw [W1_main_arg0, W1_main_arg5, W1_main_arg6]

/-- The dense adjacency the host builds before the kernels is the reference's. -/
theorem W1_B (c : Dev nD) : W1 m c (Proc.devRef .tc main_v19) = Bm m c :=
  kernel_scatter (W0 m c)

/-- RESULT: the assignment matrix. -/
theorem res_S (c : Dev nD) : W5 m c (Proc.devRef .tc main_v20_0) = Sm m c :=
  calc W5 m c (Proc.devRef .tc main_v20_0)
    _ = W4 m c (Proc.devRef .tc main_v20_0) := StableHlo.after_of_forall_not_mem (b := Proc.devRef .tc main_v20_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_v20_0) := W4_of_ne m c main_v20_0 (by decide)
    _ = W2 m c (Proc.devRef .tc main_v20_0) := (W3_arr m c 0).trans (((dat1 (V2 m) c).arrAt_in 0 rfl _).trans (A_eq1 (V2 m) c 0))
    _ = Sm m c := W2_S m c

/-- RESULT: the pooled features. -/
theorem res_px (c : Dev nD) : W5 m c (Proc.devRef .tc main_v21) = Cert.Spec.pooledX (Sm m c) (Hm m c) :=
  calc W5 m c (Proc.devRef .tc main_v21)
    _ = W4 m c (Proc.devRef .tc main_v21) := StableHlo.after_of_forall_not_mem (b := Proc.devRef .tc main_v21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_v21) := W4_of_ne m c main_v21 (by decide)
    _ = (dat1 (V2 m) c).arrAt 2 cfg1.N := W3_arr m c 2
    _ = Cert.Spec.pooledX (W2 m c (Proc.devRef .tc main_v20_0)) (W2 m c (Proc.devRef .tc main_v20_2)) := arrAt1_out (V2 m) c
    _ = Cert.Spec.pooledX (Sm m c) (Hm m c) := by rw [W2_S, W2_H]

/-- What the third region leaves: the eight slabs. -/
theorem W4_Mp (c : Dev nD) : W4 m c (Proc.devRef .tc main_v22) = Cert.Spec.partialM (Sm m c) (Bm m c) :=
  calc W4 m c (Proc.devRef .tc main_v22)
    _ = (dat2 (V3 m) c).arrAt 2 cfg2.N := W4_arr m c 2
    _ = Cert.Spec.partialM (W3 m c (Proc.devRef .tc main_v20_1)) (W3 m c (Proc.devRef .tc main_v19)) := arrAt2_out (V3 m) c
    _ = Cert.Spec.partialM (Sm m c) (Bm m c) := by
        rw [W3_of_ne m c main_v20_1 (by decide), W3_of_ne m c main_v19 (by decide), W2_Sb, W2_of_ne m c main_v19 (by decide), W1_B]

/-- RESULT: the pooled adjacency. -/
theorem res_adj (c : Dev nD) : W5 m c (Proc.devRef .tc main_v25) = Cert.Spec.pooledAdj (Cert.Spec.partialM (Sm m c) (Bm m c)) := by
  refine (kernel_tail (W4 m c)).trans ?_
  rw [W4_Mp, tailOf_eq]

/-- THE KERNEL PROGRAM'S RUN: every weakly fair execution terminates, nothing faulting, with the three results at the
    plain functions of the arguments and the arguments unchanged. -/
theorem kernel_run : θ_run defs (onTc (τ := τ) (main (F := Ideal))) ⟨m, fun _ => 0, ρ⟩ (fun r => ∀ c : Dev nD,
      r.2.mem ((c.tc : Thread nD τ).loc main_v21) = Cert.Spec.pooledX (Sm m c) (Hm m c)
      ∧ r.2.mem ((c.tc : Thread nD τ).loc main_v25) = Cert.Spec.pooledAdj (Cert.Spec.partialM (Sm m c) (Bm m c))
      ∧ r.2.mem ((c.tc : Thread nD τ).loc main_v20_0) = Sm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v21 (by decide))).trans (res_px m c),
     (h c _ (mem_uc main_v25 (by decide))).trans (res_adj m c),
     (h c _ (mem_uc main_v20_0 (by decide))).trans (res_S m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_all m ρ)

end Cert.KernelIdeal.Fr

end
-- ==== Proof.Math.Finite.lean ====
/-
  What the precondition says: every entry of every float argument is a real number.

  The precondition is the conjunction, over the six float arguments, of "all entries satisfy |x| < +∞";
  an extended real whose absolute value `max x (−x)` lies strictly below `+∞` is neither infinity.
-/
import proofs.«105494_j56573309223698_2_alg».proof.Defs
import Idealize.ShloMosaic.Lib.ReduceAll
import Idealize.ShloMosaic.Lib.ValueIdx
import Idealize.ShloMosaic.Lib.Pipeline.Value

noncomputable section

namespace Cert.Math

open Idealize.ShloMosaic Idealize.ShloMosaic.ValueIdx

/-- The scalar shape has one index. -/
instance subsingleton_scalarIdx : Subsingleton (⟨0, ![]⟩ : Shape).Idx := ⟨fun _ _ => funext fun d => d.elim0⟩

/-- The word `0x7F800000` denotes `+∞`. -/
theorem ofBits_posInf : Ideal.ofBits .f32 0x7F800000#32 = (⊤ : EReal) := by
  simp [Ideal.ofBits, Ideal.ieee]

/-- An extended real with `|x| < +∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry of an array that passes the test `|x| < +∞` entrywise. -/
theorem entry_real {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) (⟨0, ![]⟩ : Shape) .f32 0x7F800000#32)) i = 1#1) :
    ∃ r : ℝ, x i = (r : EReal) := by
  rw [cmpf_apply, broadcastInDim_apply _ hb _ i (fun a => a.elim0) (fun a => a.elim0)] at h
  refine real_of_abs_lt_top (x i) ?_
  have h' : Ideal.cmp .olt (max (x i) (-(x i))) (Ideal.ofBits .f32 0x7F800000#32) = 1#1 := h
  rw [ofBits_posInf] at h'
  by_contra hn
  simp [Ideal.cmp, hn] at h'

open Cert.Pre_finite_inputs in
/-- Under the precondition every entry of every float argument is a real number. -/
theorem entries_real [hP : Cert.Pre_finite_inputs.Facts]
    (a0 : FVec Ideal S16384x128 .f32) (a1 : IVec S2x524288 32) (a2 : FVec Ideal S524288 .f32)
    (a3 : FVec Ideal S128x512 .f32) (a4 : FVec Ideal S512 .f32) (a5 : FVec Ideal S128x128 .f32)
    (a6 : FVec Ideal S128 .f32)
    (h : Cert.Pre_finite_inputs.fn (F := Ideal) a0 a1 a2 a3 a4 a5 a6 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have h0 := congrFun h ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨fun i => entry_real a0 _ i (Host.reduce_andi_all _ _ _ _ ix0 e0 i),
    fun i => entry_real a2 _ i (Host.reduce_andi_all _ _ _ _ ix0 e2 i),
    fun i => entry_real a3 _ i (Host.reduce_andi_all _ _ _ _ ix0 e3 i),
    fun i => entry_real a4 _ i (Host.reduce_andi_all _ _ _ _ ix0 e4 i),
    fun i => entry_real a5 _ i (Host.reduce_andi_all _ _ _ _ ix0 e5 i),
    fun i => entry_real a6 _ i (Host.reduce_andi_all _ _ _ _ ix0 e6 i)⟩

end Cert.Math

end
-- ==== Proof.Math.SoftReal.lean ====
/-
  The assignment matrix has finite nonnegative entries when the arguments are real.

  With real arguments every logit is real; the maximum of a row's 512 logits is one of them, so it is real;
  the shifted exponentials are positive reals; their sum over the row is a positive real; the quotient of a
  positive real by a positive real is a positive real.
-/
import proofs.«105494_j56573309223698_2_alg».proof.Proof.Spec
import Mathlib.Data.EReal.Operations
import Mathlib.Analysis.SpecialFunctions.Exp

noncomputable section

namespace Cert.Math

open Idealize.ShloMosaic Idealize.ShloMosaic.ValueIdx
open scoped BigOperators

/-- The coercion of a finite sum of reals is the sum of the coercions. -/
theorem coe_sum {ι : Type*} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- The maximum (from `⊥`) of a nonempty finite family is attained. -/
theorem fold_max_mem {ι : Type*} (f : ι → EReal) (t : Finset ι) (ht : t.Nonempty) :
    ∃ k ∈ t, t.fold max ⊥ f = f k := by
  classical
  revert ht
  refine Finset.induction_on t (fun h => absurd h Finset.not_nonempty_empty) ?_
  intro a t ha ih _
  rw [Finset.fold_insert ha]
  rcases t.eq_empty_or_nonempty with rfl | hne
  · refine ⟨a, Finset.mem_insert_self _ _, ?_⟩
    rw [Finset.fold_empty, max_bot_right]
  · obtain ⟨k, hk, e⟩ := ih hne
    rw [e]
    rcases max_choice (f a) (f k) with h | h
    · exact ⟨a, Finset.mem_insert_self _ _, h⟩
    · exact ⟨k, Finset.mem_insert_of_mem hk, h⟩

section

variable (x : Spec.Arr2 16384 128) (Wa : Spec.Arr2 128 512) (ba : Spec.Arr1 512)
  (hx : ∀ i, ∃ r : ℝ, x i = (r : EReal)) (hW : ∀ i, ∃ r : ℝ, Wa i = (r : EReal))
  (hb : ∀ i, ∃ r : ℝ, ba i = (r : EReal))

include hx hW hb

/-- Every logit is a real number. -/
theorem logit_real (r : Fin 16384) (k : Fin 512) : ∃ a : ℝ, Spec.logit x Wa ba r k = (a : EReal) := by
  choose fx hfx using hx
  choose fW hfW using hW
  choose fb hfb using hb
  refine ⟨(∑ q : Fin 128, fx (ix2 r q) * fW (ix2 q k)) + fb (ix1 k), ?_⟩
  unfold Spec.logit
  rw [EReal.coe_add, coe_sum, hfb]
  refine congrArg (· + _) (Finset.sum_congr rfl fun q _ => ?_)
  rw [hfx, hfW, EReal.coe_mul]

/-- Every row maximum is a real number: it is one of the row's logits. -/
theorem rowMax_real (r : Fin 16384) : ∃ m : ℝ, Spec.rowMax x Wa ba r = (m : EReal) := by
  obtain ⟨k, _, e⟩ := fold_max_mem (fun k => Spec.logit x Wa ba r k) Finset.univ ⟨0, Finset.mem_univ _⟩
  obtain ⟨a, ha⟩ := logit_real x Wa ba hx hW hb r k
  refine ⟨a, ?_⟩
  unfold Spec.rowMax
  rw [e, max_bot_left]
  exact ha

/-- Every shifted exponential is a positive real. -/
theorem expo_pos_real (r : Fin 16384) (k : Fin 512) :
    ∃ e : ℝ, 0 < e ∧ Spec.expo x Wa ba r k = (e : EReal) := by
  obtain ⟨a, ha⟩ := logit_real x Wa ba hx hW hb r k
  obtain ⟨m, hm⟩ := rowMax_real x Wa ba hx hW hb r
  refine ⟨Real.exp (a - m), Real.exp_pos _, ?_⟩
  unfold Spec.expo
  rw [ha, hm, ← EReal.coe_sub, Ideal.exp_coe]

/-- Every row sum of shifted exponentials is a positive real. -/
theorem rowSum_pos_real (r : Fin 16384) : ∃ z : ℝ, 0 < z ∧ Spec.rowSum x Wa ba r = (z : EReal) := by
  choose e he using fun k => expo_pos_real x Wa ba hx hW hb r k
  refine ⟨∑ k, e k, Finset.sum_pos (fun k _ => (he k).1) ⟨0, Finset.mem_univ _⟩, ?_⟩
  unfold Spec.rowSum
  rw [coe_sum]
  exact Finset.sum_congr rfl fun k _ => (he k).2

/-- Every softmax entry is finite and nonnegative. -/
theorem softAt_nonneg_ne_top (r : Fin 16384) (k : Fin 512) :
    0 ≤ Spec.softAt x Wa ba r k ∧ Spec.softAt x Wa ba r k ≠ ⊤ := by
  obtain ⟨e, he0, he⟩ := expo_pos_real x Wa ba hx hW hb r k
  obtain ⟨z, hz0, hz⟩ := rowSum_pos_real x Wa ba hx hW hb r
  unfold Spec.softAt
  rw [he, hz, Ideal.div_coe hz0.ne', ← EReal.coe_mul]
  exact ⟨EReal.coe_nonneg.2 (mul_nonneg he0.le (one_div_nonneg.2 hz0.le)), EReal.coe_ne_top _⟩

/-- The assignment matrix has finite nonnegative entries. -/
theorem soft_nonneg_ne_top (r : Fin 16384) (k : Fin 512) :
    0 ≤ Spec.soft x Wa ba (ix2 r k) ∧ Spec.soft x Wa ba (ix2 r k) ≠ ⊤ :=
  softAt_nonneg_ne_top x Wa ba hx hW hb r k

end

end Cert.Math

end
-- ==== Proof.Math.RefPooledX.lean ====
/-
  The reference's transformed features and pooled features, entry by entry.

  `h = x · Wf + bf`; the pooled features are `Sᵀ · h`: the transpose of the assignment matrix is read through
  its index map, then the contraction over the 16384 nodes.
-/
import proofs.«105494_j56573309223698_2_alg».proof.Proof.Math.RefSoft

set_option pp.maxSteps 5000
set_option pp.deepTerms false

noncomputable section

namespace Cert.Math

open Cert.ReferenceIdeal Cert.ReferenceIdeal.Gen Cert.ReferenceIdeal.Read Idealize.ShloMosaic Idealize.ShloMosaic.ValueIdx
open scoped BigOperators

theorem lidx_v15_ix2 (r : Fin 16384) (ch : Fin 128) (q : Fin 128) : lidx_main_v15 (ix2 r ch) q = ix2 r q :=
  funext fun a => Fin.ext (by match a with | ⟨0, _⟩ => rfl | ⟨1, _⟩ => rfl)

theorem ridx_v15_ix2 (r : Fin 16384) (ch : Fin 128) (q : Fin 128) : ridx_main_v15 (ix2 r ch) q = ix2 q ch :=
  funext fun a => Fin.ext (by match a with | ⟨0, _⟩ => rfl | ⟨1, _⟩ => rfl)

theorem idx_v16_v17_ix2 (r : Fin 16384) (ch : Fin 128) : idx_main_v16 (idx_main_v17 (ix2 r ch)) = ix1 ch :=
  funext fun a => Fin.ext (by match a with | ⟨0, _⟩ => rfl)

theorem lidx_v20_ix2 (k : Fin 512) (ch : Fin 128) (r : Fin 16384) : lidx_main_v20 (ix2 k ch) r = ix2 k r :=
  funext fun a => Fin.ext (by match a with | ⟨0, _⟩ => rfl | ⟨1, _⟩ => rfl)

theorem ridx_v20_ix2 (k : Fin 512) (ch : Fin 128) (r : Fin 16384) : ridx_main_v20 (ix2 k ch) r = ix2 r ch :=
  funext fun a => Fin.ext (by match a with | ⟨0, _⟩ => rfl | ⟨1, _⟩ => rfl)

theorem idx_v19_ix2 (k : Fin 512) (r : Fin 16384) : idx_main_v19 (ix2 k r) = ix2 r k :=
  funext fun a => Fin.ext (by match a with | ⟨0, _⟩ => rfl | ⟨1, _⟩ => rfl)

section

variable (x0 : (⟨S16384x128, .f32⟩ : BufTy).Contents (Elt Ideal)) (x3 : (⟨S128x512, .f32⟩ : BufTy).Contents (Elt Ideal))
  (x4 : (⟨S512, .f32⟩ : BufTy).Contents (Elt Ideal)) (x5 : (⟨S128x128, .f32⟩ : BufTy).Contents (Elt Ideal))
  (x6 : (⟨S128, .f32⟩ : BufTy).Contents (Elt Ideal))

/-- The transformed features. -/
theorem ref_feat : val_main_v18 (F := Ideal) x0 x5 x6 = Spec.feat x0 x5 x6 := by
  funext i
  obtain ⟨r, ch, rfl⟩ : ∃ (r : Fin 16384) (ch : Fin 128), i = ix2 r ch := ⟨i 0, i 1, eq_ix2 i⟩
  rw [Spec.feat_ix2, val_main_v18_apply, val_main_v15_apply, val_main_v17_apply, val_main_v16_apply, idx_v16_v17_ix2]
  simp only [lidx_v15_ix2, ridx_v15_ix2]
  rfl

/-- The pooled features `Sᵀ · h`. -/
theorem ref_pooledX :
    val_main_v20 (F := Ideal) x0 x3 x4 x5 x6 = Spec.pooledX (Spec.soft x0 x3 x4) (Spec.feat x0 x5 x6) := by
  funext i
  obtain ⟨k, ch, rfl⟩ : ∃ (k : Fin 512) (ch : Fin 128), i = ix2 k ch := ⟨i 0, i 1, eq_ix2 i⟩
  rw [Spec.pooledX_ix2, val_main_v20_apply]
  unfold Spec.pooledXAt
  refine Finset.sum_congr rfl fun r _ => ?_
  rw [lidx_v20_ix2, ridx_v20_ix2, val_main_v19_apply, idx_v19_ix2, ref_soft, ref_feat]

end

end Cert.Math

end
-- ==== Proof.Math.RefRun.lean ====
/-
  The reference program's run, with its three results stated as the plain functions of the arguments:
  the pooled features `Sᵀ · h`, the pooled adjacency `M + Mᵀ` (`M` the sum of the eight column-block slabs of
  `Sᵀ · B · S`, `B` the reference's own dense adjacency before symmetrisation) and the assignment matrix `S`.
  The precondition (all float arguments finite) is what makes `S` finite and nonnegative, hence the law.
-/
import proofs.«105494_j56573309223698_2_alg».proof.Proof.Math.Finite
import proofs.«105494_j56573309223698_2_alg».proof.Proof.Math.SoftReal
import proofs.«105494_j56573309223698_2_alg».proof.Proof.Math.RefPooledX
import proofs.«105494_j56573309223698_2_alg».proof.Proof.Math.RefAdj

set_option pp.maxSteps 5000
set_option pp.deepTerms false

noncomputable section

namespace Cert.Math

open Idealize.ShloMosaic Idealize.SL.Sem Idealize.ShloMosaic.ValueIdx

/-- Every weakly fair execution of the reference terminates, nothing faulting, with the pooled features, the
    pooled adjacency and the assignment matrix at the plain functions of the arguments, and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg)
    [hF : Cert.ReferenceIdeal.Facts] [hP : Cert.Pre_finite_inputs.Facts] (hpre : Cert.Pre_ReferenceIdeal m') :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
        r.2.mem ((c.tc : Thread Cert.ReferenceIdeal.nD Cert.ReferenceIdeal.τ).loc Cert.ReferenceIdeal.main_v20) = Cert.Spec.pooledX (Cert.Spec.soft (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (Cert.Spec.feat (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)))
        ∧ r.2.mem ((c.tc : Thread Cert.ReferenceIdeal.nD Cert.ReferenceIdeal.τ).loc Cert.ReferenceIdeal.main_v44) = Cert.Spec.pooledAdj (Cert.Spec.partialM (Cert.Spec.soft (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (Cert.Math.refB (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))))
        ∧ r.2.mem ((c.tc : Thread Cert.ReferenceIdeal.nD Cert.ReferenceIdeal.τ).loc Cert.ReferenceIdeal.main_v14) = Cert.Spec.soft (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) := by
  refine (θ_run (Cert.ReferenceIdeal.defs (F := Ideal)) _ _).mono (fun r h c => ?_)
    (Cert.ReferenceIdeal.Value.run (F := Ideal) m' ρ')
  obtain ⟨h20, h44, h14, hargs⟩ := h c
  obtain ⟨hx, _, hW, hb, _, _⟩ := entries_real (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (hpre c)
  refine ⟨?_, ?_, ?_, hargs⟩
  · rw [h20, Cert.ReferenceIdeal.Read.val_main_v20_eq, ref_pooledX]
  · rw [h44, Cert.ReferenceIdeal.Read.val_main_v44_eq,
      ref_pooledAdj _ _ _ _ _ (fun r k => soft_nonneg_ne_top (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) hx hW hb r k)]
  · rw [h14, Cert.ReferenceIdeal.Read.val_main_v14_eq, ref_soft]

end Cert.Math

end
-- ==== Proof.lean ====
/-
  The certificate: a graph-pooling layer computed by three tiled kernels against its plain array formulation.

  Both programs compute, from node features `x`, an edge list with weights and four weight arrays: the assignment matrix
  `S = softmax (x · Wa + ba)` over 512 clusters; the pooled features `Sᵀ · (x · Wf + bf)`; and the pooled adjacency
  `Sᵀ · (A + Aᵀ) · S`, where `A` is the dense 16384 × 16384 array the edge weights are scattered into.
  The tiled program computes `S` and the features in blocks of 2048 rows, accumulates `Sᵀ · h` over the eight row blocks,
  forms `M = Sᵀ · A · S` as eight slabs (one per block of 2048 columns of `A`, each accumulated over the eight row blocks)
  and returns `M + Mᵀ`. Over the extended reals the two pooled adjacencies agree because every entry of `S` is a
  nonnegative real when the inputs are finite: multiplication by such an entry distributes over any sum of extended reals,
  so `Sᵀ · (A + Aᵀ) · S = Sᵀ · A · S + (Sᵀ · A · S)ᵀ`; everything else is a regrouping of finite sums.

  The three frame claims: each kernel region is entered with every unscoped buffer at named contents and left with its
  output arrays at what its grid points wrote back; the second and third kernels carry an accumulator between grid points,
  whose contents after each point the region's invariant names. The reference's frame is its run with the results dropped.
-/
import proofs.«105494_j56573309223698_2_alg».proof.Defs
import proofs.«105494_j56573309223698_2_alg».proof.Proof.Gen.Kernel
import proofs.«105494_j56573309223698_2_alg».proof.Proof.Gen.KernelIdeal
import proofs.«105494_j56573309223698_2_alg».proof.Proof.Gen.ReferenceIdeal
import proofs.«105494_j56573309223698_2_alg».proof.Proof.Gen.ReferenceIdeal.Run
import proofs.«105494_j56573309223698_2_alg».proof.Proof.Gen.ReferenceIdeal.Read
import proofs.«105494_j56573309223698_2_alg».proof.Proof.Gen.Pre_finite_inputs
import proofs.«105494_j56573309223698_2_alg».proof.Proof.K.Args
import proofs.«105494_j56573309223698_2_alg».proof.Proof.KI.Results
import proofs.«105494_j56573309223698_2_alg».proof.Proof.Math.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- The reference's memory agrees with the kernel program's on the arguments, so the precondition carries over. -/
theorem pre_ref (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.Pre_ReferenceIdeal m' := fun c => by
  obtain ⟨h0, h1, h2, h3, h4, h5, h6⟩ := hagree c
  rw [h0, h1, h2, h3, h4, h5, h6]
  exact hpre c

theorem algebraic : Cert.algebraic_KernelIdeal_ReferenceIdeal := by
  intro m ρ m' ρ' hpre hagree
  refine ⟨_, _, _, Cert.KernelIdeal.Fr.kernel_run m ρ, ?_⟩
  refine (θ_run (Cert.ReferenceIdeal.defs (F := Ideal)) _ _).mono (fun r h c => ?_) (Cert.Math.ref_run m' ρ' (pre_ref m m' hpre hagree))
  obtain ⟨h0, h1, h2, h3, h4, h5, h6⟩ := hagree c
  obtain ⟨r20, r44, r14, rargs⟩ := h c
  refine ⟨r20.trans ?_, r44.trans ?_, r14.trans ?_, rargs⟩
  · rw [h0, h3, h4, h5, h6]
  · rw [h0, h1, h2, h3, h4]
  · rw [h0, h3, h4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
